-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg8 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  main_v38

def fn_part1 {F : FTy → Type} [FloatOps F] (main_arg5 : FVec F S128x128 .f32) (main_arg6 : FVec F S128 .f32) (main_arg7 : FVec F S128 .f32) (main_arg8 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128x128 .f32) (main_arg6 : FVec F S128 .f32) (main_arg7 : FVec F S128 .f32) (main_arg8 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩
abbrev S20x1x128 : Shape := ⟨3, ![20, 1, 128]⟩
abbrev S5000x128 : Shape := ⟨2, ![5000, 128]⟩
abbrev S1x1x128 : Shape := ⟨3, ![1, 1, 128]⟩
abbrev S20x128 : Shape := ⟨2, ![20, 128]⟩

abbrev nBuf : Space → Nat
  | .hbm => 66
  | .vmem => 21
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S1x1600000, .i32⟩
  | .hbm, ⟨10, _⟩ => ⟨S1600000, .i32⟩
  | .hbm, ⟨11, _⟩ => ⟨S1x1600000, .i32⟩
  | .hbm, ⟨12, _⟩ => ⟨S1600000, .i32⟩
  | .hbm, ⟨13, _⟩ => ⟨S100000x128, .bf16⟩
  | .hbm, ⟨14, _⟩ => ⟨S_, .i32⟩
  | .hbm, ⟨15, _⟩ => ⟨S1600000, .i32⟩
  | .hbm, ⟨16, _⟩ => ⟨S1600000, .i1⟩
  | .hbm, ⟨17, _⟩ => ⟨S_, .i32⟩
  | .hbm, ⟨18, _⟩ => ⟨S1600000, .i32⟩
  | .hbm, ⟨19, _⟩ => ⟨S1600000, .i32⟩
  | .hbm, ⟨20, _⟩ => ⟨S1600000, .i32⟩
  | .hbm, ⟨21, _⟩ => ⟨S1600000x1, .i32⟩
  | .hbm, ⟨22, _⟩ => ⟨S1600000x128, .bf16⟩
  | .hbm, ⟨23, _⟩ => ⟨S1600000x128, .f32⟩
  | .hbm, ⟨24, _⟩ => ⟨S_, .f32⟩
  | .hbm, ⟨25, _⟩ => ⟨S100000x128, .f32⟩
  | .hbm, ⟨26, _⟩ => ⟨S1600000x1, .i32⟩
  | .hbm, ⟨27, _⟩ => ⟨S100000x128, .f32⟩
  | .hbm, ⟨28, _⟩ => ⟨S128x128, .f32⟩
  | .hbm, ⟨29, _⟩ => ⟨S128x128, .bf16⟩
  | .hbm, ⟨30, _⟩ => ⟨S128x128, .f32⟩
  | .hbm, ⟨31, _⟩ => ⟨S128x128, .bf16⟩
  | .hbm, ⟨32, _⟩ => ⟨S128x128, .f32⟩
  | .hbm, ⟨33, _⟩ => ⟨S128x128, .bf16⟩
  | .hbm, ⟨34, _⟩ => ⟨S1x128, .f32⟩
  | .hbm, ⟨35, _⟩ => ⟨S1x128, .f32⟩
  | .hbm, ⟨36, _⟩ => ⟨S100000x128, .f32⟩
  | .hbm, ⟨37, _⟩ => ⟨S20x1x128, .f32⟩
  | .hbm, ⟨38, _⟩ => ⟨S20x1x128, .f32⟩
  | .hbm, ⟨39, _⟩ => ⟨S20x128, .f32⟩
  | .hbm, ⟨40, _⟩ => ⟨S_, .f32⟩
  | .hbm, ⟨41, _⟩ => ⟨S128, .f32⟩
  | .hbm, ⟨42, _⟩ => ⟨S20x128, .f32⟩
  | .hbm, ⟨43, _⟩ => ⟨S_, .f32⟩
  | .hbm, ⟨44, _⟩ => ⟨S128, .f32⟩
  | .hbm, ⟨45, _⟩ => ⟨S_, .f32⟩
  | .hbm, ⟨46, _⟩ => ⟨S128, .f32⟩
  | .hbm, ⟨47, _⟩ => ⟨S128, .f32⟩
  | .hbm, ⟨48, _⟩ => ⟨S_, .f32⟩
  | .hbm, ⟨49, _⟩ => ⟨S128, .f32⟩
  | .hbm, ⟨50, _⟩ => ⟨S128, .f32⟩
  | .hbm, ⟨51, _⟩ => ⟨S128, .f32⟩
  | .hbm, ⟨52, _⟩ => ⟨S128, .f32⟩
  | .hbm, ⟨53, _⟩ => ⟨S_, .f32⟩
  | .hbm, ⟨54, _⟩ => ⟨S128, .f32⟩
  | .hbm, ⟨55, _⟩ => ⟨S128, .f32⟩
  | .hbm, ⟨56, _⟩ => ⟨S_, .f32⟩
  | .hbm, ⟨57, _⟩ => ⟨S128, .f32⟩
  | .hbm, ⟨58, _⟩ => ⟨S128, .f32⟩
  | .hbm, ⟨59, _⟩ => ⟨S128, .f32⟩
  | .hbm, ⟨60, _⟩ => ⟨S128, .f32⟩
  | .hbm, ⟨61, _⟩ => ⟨S128, .f32⟩
  | .hbm, ⟨62, _⟩ => ⟨S128, .f32⟩
  | .hbm, ⟨63, _⟩ => ⟨S1x128, .f32⟩
  | .hbm, ⟨64, _⟩ => ⟨S1x128, .f32⟩
  | .hbm, ⟨65, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .bf16⟩
  | .local _ .vmem, ⟨5, _⟩ => ⟨S1x128, .f32⟩
  | .local _ .vmem, ⟨6, _⟩ => ⟨S128x128, .bf16⟩
  | .local _ .vmem, ⟨7, _⟩ => ⟨S128x128, .bf16⟩
  | .local _ .vmem, ⟨8, _⟩ => ⟨S1x128, .f32⟩
  | .local _ .vmem, ⟨9, _⟩ => ⟨S5000x128, .f32⟩
  | .local _ .vmem, ⟨10, _⟩ => ⟨S5000x128, .f32⟩
  | .local _ .vmem, ⟨11, _⟩ => ⟨S1x1x128, .f32⟩
  | .local _ .vmem, ⟨12, _⟩ => ⟨S1x1x128, .f32⟩
  | .local _ .vmem, ⟨13, _⟩ => ⟨S1x1x128, .f32⟩
  | .local _ .vmem, ⟨14, _⟩ => ⟨S1x1x128, .f32⟩
  | .local _ .vmem, ⟨15, _⟩ => ⟨S5000x128, .f32⟩
  | .local _ .vmem, ⟨16, _⟩ => ⟨S5000x128, .f32⟩
  | .local _ .vmem, ⟨17, _⟩ => ⟨S1x128, .f32⟩
  | .local _ .vmem, ⟨18, _⟩ => ⟨S1x128, .f32⟩
  | .local _ .vmem, ⟨19, _⟩ => ⟨S5000x128, .f32⟩
  | .local _ .vmem, ⟨20, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c : Ref sig .tc := ⟨.hbm, 14, rfl⟩
abbrev main_v5 : Ref sig .tc := ⟨.hbm, 15, rfl⟩
abbrev main_v6 : Ref sig .tc := ⟨.hbm, 16, rfl⟩
abbrev main_c_0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24_0 : Ref sig .tc := ⟨.hbm, 36, rfl⟩
abbrev main_v24_1 : Ref sig .tc := ⟨.hbm, 37, rfl⟩
abbrev main_v24_2 : Ref sig .tc := ⟨.hbm, 38, rfl⟩
abbrev main_v25 : Ref sig .tc := ⟨.hbm, 39, rfl⟩
abbrev main_cst_1 : Ref sig .tc := ⟨.hbm, 40, rfl⟩
abbrev main_v26 : Ref sig .tc := ⟨.hbm, 41, rfl⟩
abbrev main_v27 : Ref sig .tc := ⟨.hbm, 42, rfl⟩
abbrev main_cst_2 : Ref sig .tc := ⟨.hbm, 43, rfl⟩
abbrev main_v28 : Ref sig .tc := ⟨.hbm, 44, rfl⟩
abbrev main_cst_3 : Ref sig .tc := ⟨.hbm, 45, rfl⟩
abbrev main_v29 : Ref sig .tc := ⟨.hbm, 46, rfl⟩
abbrev main_v30 : Ref sig .tc := ⟨.hbm, 47, rfl⟩
abbrev main_cst_4 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_5 : Ref sig .tc := ⟨.hbm, 53, rfl⟩
abbrev main_v35 : Ref sig .tc := ⟨.hbm, 54, rfl⟩
abbrev main_v36 : Ref sig .tc := ⟨.hbm, 55, rfl⟩
abbrev main_cst_6 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg2_0 : Ref sig .tc := ⟨.vmem, 18, rfl⟩
abbrev cc1_stg3_0 : Ref sig .tc := ⟨.vmem, 19, rfl⟩
abbrev cc1_stg3_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc1_sem0_0 : DmaSem sig := 15
abbrev cc1_sem0_1 : DmaSem sig := 16
abbrev cc1_sem1_0 : DmaSem sig := 17
abbrev cc1_sem2_0 : DmaSem sig := 18
abbrev cc1_sem3_0 : DmaSem sig := 19
abbrev cc1_sem3_1 : DmaSem sig := 20

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S5000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bitsLt_bf16_f32 : FTy.bits .bf16 < FTy.bits .f32
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  transposes_S128x128_S128x128_1_0 : S128x128.Transposes [1, 0] S128x128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  reduces_S5000x128_S128 : S5000x128.Reduces [0] S128
  shapeCasts_S1x128_S1x1x128 : S1x128.ShapeCasts S1x1x128
  inb_S1x1x128_S1x1x128_0_0_0 : ∀ a, (![0, 0, 0] : Fin 3 → Nat) a + S1x1x128.size a ≤ S1x1x128.size a
  h_S1x1x128 : 0 < S1x1x128.numel
  shapeCasts_S20x1x128_S20x128 : S20x1x128.ShapeCasts S20x128
  reducesTo_S20x128_S128_d0 : S20x128.ReducesTo [0] S128
  h_S_ : 0 < S_.numel
  bcast_S_S128 : S_.BroadcastsInDim S128 (![] : Fin 0 → Fin S128.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .bf16 = 32 ∨ (Rect.block (s := S128x128) S128x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .bf16 = 32 ∨ (Rect.block (s := S128x128) S128x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .bf16 = 32 ∨ (Rect.block (s := S128x128) S128x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S5000x128.size a ≤ S100000x128.size a
  hwx0_7 : ∀ i : grid0.Coords, EltTy.bits .f32 = 32 ∨ (Rect.block (s := S100000x128) S5000x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x1x128.size a ≤ S20x1x128.size a
  hwx0_8 : ∀ i : grid0.Coords, EltTy.bits .f32 = 32 ∨ (Rect.block (s := S20x1x128) S1x1x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x1x128.size a ≤ S20x1x128.size a
  hwx0_9 : ∀ i : grid0.Coords, EltTy.bits .f32 = 32 ∨ (Rect.block (s := S20x1x128) S1x1x128.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S100000x128.size a
  hwx1_3 : ∀ i : grid1.Coords, EltTy.bits .f32 = 32 ∨ (Rect.block (s := S100000x128) S5000x128.size (cc1_transform_3 i) (hinb1_3 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v17) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v22) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v21) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v23) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v24_0) S5000x128.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v24_1) S1x1x128.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v24_2) S1x1x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v24_0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v43) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v44) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩

abbrev nBuf : Space → Nat
  | .hbm => 90
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S1x1600000, .i32⟩
  | .hbm, ⟨10, _⟩ => ⟨S1600000, .i32⟩
  | .hbm, ⟨11, _⟩ => ⟨S1x1600000, .i32⟩
  | .hbm, ⟨12, _⟩ => ⟨S1600000, .i32⟩
  | .hbm, ⟨13, _⟩ => ⟨S_, .i32⟩
  | .hbm, ⟨14, _⟩ => ⟨S1600000, .i32⟩
  | .hbm, ⟨15, _⟩ => ⟨S1600000, .i1⟩
  | .hbm, ⟨16, _⟩ => ⟨S_, .i32⟩
  | .hbm, ⟨17, _⟩ => ⟨S1600000, .i32⟩
  | .hbm, ⟨18, _⟩ => ⟨S1600000, .i32⟩
  | .hbm, ⟨19, _⟩ => ⟨S1600000, .i32⟩
  | .hbm, ⟨20, _⟩ => ⟨S1600000x1, .i32⟩
  | .hbm, ⟨21, _⟩ => ⟨S1600000x128, .f32⟩
  | .hbm, ⟨22, _⟩ => ⟨S_, .f32⟩
  | .hbm, ⟨23, _⟩ => ⟨S100000x128, .f32⟩
  | .hbm, ⟨24, _⟩ => ⟨S1600000x1, .i32⟩
  | .hbm, ⟨25, _⟩ => ⟨S100000x128, .f32⟩
  | .hbm, ⟨26, _⟩ => ⟨S128x128, .f32⟩
  | .hbm, ⟨27, _⟩ => ⟨S100000x128, .f32⟩
  | .hbm, ⟨28, _⟩ => ⟨S1x128, .f32⟩
  | .hbm, ⟨29, _⟩ => ⟨S100000x128, .f32⟩
  | .hbm, ⟨30, _⟩ => ⟨S100000x128, .f32⟩
  | .hbm, ⟨31, _⟩ => ⟨S128x128, .f32⟩
  | .hbm, ⟨32, _⟩ => ⟨S100000x128, .f32⟩
  | .hbm, ⟨33, _⟩ => ⟨S100000x128, .f32⟩
  | .hbm, ⟨34, _⟩ => ⟨S_, .f32⟩
  | .hbm, ⟨35, _⟩ => ⟨S100000x128, .f32⟩
  | .hbm, ⟨36, _⟩ => ⟨S100000x128, .f32⟩
  | .hbm, ⟨37, _⟩ => ⟨S128x128, .f32⟩
  | .hbm, ⟨38, _⟩ => ⟨S100000x128, .f32⟩
  | .hbm, ⟨39, _⟩ => ⟨S1x128, .f32⟩
  | .hbm, ⟨40, _⟩ => ⟨S100000x128, .f32⟩
  | .hbm, ⟨41, _⟩ => ⟨S100000x128, .f32⟩
  | .hbm, ⟨42, _⟩ => ⟨S_, .f32⟩
  | .hbm, ⟨43, _⟩ => ⟨S100000x128, .f32⟩
  | .hbm, ⟨44, _⟩ => ⟨S100000x128, .f32⟩
  | .hbm, ⟨45, _⟩ => ⟨S100000x128, .f32⟩
  | .hbm, ⟨46, _⟩ => ⟨S_, .f32⟩
  | .hbm, ⟨47, _⟩ => ⟨S128, .f32⟩
  | .hbm, ⟨48, _⟩ => ⟨S_, .f32⟩
  | .hbm, ⟨49, _⟩ => ⟨S128, .f32⟩
  | .hbm, ⟨50, _⟩ => ⟨S128, .f32⟩
  | .hbm, ⟨51, _⟩ => ⟨S_, .i32⟩
  | .hbm, ⟨52, _⟩ => ⟨S_, .f32⟩
  | .hbm, ⟨53, _⟩ => ⟨S128, .f32⟩
  | .hbm, ⟨54, _⟩ => ⟨S1x128, .f32⟩
  | .hbm, ⟨55, _⟩ => ⟨S_, .f32⟩
  | .hbm, ⟨56, _⟩ => ⟨S1x128, .f32⟩
  | .hbm, ⟨57, _⟩ => ⟨S1x128, .f32⟩
  | .hbm, ⟨58, _⟩ => ⟨S100000x128, .f32⟩
  | .hbm, ⟨59, _⟩ => ⟨S100000x128, .f32⟩
  | .hbm, ⟨60, _⟩ => ⟨S100000x128, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S128, .f32⟩
  | .hbm, ⟨66, _⟩ => ⟨S128, .f32⟩
  | .hbm, ⟨67, _⟩ => ⟨S128, .f32⟩
  | .hbm, ⟨68, _⟩ => ⟨S_, .f32⟩
  | .hbm, ⟨69, _⟩ => ⟨S_, .i1⟩
  | .hbm, ⟨70, _⟩ => ⟨S_, .f32⟩
  | .hbm, ⟨71, _⟩ => ⟨S_, .f32⟩
  | .hbm, ⟨72, _⟩ => ⟨S128, .f32⟩
  | .hbm, ⟨73, _⟩ => ⟨S128, .f32⟩
  | .hbm, ⟨74, _⟩ => ⟨S1x128, .f32⟩
  | .hbm, ⟨75, _⟩ => ⟨S100000x128, .f32⟩
  | .hbm, ⟨76, _⟩ => ⟨S100000x128, .f32⟩
  | .hbm, ⟨77, _⟩ => ⟨S_, .f32⟩
  | .hbm, ⟨78, _⟩ => ⟨S128, .f32⟩
  | .hbm, ⟨79, _⟩ => ⟨S128, .f32⟩
  | .hbm, ⟨80, _⟩ => ⟨S128, .f32⟩
  | .hbm, ⟨81, _⟩ => ⟨S1x128, .f32⟩
  | .hbm, ⟨82, _⟩ => ⟨S100000x128, .f32⟩
  | .hbm, ⟨83, _⟩ => ⟨S100000x128, .f32⟩
  | .hbm, ⟨84, _⟩ => ⟨S1x128, .f32⟩
  | .hbm, ⟨85, _⟩ => ⟨S100000x128, .f32⟩
  | .hbm, ⟨86, _⟩ => ⟨S100000x128, .f32⟩
  | .hbm, ⟨87, _⟩ => ⟨S1x128, .f32⟩
  | .hbm, ⟨88, _⟩ => ⟨S100000x128, .f32⟩
  | .hbm, ⟨89, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_call0_cst : Ref sig .tc := ⟨.hbm, 34, rfl⟩
abbrev main_call0_v0 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_call1_cst : Ref sig .tc := ⟨.hbm, 42, rfl⟩
abbrev main_call1_v0 : Ref sig .tc := ⟨.hbm, 43, rfl⟩
abbrev main_v28 : Ref sig .tc := ⟨.hbm, 44, rfl⟩
abbrev main_v29 : Ref sig .tc := ⟨.hbm, 45, rfl⟩
abbrev main_cst_1 : Ref sig .tc := ⟨.hbm, 46, rfl⟩
abbrev main_v30 : Ref sig .tc := ⟨.hbm, 47, rfl⟩
abbrev main_cst_2 : Ref sig .tc := ⟨.hbm, 48, rfl⟩
abbrev main_v31 : Ref sig .tc := ⟨.hbm, 49, rfl⟩
abbrev main_v32 : Ref sig .tc := ⟨.hbm, 50, rfl⟩
abbrev main_c_3 : Ref sig .tc := ⟨.hbm, 51, rfl⟩
abbrev main_call2_cst : Ref sig .tc := ⟨.hbm, 52, rfl⟩
abbrev main_call2_v0 : Ref sig .tc := ⟨.hbm, 53, rfl⟩
abbrev main_call2_v1 : Ref sig .tc := ⟨.hbm, 54, rfl⟩
abbrev main_call2_cst_0 : Ref sig .tc := ⟨.hbm, 55, rfl⟩
abbrev main_call2_v2 : Ref sig .tc := ⟨.hbm, 56, rfl⟩
abbrev main_call2_v3 : Ref sig .tc := ⟨.hbm, 57, rfl⟩
abbrev main_call2_v4 : Ref sig .tc := ⟨.hbm, 58, rfl⟩
abbrev main_call2_v5 : Ref sig .tc := ⟨.hbm, 59, rfl⟩
abbrev main_call2_v6 : Ref sig .tc := ⟨.hbm, 60, rfl⟩
abbrev main_call2_v7 : Ref sig .tc := ⟨.hbm, 61, rfl⟩
abbrev main_call2_cst_1 : Ref sig .tc := ⟨.hbm, 62, rfl⟩
abbrev main_call2_v8 : Ref sig .tc := ⟨.hbm, 63, rfl⟩
abbrev main_call2_cst_2 : Ref sig .tc := ⟨.hbm, 64, rfl⟩
abbrev main_call2_v9 : Ref sig .tc := ⟨.hbm, 65, rfl⟩
abbrev main_call2_v10 : Ref sig .tc := ⟨.hbm, 66, rfl⟩
abbrev main_call2_v11 : Ref sig .tc := ⟨.hbm, 67, rfl⟩
abbrev main_call2_cst_3 : Ref sig .tc := ⟨.hbm, 68, rfl⟩
abbrev main_call2_v12 : Ref sig .tc := ⟨.hbm, 69, rfl⟩
abbrev main_call2_cst_4 : Ref sig .tc := ⟨.hbm, 70, rfl⟩
abbrev main_call2_call0_v0 : Ref sig .tc := ⟨.hbm, 71, rfl⟩
abbrev main_call2_call0_v1 : Ref sig .tc := ⟨.hbm, 72, rfl⟩
abbrev main_v33 : Ref sig .tc := ⟨.hbm, 73, rfl⟩
abbrev main_v34 : Ref sig .tc := ⟨.hbm, 74, rfl⟩
abbrev main_v35 : Ref sig .tc := ⟨.hbm, 75, rfl⟩
abbrev main_v36 : Ref sig .tc := ⟨.hbm, 76, rfl⟩
abbrev main_cst_4 : Ref sig .tc := ⟨.hbm, 77, rfl⟩
abbrev main_v37 : Ref sig .tc := ⟨.hbm, 78, rfl⟩
abbrev main_v38 : Ref sig .tc := ⟨.hbm, 79, rfl⟩
abbrev main_v39 : Ref sig .tc := ⟨.hbm, 80, rfl⟩
abbrev main_v40 : Ref sig .tc := ⟨.hbm, 81, rfl⟩
abbrev main_v41 : Ref sig .tc := ⟨.hbm, 82, rfl⟩
abbrev main_v42 : Ref sig .tc := ⟨.hbm, 83, rfl⟩
abbrev main_v43 : Ref sig .tc := ⟨.hbm, 84, rfl⟩
abbrev main_v44 : Ref sig .tc := ⟨.hbm, 85, rfl⟩
abbrev main_v45 : Ref sig .tc := ⟨.hbm, 86, rfl⟩
abbrev main_v46 : Ref sig .tc := ⟨.hbm, 87, rfl⟩
abbrev main_v47 : Ref sig .tc := ⟨.hbm, 88, rfl⟩
abbrev main_v48 : Ref sig .tc := ⟨.hbm, 89, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.KRun.lean ====
/-
  The idealized kernel program's run, with its result array NAMED.

  The program is two kernel regions among three stretches of host operations.  Its whole run is the launch over
  those four segments; the last thread state holds every unscoped buffer at the contents the last boundary leaves
  ("W4": region 1's arrays at what its write-backs leave, every other buffer as region 1 found it).  Reading that
  state at the result buffer as well as at the nine arguments gives: every weakly fair execution terminates, the
  result array ends at "W4" read at the result buffer, and the arguments end unchanged.
-/
import proofs.«113694_j2010044694725_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting; the result array ends at the last
    boundary's contents read at the result buffer, and the nine argument arrays end as launched. -/
theorem run : θ_run defs (onTc (τ := τ) (main (F := F))) ⟨m, fun _ => 0, ρ⟩ (fun r => ∀ c : Dev nD,
      r.2.mem ((c.tc : Thread nD τ).loc main_v45) = W4 m ρ c (Proc.devRef .tc main_v45)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v45 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c)⟩)

end Cert.KernelIdeal.KRun

end
-- ==== Proof.LibRowWise.lean ====
/-
  Row-wise layers on rank-2 arrays of extended reals.

  Every layer of the network is ROW-WISE: row r of its result is a function of row r of its input (and of a small
  parameter array).  "rowMap f x" applies a row function "f" to every row of "x".  The three row functions:
  "linRow w" (the row times the matrix "w": entry c is the sum over l of z l * w (l, c)), "reluRow b" (add the
  one-row array "b", then the maximum with zero) and "lsmRow b" (add "b", subtract the row's maximum, then subtract
  the logarithm of the sum of the exponentials: the logarithm of the softmax).  The row's maximum is the fold of
  "max" from minus infinity, which is how both a lane reduction and a host reduction read it.

  A row-wise layer commutes with cutting out a band of rows ("rowMap_band"): the band of the result is the result
  of the band.  That one fact is what lets a computation done band by band be compared with the whole computation.
-/
import Idealize.ShloMosaic.Lib.ValueIdx
import Idealize.ShloMosaic.PureOps.Ideal.Laws

noncomputable section

open scoped BigOperators

namespace GcnSpec

open Idealize.ShloMosaic Idealize.ShloMosaic.ValueIdx

/-- An n × k array of extended reals. -/
abbrev Arr (n k : ℕ) : Type := (⟨2, ![n, k]⟩ : Shape).Idx → EReal

/-- Row r of an array, as a function of the column. -/
def row {n k : ℕ} (x : Arr n k) (r : Fin n) : Fin k → EReal := fun l => x (ix2 r l)

/-- A row function applied to every row. -/
def rowMap {n k q : ℕ} (f : (Fin k → EReal) → Fin q → EReal) (x : Arr n k) : Arr n q :=
  fun i => f (row x ⟨(i 0).val, idx2_lt0 i⟩) ⟨(i 1).val, idx2_lt1 i⟩

theorem rowMap_ix2 {n k q : ℕ} (f : (Fin k → EReal) → Fin q → EReal) (x : Arr n k) (r : Fin n) (c : Fin q) :
    rowMap f x (ix2 r c) = f (row x r) c := rfl

/-- To show an array is "rowMap f x" it is enough to read it at every pair of coordinates. -/
theorem eq_rowMap {n k q : ℕ} (f : (Fin k → EReal) → Fin q → EReal) (x : Arr n k) (y : Arr n q)
    (h : ∀ (r : Fin n) (c : Fin q), y (ix2 r c) = f (row x r) c) : y = rowMap f x := by
  funext i
  obtain ⟨r, c, rfl⟩ : ∃ (r : Fin n) (c : Fin q), i = ix2 r c := ⟨i 0, i 1, eq_ix2 i⟩
  rw [h, rowMap_ix2]

/-- A band of rows: the band of the result is the result of the band.  "e₁" and "e₂" send an index of the band to
    the index of the whole array "o" rows further down, in the same column. -/
theorem rowMap_band {N n k q : ℕ} (f : (Fin k → EReal) → Fin q → EReal) (X : Arr N k) (o : ℕ)
    (e₁ : (⟨2, ![n, k]⟩ : Shape).Idx → (⟨2, ![N, k]⟩ : Shape).Idx)
    (e₂ : (⟨2, ![n, q]⟩ : Shape).Idx → (⟨2, ![N, q]⟩ : Shape).Idx)
    (h10 : ∀ j, (e₁ j 0).val = o + (j 0).val) (h11 : ∀ j, (e₁ j 1).val = (j 1).val)
    (h20 : ∀ j, (e₂ j 0).val = o + (j 0).val) (h21 : ∀ j, (e₂ j 1).val = (j 1).val)
    (j : (⟨2, ![n, q]⟩ : Shape).Idx) :
    rowMap f X (e₂ j) = rowMap f (fun y => X (e₁ y)) j := by
  unfold rowMap
  have hr : row X ⟨(e₂ j 0).val, idx2_lt0 (e₂ j)⟩ = row (fun y => X (e₁ y)) ⟨(j 0).val, idx2_lt0 j⟩ := by
    funext l
    unfold row
    refine congrArg X (funext fun a => Fin.ext ?_)
    match a with
    | ⟨0, _⟩ => show (e₂ j 0).val = (e₁ (ix2 ⟨(j 0).val, idx2_lt0 j⟩ l) 0).val; rw [h20, h10]; rfl
    | ⟨1, _⟩ => show l.val = (e₁ (ix2 ⟨(j 0).val, idx2_lt0 j⟩ l) 1).val; rw [h11]; rfl
  have hc : (⟨(e₂ j 1).val, idx2_lt1 (e₂ j)⟩ : Fin q) = ⟨(j 1).val, idx2_lt1 j⟩ := Fin.ext (h21 j)
  rw [hr, hc]

/-! ## The three row functions -/

/-- The row times a matrix. -/
def linRow {k q : ℕ} (w : Arr k q) (z : Fin k → EReal) : Fin q → EReal := fun c => ∑ l : Fin k, z l * w (ix2 l c)

/-- The float zero and minus infinity, kept as the words the programs spell them with. -/
def zeroF : EReal := Ideal.ofBits .f32 0x00000000#32
def negInfF : EReal := Ideal.ofBits .f32 0xFF800000#32

/-- Add the one-row array, then the maximum with zero. -/
def reluRow {k : ℕ} (b : Arr 1 k) (z : Fin k → EReal) : Fin k → EReal :=
  fun c => max (z c + b (ix2 (0 : Fin 1) c)) zeroF

/-- A row's maximum: the fold of "max" from minus infinity. -/
def rowMax {k : ℕ} (y : Fin k → EReal) : EReal := (Finset.univ : Finset (Fin k)).fold max negInfF y

/-- The row shifted by its maximum. -/
def shifted {k : ℕ} (y : Fin k → EReal) : Fin k → EReal := fun c => y c - rowMax y

/-- The logarithm of the softmax of a row. -/
def logSoftmax {k : ℕ} (y : Fin k → EReal) : Fin k → EReal :=
  fun c => shifted y c - Ideal.log (∑ l : Fin k, Ideal.exp (shifted y l))

/-- Add the one-row array, then the logarithm of the softmax. -/
def lsmRow {k : ℕ} (b : Arr 1 k) (z : Fin k → EReal) : Fin k → EReal :=
  logSoftmax fun c => z c + b (ix2 (0 : Fin 1) c)

/-- Minus infinity is the unit of "max". -/
theorem max_negInfF (y : EReal) : max negInfF y = y := by
  unfold negInfF; simp [Ideal.ofBits, Ideal.ieee]

theorem zeroF_eq : zeroF = 0 := Ideal.ofBits_zero_f32

/-! ## The layers -/

/-- The linear layer: every row times the matrix. -/
def lin {n k q : ℕ} (x : Arr n k) (w : Arr k q) : Arr n q := rowMap (linRow w) x
/-- Bias, then the maximum with zero. -/
def relu {n k : ℕ} (a : Arr n k) (b : Arr 1 k) : Arr n k := rowMap (reluRow b) a
/-- Bias, then the logarithm of the softmax along the row. -/
def lsm {n k : ℕ} (a : Arr n k) (b : Arr 1 k) : Arr n k := rowMap (lsmRow b) a

end GcnSpec

end
-- ==== Proof.LibMatProd.lean ====
/-
  The product of two rank-2 arrays of extended reals, entry by entry, and two ways a program spells it.

  `entry A B p q` is the sum over `l` of `A (p, l) * B (l, q)`; `mm A B` is the array of these entries.  A matrix
  unit's product of rank-2 operands accumulated onto the zero array, contracting the columns of the left operand
  against the rows of the right one, is `entry` at every pair of coordinates (`matmul_zero_entry`): the accumulator
  adds nothing and the contraction's one-axis index set is re-indexed by its coordinate.  A sum written through two
  index maps that put `(row of i, l)` on the left and `(l, column of i)` on the right is `mm` at `i` (`sum_eq_mm`).
  Everything is over generic extents; indices are built from coordinates.
-/
import Idealize.ShloMosaic.Lib.ValueIdx
import Idealize.ShloMosaic.PureOps.Ideal.Laws

noncomputable section

open scoped BigOperators

namespace MatProd

open Idealize.ShloMosaic Idealize.ShloMosaic.ValueIdx

/-- Entry `(p, q)` of the product of an `n × k` array and a `k × m` array. -/
def entry {n k m : ℕ} (A : (⟨2, ![n, k]⟩ : Shape).Idx → EReal) (B : (⟨2, ![k, m]⟩ : Shape).Idx → EReal)
    (p : Fin n) (q : Fin m) : EReal :=
  ∑ l : Fin k, A (ix2 p l) * B (ix2 l q)

/-- The product as an array: at an index, the entry at that index's two coordinates. -/
def mm {n k m : ℕ} (A : (⟨2, ![n, k]⟩ : Shape).Idx → EReal) (B : (⟨2, ![k, m]⟩ : Shape).Idx → EReal) :
    (⟨2, ![n, m]⟩ : Shape).Idx → EReal :=
  fun i => entry A B ⟨(i 0).val, idx2_lt0 i⟩ ⟨(i 1).val, idx2_lt1 i⟩

/-- At an index given by its coordinates the product array reads the entry. -/
theorem mm_ix2 {n k m : ℕ} (A : (⟨2, ![n, k]⟩ : Shape).Idx → EReal) (B : (⟨2, ![k, m]⟩ : Shape).Idx → EReal)
    (p : Fin n) (q : Fin m) : mm A B (ix2 p q) = entry A B p q := rfl

/-- A sum over `l` of a left factor read at `(row of i, l)` times a right factor read at `(l, column of i)` is the
    product array at `i`, however the two index maps are spelt. -/
theorem sum_eq_mm {n k m : ℕ} (A : (⟨2, ![n, k]⟩ : Shape).Idx → EReal) (B : (⟨2, ![k, m]⟩ : Shape).Idx → EReal)
    (i : (⟨2, ![n, m]⟩ : Shape).Idx) (li : Fin k → (⟨2, ![n, k]⟩ : Shape).Idx) (ri : Fin k → (⟨2, ![k, m]⟩ : Shape).Idx)
    (hl : ∀ l, li l = ix2 ⟨(i 0).val, idx2_lt0 i⟩ l) (hr : ∀ l, ri l = ix2 l ⟨(i 1).val, idx2_lt1 i⟩) :
    ∑ l : Fin k, A (li l) * B (ri l) = mm A B i :=
  Finset.sum_congr rfl fun l _ => by rw [hl l, hr l]

/-- A matrix unit's product of rank-2 operands onto the zero accumulator is the product's entry.  `hr`, `hs`: one
    axis of extent `k` is contracted.  `hl0` … `hr1`: the left operand is read at (row of the result, contracted
    coordinate), the right operand at (contracted coordinate, column of the result). -/
theorem matmul_zero_entry {n k m : ℕ} {φ₁ φ₂ : FTy}
    (d : DotDims (⟨2, ![n, k]⟩ : Shape) (⟨2, ![k, m]⟩ : Shape) (⟨2, ![n, m]⟩ : Shape)) (prec : Option ContractPrecision)
    (hr : d.contr.rank = 1) (hs : d.contr.size ⟨0, by omega⟩ = k)
    (hl0 : ∀ (j : (⟨2, ![n, m]⟩ : Shape).Idx) (c : d.contr.Idx), (d.lhsIdx j c 0).val = (j 0).val)
    (hl1 : ∀ (j : (⟨2, ![n, m]⟩ : Shape).Idx) (c : d.contr.Idx), (d.lhsIdx j c 1).val = (c ⟨0, by omega⟩).val)
    (hr0 : ∀ (j : (⟨2, ![n, m]⟩ : Shape).Idx) (c : d.contr.Idx), (d.rhsIdx j c 0).val = (c ⟨0, by omega⟩).val)
    (hr1 : ∀ (j : (⟨2, ![n, m]⟩ : Shape).Idx) (c : d.contr.Idx), (d.rhsIdx j c 1).val = (j 1).val)
    (lhs : FVec Ideal (⟨2, ![n, k]⟩ : Shape) φ₁) (rhs : FVec Ideal (⟨2, ![k, m]⟩ : Shape) φ₂) (p : Fin n) (q : Fin m) :
    FloatOps.matmul d prec lhs rhs (constant (F := Ideal) (⟨2, ![n, m]⟩ : Shape) .f32 0x00000000#32) (ix2 p q)
      = entry lhs rhs p q := by
  rw [Ideal.matmul_constant_zero_apply, ← Equiv.sum_comp (contrEquiv1 d k hr hs).symm]
  unfold entry
  refine Finset.sum_congr rfl fun l _ => ?_
  have hk := contrEquiv1_symm_val d k hr hs l
  have el : d.lhsIdx (ix2 p q) ((contrEquiv1 d k hr hs).symm l) = ix2 p l := funext fun a => Fin.ext (by
    match a with
    | ⟨0, _⟩ => exact hl0 _ _
    | ⟨1, _⟩ => exact (hl1 _ _).trans hk)
  have er : d.rhsIdx (ix2 p q) ((contrEquiv1 d k hr hs).symm l) = ix2 l q := funext fun a => Fin.ext (by
    match a with
    | ⟨0, _⟩ => exact (hr0 _ _).trans hk
    | ⟨1, _⟩ => exact hr1 _ _)
  rw [el, er]

end MatProd

end
-- ==== Proof.LibRowCol.lean ====
/-
  A vector seen as a one-column or a one-row array, and the layout operations that compute those views.

  `colOf y` is the `[n, 1]` array whose entry `(p, 0)` is `y p`; `rowOf b` the `[1, k]` array whose entry `(0, q)` is
  `b q`.  A reshape of `[n]` to `[n, 1]` is the column view and a reshape of `[k]` to `[1, k]` the row view
  (`shapeCast_col`, `shapeCast_row`); a view read at an index is the vector at ANY index with the same coordinate
  (`colOf_eq`, `rowOf_eq`), which is how a chain of broadcasts that ends in the vector is matched with the view.
  An `[a, 1]` array broadcast to `[a, b]` reads its one column in the row (`broadcastTo_a1_ab_apply`), and an `[a]`
  array cast to `[a, 1]` reads the vector in the row (`shapeCast_a_a1_apply`).  Over generic extents; indices are built
  from coordinates.
-/
import Idealize.ShloMosaic.Lib.Pipeline.Value
import Idealize.ShloMosaic.Lib.ValueIdx
import Idealize.ShloMosaic.Lib.ValueLayout

noncomputable section

namespace RowCol

open Idealize.ShloMosaic Idealize.ShloMosaic.ValueIdx

/-! ## Layout operations at coordinates -/

section Layout
variable {α : Type}

/-- An `[a, 1]` array broadcast to `[a, b]` reads, at `(p, c)`, the operand's one column at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if 1 = 1 then 0 else c.val
    exact (if_pos rfl).symm

/-- An `[a]` array cast to `[a, 1]` reads, at `(i, u)`, the operand at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

end Layout

/-! ## Column and row views of a vector of extended reals -/

/-- A vector as a one-column array. -/
def colOf {n : ℕ} (y : (⟨1, ![n]⟩ : Shape).Idx → EReal) : (⟨2, ![n, 1]⟩ : Shape).Idx → EReal :=
  fun i => y (ix1 ⟨(i 0).val, idx2_lt0 i⟩)

/-- A vector as a one-row array. -/
def rowOf {k : ℕ} (b : (⟨1, ![k]⟩ : Shape).Idx → EReal) : (⟨2, ![1, k]⟩ : Shape).Idx → EReal :=
  fun i => b (ix1 ⟨(i 1).val, idx2_lt1 i⟩)

theorem colOf_ix2 {n : ℕ} (y : (⟨1, ![n]⟩ : Shape).Idx → EReal) (p : Fin n) (u : Fin 1) : colOf y (ix2 p u) = y (ix1 p) := rfl
theorem rowOf_ix2 {k : ℕ} (b : (⟨1, ![k]⟩ : Shape).Idx → EReal) (u : Fin 1) (q : Fin k) : rowOf b (ix2 u q) = b (ix1 q) := rfl

/-- The column view at an index is the vector at any index with the same row number. -/
theorem colOf_eq {n : ℕ} (y : (⟨1, ![n]⟩ : Shape).Idx → EReal) (i : (⟨2, ![n, 1]⟩ : Shape).Idx) (k : (⟨1, ![n]⟩ : Shape).Idx)
    (hk : (k 0).val = (i 0).val) : colOf y i = y k :=
  congrArg y (funext fun a => Fin.ext (match a with | ⟨0, _⟩ => hk.symm))

/-- The row view at an index is the vector at any index with the same column number. -/
theorem rowOf_eq {k : ℕ} (b : (⟨1, ![k]⟩ : Shape).Idx → EReal) (i : (⟨2, ![1, k]⟩ : Shape).Idx) (l : (⟨1, ![k]⟩ : Shape).Idx)
    (hl : (l 0).val = (i 1).val) : rowOf b i = b l :=
  congrArg b (funext fun a => Fin.ext (match a with | ⟨0, _⟩ => hl.symm))

/-- A reshape of a vector to one column is its column view. -/
theorem shapeCast_col {n : ℕ} (y : (⟨1, ![n]⟩ : Shape).Idx → EReal) (h : (⟨1, ![n]⟩ : Shape).ShapeCasts ⟨2, ![n, 1]⟩) :
    shapeCast ⟨2, ![n, 1]⟩ y h = colOf y := by
  funext i
  obtain ⟨p, u, rfl⟩ : ∃ (p : Fin n) (u : Fin 1), i = ix2 p u := ⟨i 0, i 1, eq_ix2 i⟩
  rw [shapeCast_a_a1_apply, colOf_ix2]

/-- A reshape of a vector to one row is its row view. -/
theorem shapeCast_row {k : ℕ} (b : (⟨1, ![k]⟩ : Shape).Idx → EReal) (h : (⟨1, ![k]⟩ : Shape).ShapeCasts ⟨2, ![1, k]⟩) :
    shapeCast ⟨2, ![1, k]⟩ b h = rowOf b := by
  funext i
  obtain ⟨u, q, rfl⟩ : ∃ (u : Fin 1) (q : Fin k), i = ix2 u q := ⟨i 0, i 1, eq_ix2 i⟩
  rw [shapeCast_a_1a_apply, rowOf_ix2]

end RowCol

end
-- ==== Proof.LibLayout.lean ====
/-
  Layout operations read at an index written by its coordinates, for the shapes a "keepdims" reduction kernel meets:
  a unit axis inserted in the middle or at the end of a shape by a shape cast, a broadcast along such a unit axis,
  the two composed, and a sum over one axis read as a `Fin`-indexed sum at coordinates.  All statements are over
  generic extents; the indices are the library's `ixN` constructors.
-/
import Idealize.ShloMosaic.Lib.Pipeline.Value
import Idealize.ShloMosaic.Lib.ValueIdx
import Idealize.ShloMosaic.Lib.ValueLayout
import Idealize.ShloMosaic.PureOps.Ideal.Laws

namespace PushPull.Layout

open Idealize.ShloMosaic Idealize.ShloMosaic.ValueIdx

variable {α : Type}

/-! ## A unit axis inserted by a shape cast -/

/-- `[a, b] → [a, b, 1]`: the entry `(i, j, 0)` is the entry `(i, j)`. -/
theorem cast_ab_ab1 {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_two, Shape.rowMajor_val_three]
    show i.val * b + j.val = (i.val * b + j.val) * 1 + u.val
    rw [hu, Nat.mul_one, Nat.add_zero])

/-- `[a, b] → [a, 1, b]`. -/
theorem cast_ab_a1b {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_two, Shape.rowMajor_val_three]
    show i.val * b + j.val = (i.val * 1 + u.val) * b + j.val
    rw [hu, Nat.mul_one, Nat.add_zero])

/-- `[a, b, c] → [a, b, 1, c]`. -/
theorem cast_abc_ab1c {a b c : ℕ} (x : (⟨3, ![a, b, c]⟩ : Shape).Idx → α)
    (h : (⟨3, ![a, b, c]⟩ : Shape).ShapeCasts ⟨4, ![a, b, 1, c]⟩) (i : Fin a) (j : Fin b) (u : Fin 1) (k : Fin c) :
    shapeCast ⟨4, ![a, b, 1, c]⟩ x h (ix4 i j u k) = x (ix3 i j k) :=
  shapeCast_apply x h _ _ (by
    have hu : u.val = 0 := by omega
    rw [Shape.rowMajor_val_three, Shape.rowMajor_val_four]
    show (i.val * b + j.val) * c + k.val = ((i.val * b + j.val) * 1 + u.val) * c + k.val
    rw [hu, Nat.mul_one, Nat.add_zero])

/-- `[a, b, c] → [a, 1, b, c]`. -/
theorem cast_abc_a1bc {a b c : ℕ} (x : (⟨3, ![a, b, c]⟩ : Shape).Idx → α)
    (h : (⟨3, ![a, b, c]⟩ : Shape).ShapeCasts ⟨4, ![a, 1, b, c]⟩) (i : Fin a) (u : Fin 1) (j : Fin b) (k : Fin c) :
    shapeCast ⟨4, ![a, 1, b, c]⟩ x h (ix4 i u j k) = x (ix3 i j k) :=
  shapeCast_apply x h _ _ (by
    have hu : u.val = 0 := by omega
    rw [Shape.rowMajor_val_three, Shape.rowMajor_val_four]
    show (i.val * b + j.val) * c + k.val = ((i.val * 1 + u.val) * b + j.val) * c + k.val
    rw [hu, Nat.mul_one, Nat.add_zero])

/-- `[a, b, c] → [a, b, c, 1]`. -/
theorem cast_abc_abc1 {a b c : ℕ} (x : (⟨3, ![a, b, c]⟩ : Shape).Idx → α)
    (h : (⟨3, ![a, b, c]⟩ : Shape).ShapeCasts ⟨4, ![a, b, c, 1]⟩) (i : Fin a) (j : Fin b) (k : Fin c) (u : Fin 1) :
    shapeCast ⟨4, ![a, b, c, 1]⟩ x h (ix4 i j k u) = x (ix3 i j k) :=
  shapeCast_apply x h _ _ (by
    have hu : u.val = 0 := by omega
    rw [Shape.rowMajor_val_three, Shape.rowMajor_val_four]
    show (i.val * b + j.val) * c + k.val = ((i.val * b + j.val) * c + k.val) * 1 + u.val
    rw [hu, Nat.mul_one, Nat.add_zero])

/-- `[a] → [a, 1]`. -/
theorem cast_a_a1 {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-! ## A broadcast along a unit axis -/

/-- `[a, b, 1, c] → [a, b, k, c]`. -/
theorem bcast_ab1c {a b c k : ℕ} (x : (⟨4, ![a, b, 1, c]⟩ : Shape).Idx → α)
    (h : (⟨4, ![a, b, 1, c]⟩ : Shape).Broadcasts ⟨4, ![a, b, k, c]⟩) (i : Fin a) (j : Fin b) (q : Fin k) (l : Fin c) :
    broadcastTo ⟨4, ![a, b, k, c]⟩ x h (ix4 i j q l) = x (ix4 i j (0 : Fin 1) l) :=
  broadcastTo_apply x h _ _ (fun ax => by
    have hi := i.isLt; have hj := j.isLt; have hl := l.isLt
    match ax with
    | ⟨0, _⟩ => show i.val = if a = 1 then 0 else i.val; split <;> omega
    | ⟨1, _⟩ => show j.val = if b = 1 then 0 else j.val; split <;> omega
    | ⟨2, _⟩ => show (0 : ℕ) = if 1 = 1 then 0 else q.val; exact (if_pos rfl).symm
    | ⟨3, _⟩ => show l.val = if c = 1 then 0 else l.val; split <;> omega)

/-- `[a, 1, b, c] → [a, k, b, c]`. -/
theorem bcast_a1bc {a b c k : ℕ} (x : (⟨4, ![a, 1, b, c]⟩ : Shape).Idx → α)
    (h : (⟨4, ![a, 1, b, c]⟩ : Shape).Broadcasts ⟨4, ![a, k, b, c]⟩) (i : Fin a) (q : Fin k) (j : Fin b) (l : Fin c) :
    broadcastTo ⟨4, ![a, k, b, c]⟩ x h (ix4 i q j l) = x (ix4 i (0 : Fin 1) j l) :=
  broadcastTo_apply x h _ _ (fun ax => by
    have hi := i.isLt; have hj := j.isLt; have hl := l.isLt
    match ax with
    | ⟨0, _⟩ => show i.val = if a = 1 then 0 else i.val; split <;> omega
    | ⟨1, _⟩ => show (0 : ℕ) = if 1 = 1 then 0 else q.val; exact (if_pos rfl).symm
    | ⟨2, _⟩ => show j.val = if b = 1 then 0 else j.val; split <;> omega
    | ⟨3, _⟩ => show l.val = if c = 1 then 0 else l.val; split <;> omega)

/-- `[a, b, 1] → [a, b, k]`. -/
theorem bcast_ab1 {a b k : ℕ} (x : (⟨3, ![a, b, 1]⟩ : Shape).Idx → α)
    (h : (⟨3, ![a, b, 1]⟩ : Shape).Broadcasts ⟨3, ![a, b, k]⟩) (i : Fin a) (j : Fin b) (q : Fin k) :
    broadcastTo ⟨3, ![a, b, k]⟩ x h (ix3 i j q) = x (ix3 i j (0 : Fin 1)) :=
  broadcastTo_apply x h _ _ (fun ax => by
    have hi := i.isLt; have hj := j.isLt
    match ax with
    | ⟨0, _⟩ => show i.val = if a = 1 then 0 else i.val; split <;> omega
    | ⟨1, _⟩ => show j.val = if b = 1 then 0 else j.val; split <;> omega
    | ⟨2, _⟩ => show (0 : ℕ) = if 1 = 1 then 0 else q.val; exact (if_pos rfl).symm)

/-- `[a, 1, b] → [a, k, b]`. -/
theorem bcast_a1b {a b k : ℕ} (x : (⟨3, ![a, 1, b]⟩ : Shape).Idx → α)
    (h : (⟨3, ![a, 1, b]⟩ : Shape).Broadcasts ⟨3, ![a, k, b]⟩) (i : Fin a) (q : Fin k) (j : Fin b) :
    broadcastTo ⟨3, ![a, k, b]⟩ x h (ix3 i q j) = x (ix3 i (0 : Fin 1) j) :=
  broadcastTo_apply x h _ _ (fun ax => by
    have hi := i.isLt; have hj := j.isLt
    match ax with
    | ⟨0, _⟩ => show i.val = if a = 1 then 0 else i.val; split <;> omega
    | ⟨1, _⟩ => show (0 : ℕ) = if 1 = 1 then 0 else q.val; exact (if_pos rfl).symm
    | ⟨2, _⟩ => show j.val = if b = 1 then 0 else j.val; split <;> omega)

/-- `[a, b, c, 1] → [a, b, c, k]`. -/
theorem bcast_abc1 {a b c k : ℕ} (x : (⟨4, ![a, b, c, 1]⟩ : Shape).Idx → α)
    (h : (⟨4, ![a, b, c, 1]⟩ : Shape).Broadcasts ⟨4, ![a, b, c, k]⟩) (i : Fin a) (j : Fin b) (l : Fin c) (q : Fin k) :
    broadcastTo ⟨4, ![a, b, c, k]⟩ x h (ix4 i j l q) = x (ix4 i j l (0 : Fin 1)) :=
  broadcastTo_apply x h _ _ (fun ax => by
    have hi := i.isLt; have hj := j.isLt; have hl := l.isLt
    match ax with
    | ⟨0, _⟩ => show i.val = if a = 1 then 0 else i.val; split <;> omega
    | ⟨1, _⟩ => show j.val = if b = 1 then 0 else j.val; split <;> omega
    | ⟨2, _⟩ => show l.val = if c = 1 then 0 else l.val; split <;> omega
    | ⟨3, _⟩ => show (0 : ℕ) = if 1 = 1 then 0 else q.val; exact (if_pos rfl).symm)

/-- `[1, 1] → [1, k]`. -/
theorem bcast_11 {k : ℕ} (x : (⟨2, ![1, 1]⟩ : Shape).Idx → α)
    (h : (⟨2, ![1, 1]⟩ : Shape).Broadcasts ⟨2, ![1, k]⟩) (u : Fin 1) (q : Fin k) :
    broadcastTo ⟨2, ![1, k]⟩ x h (ix2 u q) = x (ix2 (0 : Fin 1) (0 : Fin 1)) :=
  broadcastTo_apply x h _ _ (fun ax => by
    match ax with
    | ⟨0, _⟩ => show (0 : ℕ) = if 1 = 1 then 0 else u.val; exact (if_pos rfl).symm
    | ⟨1, _⟩ => show (0 : ℕ) = if 1 = 1 then 0 else q.val; exact (if_pos rfl).symm)

/-! ## A sum over one axis, at coordinates -/

section Sums
variable {φ : FTy}

/-- The last axis of three. -/
theorem sum_abc_2 {a b c : ℕ} (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (i : Fin a) (j : Fin b) :
    multiReduction .add [2] ⟨2, ![a, b]⟩ src acc h hφ hacc (ix2 i j) = ∑ k : Fin c, src (ix3 i j k) :=
  (Ideal.multiReduction_add_single src acc h hφ hacc (ix2 i j)).trans
    (Finset.sum_congr rfl fun k _ => congrArg src (funext fun ax => Fin.ext (by
      match ax with | ⟨0, _⟩ => rfl | ⟨1, _⟩ => rfl | ⟨2, _⟩ => rfl)))

/-- The last axis of four. -/
theorem sum_abcd_3 {a b c d : ℕ} (src : FVec Ideal ⟨4, ![a, b, c, d]⟩ φ) (acc : BitVec φ.bits)
    (h : (⟨4, ![a, b, c, d]⟩ : Shape).Reduces [3] ⟨3, ![a, b, c]⟩) (hφ : FKind.Formats φ) (hacc : acc = FKind.add.neutral φ hφ)
    (i : Fin a) (j : Fin b) (l : Fin c) :
    multiReduction .add [3] ⟨3, ![a, b, c]⟩ src acc h hφ hacc (ix3 i j l) = ∑ k : Fin d, src (ix4 i j l k) :=
  (Ideal.multiReduction_add_single src acc h hφ hacc (ix3 i j l)).trans
    (Finset.sum_congr rfl fun k _ => congrArg src (funext fun ax => Fin.ext (by
      match ax with | ⟨0, _⟩ => rfl | ⟨1, _⟩ => rfl | ⟨2, _⟩ => rfl | ⟨3, _⟩ => rfl)))

/-- The third axis of four. -/
theorem sum_abcd_2 {a b c d : ℕ} (src : FVec Ideal ⟨4, ![a, b, c, d]⟩ φ) (acc : BitVec φ.bits)
    (h : (⟨4, ![a, b, c, d]⟩ : Shape).Reduces [2] ⟨3, ![a, b, d]⟩) (hφ : FKind.Formats φ) (hacc : acc = FKind.add.neutral φ hφ)
    (i : Fin a) (j : Fin b) (l : Fin d) :
    multiReduction .add [2] ⟨3, ![a, b, d]⟩ src acc h hφ hacc (ix3 i j l) = ∑ k : Fin c, src (ix4 i j k l) :=
  (Ideal.multiReduction_add_single src acc h hφ hacc (ix3 i j l)).trans
    (Finset.sum_congr rfl fun k _ => congrArg src (funext fun ax => Fin.ext (by
      match ax with | ⟨0, _⟩ => rfl | ⟨1, _⟩ => rfl | ⟨2, _⟩ => rfl | ⟨3, _⟩ => rfl)))

/-- The last axis of two. -/
theorem sum_ab_1 {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (i : Fin a) :
    multiReduction .add [1] ⟨1, ![a]⟩ src acc h hφ hacc (ix1 i) = ∑ k : Fin b, src (ix2 i k) :=
  (Ideal.multiReduction_add_single src acc h hφ hacc (ix1 i)).trans
    (Finset.sum_congr rfl fun k _ => congrArg src (funext fun ax => Fin.ext (by
      match ax with | ⟨0, _⟩ => rfl | ⟨1, _⟩ => rfl)))

/-- The first axis of two. -/
theorem sum_ab_0 {a b : ℕ} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ)
    (j : Fin b) :
    multiReduction .add [0] ⟨1, ![b]⟩ src acc h hφ hacc (ix1 j) = ∑ k : Fin a, src (ix2 k j) :=
  (Ideal.multiReduction_add_single src acc h hφ hacc (ix1 j)).trans
    (Finset.sum_congr rfl fun k _ => congrArg src (funext fun ax => Fin.ext (by
      match ax with | ⟨0, _⟩ => rfl | ⟨1, _⟩ => rfl)))

end Sums

end PushPull.Layout
-- ==== Proof.LibRowOps.lean ====
/-
  The programs' operation chains as row-wise layers.

  Each lemma takes a chain of vector operations exactly as one of the two programs spells it, over arrays with ANY
  number "n" of rows, and says it is a layer of GcnSpec: a matrix unit's product onto the zero accumulator and the
  host's dot_general are both "lin"; bias-add followed by the maximum with zero is "relu", whether the bias arrives
  as a loaded one-row block broadcast over the rows or as a vector broadcast twice on the host; and the shifted
  log-sum-exp chain is the logarithm of the softmax of every row, whether the row's maximum and the row's sum are
  lane reductions or host reductions (the host takes one more maximum with minus infinity, which changes nothing).
  All reductions are over the second axis; a reduced vector is put back beside the rows as a one-column array.
-/
import Idealize.ShloMosaic.Lib.Pipeline.Value
import Idealize.ShloMosaic.Lib.ValueIdx
import Idealize.ShloMosaic.Lib.ValueLayout
import Idealize.ShloMosaic.PureOps.Ideal.Laws
import proofs.«113694_j2010044694725_2_alg».proof.Proof.LibRowWise
import proofs.«113694_j2010044694725_2_alg».proof.Proof.LibMatProd
import proofs.«113694_j2010044694725_2_alg».proof.Proof.LibRowCol
import proofs.«113694_j2010044694725_2_alg».proof.Proof.LibLayout

noncomputable section

open scoped BigOperators

namespace GcnOps

open Idealize.ShloMosaic Idealize.ShloMosaic.ValueIdx GcnSpec

variable {n k q : ℕ}

/-! ## The linear layer -/

/-- A matrix unit's product of rank-2 operands onto the zero accumulator is the linear layer. -/
theorem matmul_zero_eq_lin {φ₁ φ₂ : FTy}
    (d : DotDims (⟨2, ![n, k]⟩ : Shape) (⟨2, ![k, q]⟩ : Shape) (⟨2, ![n, q]⟩ : Shape)) (prec : Option ContractPrecision)
    (hr : d.contr.rank = 1) (hs : d.contr.size ⟨0, by omega⟩ = k)
    (hl0 : ∀ (j : (⟨2, ![n, q]⟩ : Shape).Idx) (c : d.contr.Idx), (d.lhsIdx j c 0).val = (j 0).val)
    (hl1 : ∀ (j : (⟨2, ![n, q]⟩ : Shape).Idx) (c : d.contr.Idx), (d.lhsIdx j c 1).val = (c ⟨0, by omega⟩).val)
    (hr0 : ∀ (j : (⟨2, ![n, q]⟩ : Shape).Idx) (c : d.contr.Idx), (d.rhsIdx j c 0).val = (c ⟨0, by omega⟩).val)
    (hr1 : ∀ (j : (⟨2, ![n, q]⟩ : Shape).Idx) (c : d.contr.Idx), (d.rhsIdx j c 1).val = (j 1).val)
    (lhs : FVec Ideal (⟨2, ![n, k]⟩ : Shape) φ₁) (rhs : FVec Ideal (⟨2, ![k, q]⟩ : Shape) φ₂) :
    FloatOps.matmul d prec lhs rhs (constant (F := Ideal) (⟨2, ![n, q]⟩ : Shape) .f32 0x00000000#32) = lin lhs rhs :=
  eq_rowMap _ _ _ fun r c => (MatProd.matmul_zero_entry d prec hr hs hl0 hl1 hr0 hr1 lhs rhs r c).trans rfl

/-- The host's dot_general of rank-2 operands, one axis contracted, is the linear layer. -/
theorem dotGeneral_eq_lin {φ₁ φ₂ : FTy}
    (d : DotDims (⟨2, ![n, k]⟩ : Shape) (⟨2, ![k, q]⟩ : Shape) (⟨2, ![n, q]⟩ : Shape)) (prec : Option ContractPrecision)
    (sched : HostSchedule)
    (hr : d.contr.rank = 1) (hs : d.contr.size ⟨0, by omega⟩ = k)
    (hl0 : ∀ (j : (⟨2, ![n, q]⟩ : Shape).Idx) (c : d.contr.Idx), (d.lhsIdx j c 0).val = (j 0).val)
    (hl1 : ∀ (j : (⟨2, ![n, q]⟩ : Shape).Idx) (c : d.contr.Idx), (d.lhsIdx j c 1).val = (c ⟨0, by omega⟩).val)
    (hr0 : ∀ (j : (⟨2, ![n, q]⟩ : Shape).Idx) (c : d.contr.Idx), (d.rhsIdx j c 0).val = (c ⟨0, by omega⟩).val)
    (hr1 : ∀ (j : (⟨2, ![n, q]⟩ : Shape).Idx) (c : d.contr.Idx), (d.rhsIdx j c 1).val = (j 1).val)
    (lhs : FVec Ideal (⟨2, ![n, k]⟩ : Shape) φ₁) (rhs : FVec Ideal (⟨2, ![k, q]⟩ : Shape) φ₂) :
    FloatOps.dotGeneral d prec sched lhs rhs = lin lhs rhs := by
  refine eq_rowMap _ _ _ fun r c => ?_
  rw [Ideal.dotGeneral_apply, ← Equiv.sum_comp (contrEquiv1 d k hr hs).symm]
  show _ = ∑ l : Fin k, lhs (ix2 r l) * rhs (ix2 l c)
  refine Finset.sum_congr rfl fun l _ => ?_
  have hk := contrEquiv1_symm_val d k hr hs l
  have el : d.lhsIdx (ix2 r c) ((contrEquiv1 d k hr hs).symm l) = ix2 r l := funext fun a => Fin.ext (by
    match a with
    | ⟨0, _⟩ => exact hl0 _ _
    | ⟨1, _⟩ => exact (hl1 _ _).trans hk)
  have er : d.rhsIdx (ix2 r c) ((contrEquiv1 d k hr hs).symm l) = ix2 l c := funext fun a => Fin.ext (by
    match a with
    | ⟨0, _⟩ => exact (hr0 _ _).trans hk
    | ⟨1, _⟩ => exact hr1 _ _)
  rw [el, er]

/-! ## Bias, then the maximum with zero -/

/-- As a kernel body spells it: the block and the one-row bias block loaded (casts to their own shapes), the bias
    broadcast over the rows, the zero a scalar splat. -/
theorem relu_body (x : FVec Ideal (⟨2, ![n, k]⟩ : Shape) .f32) (b : FVec Ideal (⟨2, ![1, k]⟩ : Shape) .f32)
    (h1 : (⟨2, ![n, k]⟩ : Shape).ShapeCasts ⟨2, ![n, k]⟩) (h2 : (⟨2, ![1, k]⟩ : Shape).ShapeCasts ⟨2, ![1, k]⟩)
    (hb : (⟨2, ![1, k]⟩ : Shape).Broadcasts ⟨2, ![n, k]⟩) :
    maximumf (addf (shapeCast ⟨2, ![n, k]⟩ x h1) (broadcastTo ⟨2, ![n, k]⟩ (shapeCast ⟨2, ![1, k]⟩ b h2) hb))
      (broadcast ⟨2, ![n, k]⟩ (Scalar.ofBits (F := Ideal) .f32 0x00000000#32)) = relu x b := by
  rw [shapeCast_self, shapeCast_self]
  refine eq_rowMap _ _ _ fun r c => ?_
  rw [maximumf_apply, addf_apply, broadcast_apply, broadcastTo_1b_ab_apply]
  rfl

/-- The one-row view of a vector, broadcast over the rows on the host in two steps, read at coordinates. -/
theorem bias_host_apply (b : FVec Ideal (⟨1, ![k]⟩ : Shape) .f32)
    (h1 : (⟨1, ![k]⟩ : Shape).BroadcastsInDim (⟨2, ![1, k]⟩ : Shape) (![1] : Fin 1 → Fin 2))
    (h2 : (⟨2, ![1, k]⟩ : Shape).BroadcastsInDim (⟨2, ![n, k]⟩ : Shape) (![0, 1] : Fin 2 → Fin 2))
    (hsc : (⟨1, ![k]⟩ : Shape).ShapeCasts ⟨2, ![1, k]⟩) (r : Fin n) (c : Fin k) :
    broadcastInDim (⟨2, ![n, k]⟩ : Shape) (![0, 1] : Fin 2 → Fin 2) h2
        (broadcastInDim (⟨2, ![1, k]⟩ : Shape) (![1] : Fin 1 → Fin 2) h1 b) (ix2 r c)
      = shapeCast ⟨2, ![1, k]⟩ b hsc (ix2 (0 : Fin 1) c) := by
  have hc := c.isLt
  rw [broadcastInDim_apply _ h2 _ (ix2 r c) (ix2 (0 : Fin 1) c) (fun a => match a with
      | ⟨0, _⟩ => by show (0 : ℕ) = if (1 : ℕ) = 1 then 0 else r.val; rw [if_pos rfl]
      | ⟨1, _⟩ => by show c.val = if k = 1 then 0 else c.val; split <;> omega),
    broadcastInDim_apply _ h1 b (ix2 (0 : Fin 1) c) (ix1 c) (fun a => match a with
      | ⟨0, _⟩ => by show c.val = if k = 1 then 0 else c.val; split <;> omega),
    shapeCast_a_1a_apply]

/-- As the host spells it: the bias vector broadcast in two steps, the zero a rank-0 constant broadcast. -/
theorem relu_host (a : FVec Ideal (⟨2, ![n, k]⟩ : Shape) .f32) (b : FVec Ideal (⟨1, ![k]⟩ : Shape) .f32)
    (h1 : (⟨1, ![k]⟩ : Shape).BroadcastsInDim (⟨2, ![1, k]⟩ : Shape) (![1] : Fin 1 → Fin 2))
    (h2 : (⟨2, ![1, k]⟩ : Shape).BroadcastsInDim (⟨2, ![n, k]⟩ : Shape) (![0, 1] : Fin 2 → Fin 2))
    (h0 : (⟨0, ![]⟩ : Shape).BroadcastsInDim (⟨2, ![n, k]⟩ : Shape) (![] : Fin 0 → Fin 2))
    (hsc : (⟨1, ![k]⟩ : Shape).ShapeCasts ⟨2, ![1, k]⟩) :
    maximumf (addf a (broadcastInDim (⟨2, ![n, k]⟩ : Shape) (![0, 1] : Fin 2 → Fin 2) h2
        (broadcastInDim (⟨2, ![1, k]⟩ : Shape) (![1] : Fin 1 → Fin 2) h1 b)))
      (broadcastInDim (⟨2, ![n, k]⟩ : Shape) (![] : Fin 0 → Fin 2) h0 (constant (F := Ideal) (⟨0, ![]⟩ : Shape) .f32 0x00000000#32))
      = relu a (shapeCast ⟨2, ![1, k]⟩ b hsc) := by
  refine eq_rowMap _ _ _ fun r c => ?_
  rw [maximumf_apply, addf_apply, bias_host_apply b h1 h2 hsc r c,
    broadcastInDim_apply _ h0 _ (ix2 r c) ix0 (fun a => a.elim0), constant_apply]
  rfl

/-! ## The logarithm of the softmax -/

/-- The exponential and the logarithm, a body's and the host's, read at an index. -/
theorem exp_apply {s : Shape} (v : FVec Ideal s .f32) (i : s.Idx) : exp v i = Ideal.exp (v i) := rfl
theorem log_apply {s : Shape} (v : FVec Ideal s .f32) (i : s.Idx) : log v i = Ideal.log (v i) := rfl
theorem hostExp_apply {s : Shape} (v : FVec Ideal s .f32) (i : s.Idx) : Host.exp v i = Ideal.exp (v i) := rfl
theorem hostLog_apply {s : Shape} (v : FVec Ideal s .f32) (i : s.Idx) : Host.log v i = Ideal.log (v i) := rfl

/-- Index (r, l) is the reduced index r with the coordinate l put back on axis 1. -/
theorem lift1 (h : (⟨2, ![n, k]⟩ : Shape).Reduces [1] (⟨1, ![n]⟩ : Shape)) (r : Fin n)
    (l : Fin ((⟨2, ![n, k]⟩ : Shape).size 1)) : h.lift (ix1 r) l = ix2 r (⟨l.val, l.isLt⟩ : Fin k) :=
  funext fun ax => Fin.ext (by match ax with | ⟨0, _⟩ => rfl | ⟨1, _⟩ => rfl)

/-- A lane maximum along the row, from minus infinity, is the row's maximum. -/
theorem rowMax_body (y : FVec Ideal (⟨2, ![n, k]⟩ : Shape) .f32)
    (hR : (⟨2, ![n, k]⟩ : Shape).Reduces [1] (⟨1, ![n]⟩ : Shape)) (hφ : FKind.Formats .f32)
    (hacc : (0xFF800000#32 : BitVec 32) = FKind.maximumf.neutral .f32 hφ) (r : Fin n) :
    multiReduction .maximumf [1] (⟨1, ![n]⟩ : Shape) y 0xFF800000#32 hR hφ hacc (ix1 r) = rowMax (row y r) := by
  refine (Ideal.multiReduction_maximumf_single y 0xFF800000#32 hR hφ hacc (ix1 r)).trans ?_
  have hf : (y ∘ hR.lift (ix1 r)) = fun l : Fin k => y (ix2 r l) := funext fun l => congrArg y (lift1 hR r l)
  exact congrArg (fun f => Finset.fold max negInfF f (Finset.univ : Finset (Fin k))) hf

/-- The host's reduce with a maximum body along the row, from minus infinity, is the row's maximum. -/
theorem rowMax_host (y : FVec Ideal (⟨2, ![n, k]⟩ : Shape) .f32)
    (hR' : (⟨2, ![n, k]⟩ : Shape).ReducesTo [1] (⟨1, ![n]⟩ : Shape))
    (hR : (⟨2, ![n, k]⟩ : Shape).Reduces [1] (⟨1, ![n]⟩ : Shape)) (hu : 0 < (⟨0, ![]⟩ : Shape).numel) (r : Fin n) :
    Host.reduce FloatOps.maximumf y (constant (F := Ideal) (⟨0, ![]⟩ : Shape) .f32 0xFF800000#32) hR' hu (ix1 r)
      = rowMax (row y r) := by
  rw [Host.reduce_eq_fold_single FloatOps.maximumf y _ hR' hR hu]
  have hf : (y ∘ hR.lift (ix1 r)) = fun l : Fin k => y (ix2 r l) := funext fun l => congrArg y (lift1 hR r l)
  exact congrArg (fun f => Finset.fold max negInfF f (Finset.univ : Finset (Fin k))) hf

/-- A lane sum along the row. -/
theorem rowSum_body (y : FVec Ideal (⟨2, ![n, k]⟩ : Shape) .f32)
    (hR : (⟨2, ![n, k]⟩ : Shape).Reduces [1] (⟨1, ![n]⟩ : Shape)) (hφ : FKind.Formats .f32)
    (hacc : (0x00000000#32 : BitVec 32) = FKind.add.neutral .f32 hφ) (r : Fin n) :
    multiReduction .add [1] (⟨1, ![n]⟩ : Shape) y 0x00000000#32 hR hφ hacc (ix1 r) = ∑ l : Fin k, y (ix2 r l) :=
  PushPull.Layout.sum_ab_1 y 0x00000000#32 hR hφ hacc r

/-- The host's sum along the row, from zero. -/
theorem rowSum_host (y : FVec Ideal (⟨2, ![n, k]⟩ : Shape) .f32)
    (hR' : (⟨2, ![n, k]⟩ : Shape).ReducesTo [1] (⟨1, ![n]⟩ : Shape))
    (hR : (⟨2, ![n, k]⟩ : Shape).Reduces [1] (⟨1, ![n]⟩ : Shape)) (hu : 0 < (⟨0, ![]⟩ : Shape).numel) (r : Fin n) :
    Host.reduceAdd y (constant (F := Ideal) (⟨0, ![]⟩ : Shape) .f32 0x00000000#32) hR' hu (ix1 r) = ∑ l : Fin k, y (ix2 r l) := by
  simp only [Host.reduceAdd, Ideal.hostReduceAdd_def]
  rw [Ideal.hostReduceAdd_single hR' hR, constant_apply, Ideal.ofBits_zero_f32, zero_add]
  exact Finset.sum_congr rfl fun l _ => congrArg y (lift1 hR r l)

/-- The row shifted by its maximum, as a kernel body spells it. -/
def shiftBody (y : FVec Ideal (⟨2, ![n, k]⟩ : Shape) .f32)
    (hR : (⟨2, ![n, k]⟩ : Shape).Reduces [1] (⟨1, ![n]⟩ : Shape)) (hφ : FKind.Formats .f32)
    (hacc : (0xFF800000#32 : BitVec 32) = FKind.maximumf.neutral .f32 hφ)
    (hc : (⟨1, ![n]⟩ : Shape).ShapeCasts ⟨2, ![n, 1]⟩) (hb : (⟨2, ![n, 1]⟩ : Shape).Broadcasts ⟨2, ![n, k]⟩) :
    FVec Ideal (⟨2, ![n, k]⟩ : Shape) .f32 :=
  subf y (broadcastTo ⟨2, ![n, k]⟩
    (shapeCast ⟨2, ![n, 1]⟩ (multiReduction .maximumf [1] (⟨1, ![n]⟩ : Shape) y 0xFF800000#32 hR hφ hacc) hc) hb)

theorem shiftBody_apply (y : FVec Ideal (⟨2, ![n, k]⟩ : Shape) .f32)
    (hR : (⟨2, ![n, k]⟩ : Shape).Reduces [1] (⟨1, ![n]⟩ : Shape)) (hφ : FKind.Formats .f32)
    (hacc : (0xFF800000#32 : BitVec 32) = FKind.maximumf.neutral .f32 hφ)
    (hc : (⟨1, ![n]⟩ : Shape).ShapeCasts ⟨2, ![n, 1]⟩) (hb : (⟨2, ![n, 1]⟩ : Shape).Broadcasts ⟨2, ![n, k]⟩)
    (r : Fin n) (c : Fin k) : shiftBody y hR hφ hacc hc hb (ix2 r c) = shifted (row y r) c := by
  unfold shiftBody
  rw [subf_apply, RowCol.broadcastTo_a1_ab_apply, RowCol.shapeCast_a_a1_apply, rowMax_body]
  rfl

/-- The logarithm of the softmax of every row, as a kernel body spells it. -/
theorem logSoftmax_body (y : FVec Ideal (⟨2, ![n, k]⟩ : Shape) .f32)
    (hR : (⟨2, ![n, k]⟩ : Shape).Reduces [1] (⟨1, ![n]⟩ : Shape)) (hφ : FKind.Formats .f32)
    (hacc : (0xFF800000#32 : BitVec 32) = FKind.maximumf.neutral .f32 hφ)
    (hacc0 : (0x00000000#32 : BitVec 32) = FKind.add.neutral .f32 hφ)
    (hc : (⟨1, ![n]⟩ : Shape).ShapeCasts ⟨2, ![n, 1]⟩) (hb : (⟨2, ![n, 1]⟩ : Shape).Broadcasts ⟨2, ![n, k]⟩) :
    subf (shiftBody y hR hφ hacc hc hb) (broadcastTo ⟨2, ![n, k]⟩
      (log (shapeCast ⟨2, ![n, 1]⟩
        (multiReduction .add [1] (⟨1, ![n]⟩ : Shape) (exp (shiftBody y hR hφ hacc hc hb)) 0x00000000#32 hR hφ hacc0) hc)) hb)
      = rowMap logSoftmax y := by
  refine eq_rowMap _ _ _ fun r c => ?_
  rw [subf_apply, shiftBody_apply, RowCol.broadcastTo_a1_ab_apply, log_apply, RowCol.shapeCast_a_a1_apply, rowSum_body]
  show _ = shifted (row y r) c - Ideal.log (∑ l : Fin k, Ideal.exp (shifted (row y r) l))
  refine congrArg (fun s => shifted (row y r) c - Ideal.log s) (Finset.sum_congr rfl fun l _ => ?_)
  rw [exp_apply, shiftBody_apply]

/-- The whole last-layer body: bias added to the loaded block, then the logarithm of the softmax. -/
theorem lsm_body (x : FVec Ideal (⟨2, ![n, k]⟩ : Shape) .f32) (b : FVec Ideal (⟨2, ![1, k]⟩ : Shape) .f32)
    (h1 : (⟨2, ![n, k]⟩ : Shape).ShapeCasts ⟨2, ![n, k]⟩) (h2 : (⟨2, ![1, k]⟩ : Shape).ShapeCasts ⟨2, ![1, k]⟩)
    (hbb : (⟨2, ![1, k]⟩ : Shape).Broadcasts ⟨2, ![n, k]⟩)
    (hR : (⟨2, ![n, k]⟩ : Shape).Reduces [1] (⟨1, ![n]⟩ : Shape)) (hφ : FKind.Formats .f32)
    (hacc : (0xFF800000#32 : BitVec 32) = FKind.maximumf.neutral .f32 hφ)
    (hacc0 : (0x00000000#32 : BitVec 32) = FKind.add.neutral .f32 hφ)
    (hc : (⟨1, ![n]⟩ : Shape).ShapeCasts ⟨2, ![n, 1]⟩) (hb : (⟨2, ![n, 1]⟩ : Shape).Broadcasts ⟨2, ![n, k]⟩) :
    subf (shiftBody (addf (shapeCast ⟨2, ![n, k]⟩ x h1) (broadcastTo ⟨2, ![n, k]⟩ (shapeCast ⟨2, ![1, k]⟩ b h2) hbb)) hR hφ hacc hc hb)
      (broadcastTo ⟨2, ![n, k]⟩ (log (shapeCast ⟨2, ![n, 1]⟩ (multiReduction .add [1] (⟨1, ![n]⟩ : Shape)
        (exp (shiftBody (addf (shapeCast ⟨2, ![n, k]⟩ x h1) (broadcastTo ⟨2, ![n, k]⟩ (shapeCast ⟨2, ![1, k]⟩ b h2) hbb)) hR hφ hacc hc hb))
        0x00000000#32 hR hφ hacc0) hc)) hb)
      = lsm x b := by
  rw [logSoftmax_body, shapeCast_self, shapeCast_self]
  refine eq_rowMap _ _ _ fun r c => ?_
  rw [rowMap_ix2]
  refine congrFun (congrArg logSoftmax (funext fun l => ?_)) c
  show addf x (broadcastTo ⟨2, ![n, k]⟩ b hbb) (ix2 r l) = x (ix2 r l) + b (ix2 (0 : Fin 1) l)
  rw [addf_apply, broadcastTo_1b_ab_apply]

/-- The row shifted by its maximum, as the host spells it: the reduced maximum once more against minus infinity, then
    put back beside the rows by two broadcasts. -/
def shiftHost (y : FVec Ideal (⟨2, ![n, k]⟩ : Shape) .f32)
    (hR' : (⟨2, ![n, k]⟩ : Shape).ReducesTo [1] (⟨1, ![n]⟩ : Shape)) (hu : 0 < (⟨0, ![]⟩ : Shape).numel)
    (h0 : (⟨0, ![]⟩ : Shape).BroadcastsInDim (⟨1, ![n]⟩ : Shape) (![] : Fin 0 → Fin 1))
    (hcol : (⟨1, ![n]⟩ : Shape).BroadcastsInDim (⟨2, ![n, 1]⟩ : Shape) (![0] : Fin 1 → Fin 2))
    (hrow : (⟨2, ![n, 1]⟩ : Shape).BroadcastsInDim (⟨2, ![n, k]⟩ : Shape) (![0, 1] : Fin 2 → Fin 2)) :
    FVec Ideal (⟨2, ![n, k]⟩ : Shape) .f32 :=
  subf y (broadcastInDim (⟨2, ![n, k]⟩ : Shape) (![0, 1] : Fin 2 → Fin 2) hrow
    (broadcastInDim (⟨2, ![n, 1]⟩ : Shape) (![0] : Fin 1 → Fin 2) hcol
      (maximumf (broadcastInDim (⟨1, ![n]⟩ : Shape) (![] : Fin 0 → Fin 1) h0 (constant (F := Ideal) (⟨0, ![]⟩ : Shape) .f32 0xFF800000#32))
        (Host.reduce FloatOps.maximumf y (constant (F := Ideal) (⟨0, ![]⟩ : Shape) .f32 0xFF800000#32) hR' hu))))

/-- A vector put beside the rows by the host's two broadcasts, read at coordinates. -/
theorem col_host_apply (v : FVec Ideal (⟨1, ![n]⟩ : Shape) .f32)
    (hcol : (⟨1, ![n]⟩ : Shape).BroadcastsInDim (⟨2, ![n, 1]⟩ : Shape) (![0] : Fin 1 → Fin 2))
    (hrow : (⟨2, ![n, 1]⟩ : Shape).BroadcastsInDim (⟨2, ![n, k]⟩ : Shape) (![0, 1] : Fin 2 → Fin 2))
    (r : Fin n) (c : Fin k) :
    broadcastInDim (⟨2, ![n, k]⟩ : Shape) (![0, 1] : Fin 2 → Fin 2) hrow
      (broadcastInDim (⟨2, ![n, 1]⟩ : Shape) (![0] : Fin 1 → Fin 2) hcol v) (ix2 r c) = v (ix1 r) := by
  have hr := r.isLt
  rw [broadcastInDim_apply _ hrow _ (ix2 r c) (ix2 r (0 : Fin 1)) (fun a => match a with
      | ⟨0, _⟩ => by show r.val = if n = 1 then 0 else r.val; split <;> omega
      | ⟨1, _⟩ => by show (0 : ℕ) = if (1 : ℕ) = 1 then 0 else c.val; rw [if_pos rfl]),
    broadcastInDim_apply _ hcol v (ix2 r (0 : Fin 1)) (ix1 r) (fun a => match a with
      | ⟨0, _⟩ => by show r.val = if n = 1 then 0 else r.val; split <;> omega)]

theorem shiftHost_apply (y : FVec Ideal (⟨2, ![n, k]⟩ : Shape) .f32)
    (hR' : (⟨2, ![n, k]⟩ : Shape).ReducesTo [1] (⟨1, ![n]⟩ : Shape))
    (hR : (⟨2, ![n, k]⟩ : Shape).Reduces [1] (⟨1, ![n]⟩ : Shape)) (hu : 0 < (⟨0, ![]⟩ : Shape).numel)
    (h0 : (⟨0, ![]⟩ : Shape).BroadcastsInDim (⟨1, ![n]⟩ : Shape) (![] : Fin 0 → Fin 1))
    (hcol : (⟨1, ![n]⟩ : Shape).BroadcastsInDim (⟨2, ![n, 1]⟩ : Shape) (![0] : Fin 1 → Fin 2))
    (hrow : (⟨2, ![n, 1]⟩ : Shape).BroadcastsInDim (⟨2, ![n, k]⟩ : Shape) (![0, 1] : Fin 2 → Fin 2))
    (r : Fin n) (c : Fin k) : shiftHost y hR' hu h0 hcol hrow (ix2 r c) = shifted (row y r) c := by
  unfold shiftHost
  rw [subf_apply, col_host_apply, maximumf_apply,
    broadcastInDim_apply _ h0 _ (ix1 r) ix0 (fun a => a.elim0), constant_apply, rowMax_host y hR' hR hu r]
  show y (ix2 r c) - max negInfF (rowMax (row y r)) = _
  rw [max_negInfF]
  rfl

/-- The logarithm of the softmax of every row, as the host spells it. -/
theorem logSoftmax_host (y : FVec Ideal (⟨2, ![n, k]⟩ : Shape) .f32)
    (hR' : (⟨2, ![n, k]⟩ : Shape).ReducesTo [1] (⟨1, ![n]⟩ : Shape))
    (hR : (⟨2, ![n, k]⟩ : Shape).Reduces [1] (⟨1, ![n]⟩ : Shape)) (hu : 0 < (⟨0, ![]⟩ : Shape).numel)
    (h0 : (⟨0, ![]⟩ : Shape).BroadcastsInDim (⟨1, ![n]⟩ : Shape) (![] : Fin 0 → Fin 1))
    (hcol : (⟨1, ![n]⟩ : Shape).BroadcastsInDim (⟨2, ![n, 1]⟩ : Shape) (![0] : Fin 1 → Fin 2))
    (hrow : (⟨2, ![n, 1]⟩ : Shape).BroadcastsInDim (⟨2, ![n, k]⟩ : Shape) (![0, 1] : Fin 2 → Fin 2)) :
    subf (shiftHost y hR' hu h0 hcol hrow)
      (broadcastInDim (⟨2, ![n, k]⟩ : Shape) (![0, 1] : Fin 2 → Fin 2) hrow
        (Host.log (broadcastInDim (⟨2, ![n, 1]⟩ : Shape) (![0] : Fin 1 → Fin 2) hcol
          (Host.reduceAdd (Host.exp (shiftHost y hR' hu h0 hcol hrow))
            (constant (F := Ideal) (⟨0, ![]⟩ : Shape) .f32 0x00000000#32) hR' hu))))
      = rowMap logSoftmax y := by
  have hr1 : ∀ r : Fin n, (if n = 1 then 0 else r.val) = r.val := fun r => by have := r.isLt; split <;> omega
  refine eq_rowMap _ _ _ fun r c => ?_
  rw [subf_apply, shiftHost_apply y hR' hR hu h0 hcol hrow r c,
    broadcastInDim_apply _ hrow _ (ix2 r c) (ix2 r (0 : Fin 1)) (fun a => match a with
      | ⟨0, _⟩ => (hr1 r).symm
      | ⟨1, _⟩ => by show (0 : ℕ) = if (1 : ℕ) = 1 then 0 else c.val; rw [if_pos rfl]), hostLog_apply,
    broadcastInDim_apply _ hcol _ (ix2 r (0 : Fin 1)) (ix1 r) (fun a => match a with
      | ⟨0, _⟩ => (hr1 r).symm), rowSum_host _ hR' hR hu r]
  show _ = shifted (row y r) c - Ideal.log (∑ l : Fin k, Ideal.exp (shifted (row y r) l))
  refine congrArg (fun s => shifted (row y r) c - Ideal.log s) (Finset.sum_congr rfl fun l _ => ?_)
  rw [hostExp_apply, shiftHost_apply y hR' hR hu h0 hcol hrow r l]

/-- The host's last layer: bias broadcast in two steps and added, then the logarithm of the softmax. -/
theorem lsm_host (a : FVec Ideal (⟨2, ![n, k]⟩ : Shape) .f32) (b : FVec Ideal (⟨1, ![k]⟩ : Shape) .f32)
    (h1 : (⟨1, ![k]⟩ : Shape).BroadcastsInDim (⟨2, ![1, k]⟩ : Shape) (![1] : Fin 1 → Fin 2))
    (h2 : (⟨2, ![1, k]⟩ : Shape).BroadcastsInDim (⟨2, ![n, k]⟩ : Shape) (![0, 1] : Fin 2 → Fin 2))
    (hsc : (⟨1, ![k]⟩ : Shape).ShapeCasts ⟨2, ![1, k]⟩) :
    rowMap logSoftmax (addf a (broadcastInDim (⟨2, ![n, k]⟩ : Shape) (![0, 1] : Fin 2 → Fin 2) h2
        (broadcastInDim (⟨2, ![1, k]⟩ : Shape) (![1] : Fin 1 → Fin 2) h1 b)))
      = lsm a (shapeCast ⟨2, ![1, k]⟩ b hsc) := by
  refine eq_rowMap _ _ _ fun r c => ?_
  rw [rowMap_ix2]
  refine congrFun (congrArg logSoftmax (funext fun l => ?_)) c
  show addf a _ (ix2 r l) = a (ix2 r l) + shapeCast ⟨2, ![1, k]⟩ b hsc (ix2 (0 : Fin 1) l)
  rw [addf_apply, bias_host_apply b h1 h2 hsc r l]

end GcnOps

end
-- ==== Proof.KBody.lean ====
/-
  The two kernel bodies' arithmetic, read at an index, on the extended reals.

  FIRST BODY.  From a block of 5000 rows of the features x and of the aggregate a, three 128 × 128 matrices and two
  one-row bias arrays, entry (p, c) of the stored block is
      max (a_p · Wrel[:, c] + brel[c] + x_p · Wroot[:, c]) 0  +  max (x_p · Wres[:, c] + bres[c]) 0,
  where u · W[:, c] is the sum over l of u[l] * W[l, c]: each matrix product is the textbook contraction onto a zero
  accumulator, the changes of float format are the identity, a one-row array broadcast over the rows reads its
  one row.  The two statistics blocks hold, at column c, the sum over the block's 5000 rows of that entry and of its
  square (a lane reduction along the rows, then casts that only insert unit axes).
  SECOND BODY.  Entry (p, c) is x[p, c] * scale[0, c] + shift[0, c].
-/
import proofs.«113694_j2010044694725_2_alg».proof.Proof.Gen.KernelIdeal.Skeleton
import proofs.«113694_j2010044694725_2_alg».proof.Proof.LibRowOps

noncomputable section

open scoped BigOperators

namespace Cert.KernelIdeal.KBody

open Cert.KernelIdeal Cert.KernelIdeal.Gen Idealize.ShloMosaic Idealize.ShloMosaic.ValueIdx GcnSpec GcnOps

/-! ## The matrix unit's dimension numbers: rows of the left operand against columns of the right -/

theorem d_rank : (dot_S5000x128_S128x128_S5000x128_1_0_0_1_n_n).contr.rank = 1 := rfl
theorem d_size : (dot_S5000x128_S128x128_S5000x128_1_0_0_1_n_n).contr.size ⟨0, by rw [d_rank]; omega⟩ = 128 := rfl
theorem d_l0 (j : S5000x128.Idx) (c : (dot_S5000x128_S128x128_S5000x128_1_0_0_1_n_n).contr.Idx) :
    ((dot_S5000x128_S128x128_S5000x128_1_0_0_1_n_n).lhsIdx j c 0).val = (j 0).val := rfl
theorem d_l1 (j : S5000x128.Idx) (c : (dot_S5000x128_S128x128_S5000x128_1_0_0_1_n_n).contr.Idx) :
    ((dot_S5000x128_S128x128_S5000x128_1_0_0_1_n_n).lhsIdx j c 1).val = (c ⟨0, by rw [d_rank]; omega⟩).val :=
  (dot_S5000x128_S128x128_S5000x128_1_0_0_1_n_n).lhsIdx_val_of_single rfl j c
theorem d_r0 (j : S5000x128.Idx) (c : (dot_S5000x128_S128x128_S5000x128_1_0_0_1_n_n).contr.Idx) :
    ((dot_S5000x128_S128x128_S5000x128_1_0_0_1_n_n).rhsIdx j c 0).val = (c ⟨0, by rw [d_rank]; omega⟩).val :=
  (dot_S5000x128_S128x128_S5000x128_1_0_0_1_n_n).rhsIdx_val_of_single rfl j c
theorem d_r1 (j : S5000x128.Idx) (c : (dot_S5000x128_S128x128_S5000x128_1_0_0_1_n_n).contr.Idx) :
    ((dot_S5000x128_S128x128_S5000x128_1_0_0_1_n_n).rhsIdx j c 1).val = (j 1).val := rfl

/-- The product of a block with a matrix onto the zero accumulator is the linear layer. -/
theorem mm_lin (x : FVec Ideal S5000x128 .bf16) (w : FVec Ideal S128x128 .bf16) :
    matmul dot_S5000x128_S128x128_S5000x128_1_0_0_1_n_n none x w (constant (F := Ideal) S5000x128 .f32 0x00000000#32)
      = lin (n := 5000) (k := 128) (q := 128) x w :=
  matmul_zero_eq_lin (n := 5000) (k := 128) (q := 128) dot_S5000x128_S128x128_S5000x128_1_0_0_1_n_n none
    d_rank d_size d_l0 d_l1 d_r0 d_r1 x w

/-- Entry (p, c) of the product of the (narrowed) block with the matrix: row p against column c. -/
theorem mm_apply (x : FVec Ideal S5000x128 .f32) (w : FVec Ideal S128x128 .bf16) (p : Fin 5000) (c : Fin 128) :
    matmul dot_S5000x128_S128x128_S5000x128_1_0_0_1_n_n none (truncf .bf16 x bitsLt_bf16_f32)
        (shapeCast S128x128 w shapeCasts_S128x128_S128x128) (constant (F := Ideal) S5000x128 .f32 0x00000000#32) (ix2 p c)
      = linRow w (row x p) c := by
  rw [mm_lin, shapeCast_self]
  rfl

/-- The same with the block first cast to its own shape. -/
theorem mm_apply_cast (x : FVec Ideal S5000x128 .f32) (w : FVec Ideal S128x128 .bf16) (p : Fin 5000) (c : Fin 128) :
    matmul dot_S5000x128_S128x128_S5000x128_1_0_0_1_n_n none
        (truncf .bf16 (shapeCast S5000x128 x shapeCasts_S5000x128_S5000x128) bitsLt_bf16_f32)
        (shapeCast S128x128 w shapeCasts_S128x128_S128x128) (constant (F := Ideal) S5000x128 .f32 0x00000000#32) (ix2 p c)
      = linRow w (row x p) c := by
  rw [shapeCast_self]
  exact mm_apply x w p c

/-- A one-row array (cast to its own shape) broadcast over the rows reads its one row. -/
theorem bias_apply (b : FVec Ideal S1x128 .f32) (p : Fin 5000) (c : Fin 128) :
    broadcastTo S5000x128 (shapeCast S1x128 b shapeCasts_S1x128_S1x128) broadcasts_S1x128_S5000x128 (ix2 p c)
      = b (ix2 (0 : Fin 1) c) := by
  rw [shapeCast_self]
  exact broadcastTo_1b_ab_apply b broadcasts_S1x128_S5000x128 p c

/-- One entry of the first body's stored block, from the block's rows. -/
def nfEntry (xrow arow : Fin 128 → EReal) (wrel wroot wres : FVec Ideal S128x128 .bf16) (brel bres : EReal) (c : Fin 128) :
    EReal :=
  max (linRow wrel arow c + brel + linRow wroot xrow c) zeroF + max (linRow wres xrow c + bres) zeroF

/-- THE FIRST BODY'S BLOCK at (p, c). -/
theorem pay2_apply (v0 v2 : Vec Ideal S5000x128 .f32) (v5 v7 v9 : Vec Ideal S128x128 .bf16) (v12 v19 : Vec Ideal S1x128 .f32)
    (p : Fin 5000) (c : Fin 128) :
    k0_pay2 v0 v2 v5 v7 v9 v12 v19 (ix2 p c)
      = nfEntry (row v0 p) (row v2 p) v5 v7 v9 (v12 (ix2 (0 : Fin 1) c)) (v19 (ix2 (0 : Fin 1) c)) c := by
  unfold k0_pay2 nfEntry
  show max (matmul dot_S5000x128_S128x128_S5000x128_1_0_0_1_n_n none
          (truncf .bf16 (shapeCast S5000x128 v2 shapeCasts_S5000x128_S5000x128) bitsLt_bf16_f32)
          (shapeCast S128x128 v5 shapeCasts_S128x128_S128x128) (constant (F := Ideal) S5000x128 .f32 0x00000000#32) (ix2 p c)
        + broadcastTo S5000x128 (shapeCast S1x128 v12 shapeCasts_S1x128_S1x128) broadcasts_S1x128_S5000x128 (ix2 p c)
        + matmul dot_S5000x128_S128x128_S5000x128_1_0_0_1_n_n none (truncf .bf16 v0 bitsLt_bf16_f32)
          (shapeCast S128x128 v7 shapeCasts_S128x128_S128x128) (constant (F := Ideal) S5000x128 .f32 0x00000000#32) (ix2 p c))
        zeroF
      + max (matmul dot_S5000x128_S128x128_S5000x128_1_0_0_1_n_n none (truncf .bf16 v0 bitsLt_bf16_f32)
          (shapeCast S128x128 v9 shapeCasts_S128x128_S128x128) (constant (F := Ideal) S5000x128 .f32 0x00000000#32) (ix2 p c)
        + broadcastTo S5000x128 (shapeCast S1x128 v19 shapeCasts_S1x128_S1x128) broadcasts_S1x128_S5000x128 (ix2 p c))
        zeroF = _
  rw [mm_apply_cast, mm_apply, mm_apply, bias_apply, bias_apply]

/-- THE SUM BLOCK at column c: the block's entries summed over its 5000 rows. -/
theorem pay4_apply (v0 v2 : Vec Ideal S5000x128 .f32) (v5 v7 v9 : Vec Ideal S128x128 .bf16) (v12 v19 : Vec Ideal S1x128 .f32)
    (u u' : Fin 1) (c : Fin 128) :
    k0_pay4 v0 v2 v5 v7 v9 v12 v19 (ix3 u u' c) = ∑ p : Fin 5000, k0_pay2 v0 v2 v5 v7 v9 v12 v19 (ix2 p c) := by
  unfold k0_pay4
  exact (PushPull.Layout.cast_ab_a1b _ shapeCasts_S1x128_S1x1x128 u u' c).trans
    ((shapeCast_a_1a_apply _ shapeCasts_S128_S1x128 u c).trans
      (PushPull.Layout.sum_ab_0 (a := 5000) (b := 128) _ _ reduces_S5000x128_S128 (.inl rfl) rfl c))

/-- THE SUM-OF-SQUARES BLOCK at column c. -/
theorem pay13_apply (v0 v2 : Vec Ideal S5000x128 .f32) (v5 v7 v9 : Vec Ideal S128x128 .bf16) (v12 v19 : Vec Ideal S1x128 .f32)
    (u u' : Fin 1) (c : Fin 128) :
    k0_pay1 (k0_pay3 v0 v2 v5 v7 v9 v12 v19) (ix3 u u' c)
      = ∑ p : Fin 5000, k0_pay2 v0 v2 v5 v7 v9 v12 v19 (ix2 p c) * k0_pay2 v0 v2 v5 v7 v9 v12 v19 (ix2 p c) := by
  unfold k0_pay1 k0_pay3
  exact (PushPull.Layout.cast_ab_a1b _ shapeCasts_S1x128_S1x1x128 u u' c).trans
    ((shapeCast_a_1a_apply _ shapeCasts_S128_S1x128 u c).trans
      (PushPull.Layout.sum_ab_0 (a := 5000) (b := 128) _ _ reduces_S5000x128_S128 (.inl rfl) rfl c))

/-- THE SECOND BODY'S BLOCK at (p, c): the entry times the scale plus the shift. -/
theorem k1_pay1_apply (v0 : Vec Ideal S5000x128 .f32) (v2 v6 : Vec Ideal S1x128 .f32) (p : Fin 5000) (c : Fin 128) :
    k1_pay1 v0 v2 v6 (ix2 p c) = v0 (ix2 p c) * v2 (ix2 (0 : Fin 1) c) + v6 (ix2 (0 : Fin 1) c) := by
  unfold k1_pay1
  show shapeCast S5000x128 v0 shapeCasts_S5000x128_S5000x128 (ix2 p c)
        * broadcastTo S5000x128 (shapeCast S1x128 v2 shapeCasts_S1x128_S1x128) broadcasts_S1x128_S5000x128 (ix2 p c)
      + broadcastTo S5000x128 (shapeCast S1x128 v6 shapeCasts_S1x128_S1x128) broadcasts_S1x128_S5000x128 (ix2 p c) = _
  rw [shapeCast_self, bias_apply, bias_apply]

end Cert.KernelIdeal.KBody

end
-- ==== Proof.KReg0.lean ====
/-
  Region 0's three output arrays, each as one function of the seven arrays the region reads.

  The grid has 20 points.  At point t the two row-block windows (features, aggregate) hold rows 5000 t … 5000 t + 4999
  of their arrays, the five parameter windows hold their whole arrays, and the three output windows' blocks are rows
  5000 t … of the new-features array and row t of the two statistics arrays.  So, with NF the whole-array new features
  (entry (r, c) from row r of the features and of the aggregate), point t writes back rows 5000 t … of NF, and at
  (t, 0, c) the sum over p < 5000 of NF (5000 t + p, c) and of its square.  The blocks tile each array, so after the
  run the arrays hold those functions everywhere.
-/
import proofs.«113694_j2010044694725_2_alg».proof.Proof.Gen.KernelIdeal.Frame
import proofs.«113694_j2010044694725_2_alg».proof.Proof.KBody
import Idealize.ShloMosaic.Lib.Pipeline.Value

set_option maxRecDepth 16384

noncomputable section

open scoped BigOperators

namespace Cert.KernelIdeal.KReg0

open Cert.KernelIdeal Cert.KernelIdeal.Gen Cert.KernelIdeal.KBody
open Idealize.ShloMosaic Idealize.ShloMosaic.TcCoe Idealize.SL.Sem Idealize.ShloMosaic.ValueIdx GcnSpec
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz3 : (![0, 0, 0] : Fin 3 → Nat) = fun _ => 0 := funext fun a => by fin_cases a <;> rfl

/-- The printed index maps over the grid: the row-block windows move with the point, the parameter windows stay. -/
theorem idx0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0
    ∧ win0_8.index t (0 : Fin 3) = t.val ∧ win0_8.index t (1 : Fin 3) = 0 ∧ win0_8.index t (2 : Fin 3) = 0
    ∧ win0_9.index t (0 : Fin 3) = t.val ∧ win0_9.index t (1 : Fin 3) = 0 ∧ win0_9.index t (2 : Fin 3) = 0 :=
  (by decide +kernel : ∀ t : Fin grid0.N, _)

theorem tlt (t : Fin cfg0.N) : t.val < 20 := by
  have h1 := t.isLt
  have h2 : cfg0.N = 20 := N_0
  omega

/-! ## The input windows' blocks, read off the arrays -/

/-- The features' block at point t: rows 5000 t … of the array. -/
theorem blk_x (c : Dev nD) (t : Fin cfg0.N) (x : S5000x128.Idx) (k : S100000x128.Idx)
    (hk0 : (k 0).val = t.val * 5000 + (x 0).val) (hk1 : (k 1).val = (x 1).val) :
    (iblk0 V c 0 t : Vec Ideal S5000x128 .f32) x = (V c main_arg0 : S100000x128.Idx → EReal) k := by
  obtain ⟨e0, e1, -⟩ := idx0 t
  unfold iblk0
  rw [View.read_apply]
  show V c main_arg0 _ = V c main_arg0 _
  congr 1
  funext a
  apply Fin.ext
  match a with
  | ⟨0, _⟩ => show win0_0.index t 0 * 5000 + 1 * (x 0).val = (k 0).val; rw [e0, hk0]; omega
  | ⟨1, _⟩ => show win0_0.index t 1 * 128 + 1 * (x 1).val = (k 1).val; rw [e1, hk1]; omega

/-- The aggregate's block at point t. -/
theorem blk_a (c : Dev nD) (t : Fin cfg0.N) (x : S5000x128.Idx) (k : S100000x128.Idx)
    (hk0 : (k 0).val = t.val * 5000 + (x 0).val) (hk1 : (k 1).val = (x 1).val) :
    (iblk0 V c 1 t : Vec Ideal S5000x128 .f32) x = (V c main_v15 : S100000x128.Idx → EReal) k := by
  obtain ⟨-, -, e0, e1, -⟩ := idx0 t
  unfold iblk0
  rw [View.read_apply]
  show V c main_v15 _ = V c main_v15 _
  congr 1
  funext a
  apply Fin.ext
  match a with
  | ⟨0, _⟩ => show win0_1.index t 0 * 5000 + 1 * (x 0).val = (k 0).val; rw [e0, hk0]; omega
  | ⟨1, _⟩ => show win0_1.index t 1 * 128 + 1 * (x 1).val = (k 1).val; rw [e1, hk1]; omega

/-- Each parameter window's block is its whole array. -/
theorem blk_w2 (c : Dev nD) (t : Fin cfg0.N) : (iblk0 V c 2 t : Vec Ideal S128x128 .bf16) = (V c main_v17 : S128x128.Idx → EReal) := by
  obtain ⟨-, -, -, -, e0, e1, -⟩ := idx0 t
  funext x
  unfold iblk0
  rw [View.read_apply]
  show V c main_v17 _ = V c main_v17 _
  congr 1
  funext a
  apply Fin.ext
  match a with
  | ⟨0, _⟩ => show win0_2.index t 0 * 128 + 1 * (x 0).val = (x 0).val; rw [e0]; omega
  | ⟨1, _⟩ => show win0_2.index t 1 * 128 + 1 * (x 1).val = (x 1).val; rw [e1]; omega

theorem blk_b3 (c : Dev nD) (t : Fin cfg0.N) : (iblk0 V c 3 t : Vec Ideal S1x128 .f32) = (V c main_v22 : S1x128.Idx → EReal) := by
  obtain ⟨-, -, -, -, -, -, e0, e1, -⟩ := idx0 t
  funext x
  unfold iblk0
  rw [View.read_apply]
  show V c main_v22 _ = V c main_v22 _
  congr 1
  funext a
  apply Fin.ext
  match a with
  | ⟨0, _⟩ => show win0_3.index t 0 * 1 + 1 * (x 0).val = (x 0).val; rw [e0]; omega
  | ⟨1, _⟩ => show win0_3.index t 1 * 128 + 1 * (x 1).val = (x 1).val; rw [e1]; omega

theorem blk_w4 (c : Dev nD) (t : Fin cfg0.N) : (iblk0 V c 4 t : Vec Ideal S128x128 .bf16) = (V c main_v19 : S128x128.Idx → EReal) := by
  obtain ⟨-, -, -, -, -, -, -, -, e0, e1, -⟩ := idx0 t
  funext x
  unfold iblk0
  rw [View.read_apply]
  show V c main_v19 _ = V c main_v19 _
  congr 1
  funext a
  apply Fin.ext
  match a with
  | ⟨0, _⟩ => show win0_4.index t 0 * 128 + 1 * (x 0).val = (x 0).val; rw [e0]; omega
  | ⟨1, _⟩ => show win0_4.index t 1 * 128 + 1 * (x 1).val = (x 1).val; rw [e1]; omega

theorem blk_w5 (c : Dev nD) (t : Fin cfg0.N) : (iblk0 V c 5 t : Vec Ideal S128x128 .bf16) = (V c main_v21 : S128x128.Idx → EReal) := by
  obtain ⟨-, -, -, -, -, -, -, -, -, -, e0, e1, -⟩ := idx0 t
  funext x
  unfold iblk0
  rw [View.read_apply]
  show V c main_v21 _ = V c main_v21 _
  congr 1
  funext a
  apply Fin.ext
  match a with
  | ⟨0, _⟩ => show win0_5.index t 0 * 128 + 1 * (x 0).val = (x 0).val; rw [e0]; omega
  | ⟨1, _⟩ => show win0_5.index t 1 * 128 + 1 * (x 1).val = (x 1).val; rw [e1]; omega

theorem blk_b6 (c : Dev nD) (t : Fin cfg0.N) : (iblk0 V c 6 t : Vec Ideal S1x128 .f32) = (V c main_v23 : S1x128.Idx → EReal) := by
  obtain ⟨-, -, -, -, -, -, -, -, -, -, -, -, e0, e1, -⟩ := idx0 t
  funext x
  unfold iblk0
  rw [View.read_apply]
  show V c main_v23 _ = V c main_v23 _
  congr 1
  funext a
  apply Fin.ext
  match a with
  | ⟨0, _⟩ => show win0_6.index t 0 * 1 + 1 * (x 0).val = (x 0).val; rw [e0]; omega
  | ⟨1, _⟩ => show win0_6.index t 1 * 128 + 1 * (x 1).val = (x 1).val; rw [e1]; omega

/-! ## The whole-array new features -/

/-- Entry (r, c) of the new features, from row r of the features and of the aggregate. -/
def nfArr (x a : S100000x128.Idx → EReal) (wrel wroot wres : S128x128.Idx → EReal) (brel bres : S1x128.Idx → EReal) :
    S100000x128.Idx → EReal :=
  fun i => nfEntry (row (n := 100000) (k := 128) x ⟨(i 0).val, idx2_lt0 i⟩) (row (n := 100000) (k := 128) a ⟨(i 0).val, idx2_lt0 i⟩)
    wrel wroot wres (brel (ix2 (0 : Fin 1) (⟨(i 1).val, idx2_lt1 i⟩ : Fin 128))) (bres (ix2 (0 : Fin 1) (⟨(i 1).val, idx2_lt1 i⟩ : Fin 128)))
    ⟨(i 1).val, idx2_lt1 i⟩

theorem nfArr_ix2 (x a : S100000x128.Idx → EReal) (wrel wroot wres : S128x128.Idx → EReal) (brel bres : S1x128.Idx → EReal)
    (r : Fin 100000) (c : Fin 128) :
    nfArr x a wrel wroot wres brel bres (ix2 r c)
      = nfEntry (row (n := 100000) (k := 128) x r) (row (n := 100000) (k := 128) a r) wrel wroot wres
          (brel (ix2 (0 : Fin 1) c)) (bres (ix2 (0 : Fin 1) c)) c := rfl

/-- The new features of the arrays as the region finds them. -/
abbrev NF (c : Dev nD) : S100000x128.Idx → EReal :=
  nfArr (V c main_arg0) (V c main_v15) (V c main_v17) (V c main_v19) (V c main_v21) (V c main_v22) (V c main_v23)

/-- Row 5000 t + p. -/
def rowAt (t : Fin cfg0.N) (p : Fin 5000) : Fin 100000 := ⟨t.val * 5000 + p.val, by have := tlt t; have := p.isLt; omega⟩

/-- The first body's payload of point t's blocks, at (p, q), is the new features at row 5000 t + p. -/
theorem pay_at (c : Dev nD) (t : Fin cfg0.N) (p : Fin 5000) (q : Fin 128) :
    k0_pay2 (iblk0 V c 0 t) (iblk0 V c 1 t) (iblk0 V c 2 t) (iblk0 V c 4 t) (iblk0 V c 5 t) (iblk0 V c 3 t) (iblk0 V c 6 t) (ix2 p q)
      = NF V c (ix2 (rowAt t p) q) := by
  refine (pay2_apply (iblk0 V c 0 t) (iblk0 V c 1 t) (iblk0 V c 2 t) (iblk0 V c 4 t) (iblk0 V c 5 t) (iblk0 V c 3 t) (iblk0 V c 6 t) p q).trans ?_
  refine Eq.trans ?_ (nfArr_ix2 (V c main_arg0) (V c main_v15) (V c main_v17) (V c main_v19) (V c main_v21) (V c main_v22) (V c main_v23)
    (rowAt t p) q).symm
  rw [blk_w2 V c t, blk_w4 V c t, blk_w5 V c t, blk_b3 V c t, blk_b6 V c t]
  have hx : row (n := 5000) (k := 128) (iblk0 V c 0 t) p = row (n := 100000) (k := 128) (V c main_arg0) (rowAt t p) :=
    funext fun l => blk_x V c t (ix2 p l) (ix2 (rowAt t p) l) rfl rfl
  have ha : row (n := 5000) (k := 128) (iblk0 V c 1 t) p = row (n := 100000) (k := 128) (V c main_v15) (rowAt t p) :=
    funext fun l => blk_a V c t (ix2 p l) (ix2 (rowAt t p) l) rfl rfl
  rw [hx, ha]

/-! ## What each point writes back, and the arrays after the run -/

theorem i3_lt0 {a b d : ℕ} (j : (⟨3, ![a, b, d]⟩ : Shape).Idx) : (j 0).val < a := (j 0).isLt
theorem i3_lt2 {a b d : ℕ} (j : (⟨3, ![a, b, d]⟩ : Shape).Idx) : (j 2).val < d := (j 2).isLt

/-- Column sums over each tile of 5000 rows: at (T, 0, c) the sum over p < 5000 of G (5000 T + p, c). -/
def tileSum (G : S100000x128.Idx → EReal) : S20x1x128.Idx → EReal :=
  fun i => ∑ p : Fin 5000, G (ix2 (⟨(i 0).val * 5000 + p.val, by have := i3_lt0 i; have := p.isLt; omega⟩ : Fin 100000)
    (⟨(i 2).val, i3_lt2 i⟩ : Fin 128))

/-- The same of the squares. -/
def tileSumSq (G : S100000x128.Idx → EReal) : S20x1x128.Idx → EReal := tileSum fun i => G i * G i

/-- Point t writes back rows 5000 t … of the new features. -/
theorem flushed7_eq (c : Dev nD) (t : Fin cfg0.N) :
    (dat0 V c).flushed 7 t = ((cfg0.win 7).blk t).view.read (Elt Ideal) (NF V c) := by
  obtain ⟨-, -, -, -, -, -, -, -, -, -, -, -, -, -, e0, e1, -⟩ := idx0 t
  show (cfg0.win 7).cut (grid0.coords t) ((dat0 V c).after 7 t) = _
  rw [after0_7]
  unfold out0_7
  rw [View.canon_unit_zero hz2]
  simp only [View.ld_unit_zero (S := S5000x128) hz2, View.ld_unit_zero (S := S128x128) hz2, View.ld_unit_zero (S := S1x128) hz2]
  funext j
  obtain ⟨p, q, rfl⟩ : ∃ (p : Fin 5000) (q : Fin 128), j = ix2 p q := ⟨j 0, j 1, eq_ix2 j⟩
  show k0_pay2 (iblk0 V c 0 t) (iblk0 V c 1 t) (iblk0 V c 2 t) (iblk0 V c 4 t) (iblk0 V c 5 t) (iblk0 V c 3 t) (iblk0 V c 6 t) (ix2 p q)
    = NF V c (((cfg0.win 7).blk t).view.emb (ix2 p q))
  refine (pay_at V c t p q).trans ?_
  congr 1
  funext a
  apply Fin.ext
  match a with
  | ⟨0, _⟩ => show t.val * 5000 + p.val = win0_7.index t 0 * 5000 + 1 * p.val; rw [e0]; omega
  | ⟨1, _⟩ => show q.val = win0_7.index t 1 * 128 + 1 * q.val; rw [e1]; omega

theorem mem_blk7 (t : Fin cfg0.N) (i : S100000x128.Idx) :
    i ∈ ((cfg0.win 7).blk t).view.set ↔ ∀ a : Fin 2, win0_7.index t a * S5000x128.size a ≤ (i a).val ∧ (i a).val < win0_7.index t a * S5000x128.size a + S5000x128.size a := by
  show i ∈ ((View.whole main_v24_0).slice (win0_7.rect t)).set ↔ _
  rw [View.set_slice_whole, Rect.mem_set_unit]
  exact Iff.rfl

/-- Row r is in the block of the point r / 5000. -/
theorem cover7 (i : S100000x128.Idx) : ∃ t : Fin cfg0.N, (cfg0.win 7).flush t = true ∧ i ∈ ((cfg0.win 7).blk t).view.set := by
  have hi0 : (i 0).val < 100000 := (i 0).isLt
  have hi1 : (i 1).val < 128 := (i 1).isLt
  have hN : cfg0.N = 20 := N_0
  have ht : (i 0).val / 5000 < cfg0.N := by omega
  obtain ⟨-, -, -, -, -, -, -, -, -, -, -, -, -, -, e0, e1, -⟩ := idx0 ⟨(i 0).val / 5000, ht⟩
  refine ⟨⟨(i 0).val / 5000, ht⟩, flush0_7 _, ?_⟩
  rw [mem_blk7]
  intro a
  match a with
  | ⟨0, _⟩ =>
    show win0_7.index ⟨(i 0).val / 5000, ht⟩ 0 * 5000 ≤ (i 0).val ∧ (i 0).val < win0_7.index ⟨(i 0).val / 5000, ht⟩ 0 * 5000 + 5000
    rw [e0]; show (i 0).val / 5000 * 5000 ≤ (i 0).val ∧ (i 0).val < (i 0).val / 5000 * 5000 + 5000; omega
  | ⟨1, _⟩ =>
    show win0_7.index ⟨(i 0).val / 5000, ht⟩ 1 * 128 ≤ (i 1).val ∧ (i 1).val < win0_7.index ⟨(i 0).val / 5000, ht⟩ 1 * 128 + 128
    rw [e1]; omega

/-- THE NEW-FEATURES ARRAY after the run. -/
theorem final7 (c : Dev nD) : (dat0 V c).arrAt 7 cfg0.N = NF V c :=
  (dat0 V c).arrAt_eq_of_cover 7 (NF V c) (fun t _ => flushed7_eq V c t) cover7

/-- Point t writes back, at column c of row t, the sum of its 5000 rows of the new features. -/
theorem flushed8_eq (c : Dev nD) (t : Fin cfg0.N) :
    (dat0 V c).flushed 8 t = ((cfg0.win 8).blk t).view.read (Elt Ideal) (tileSum (NF V c)) := by
  obtain ⟨-, -, -, -, -, -, -, -, -, -, -, -, -, -, -, -, e0, e1, e2, -⟩ := idx0 t
  show (cfg0.win 8).cut (grid0.coords t) ((dat0 V c).after 8 t) = _
  rw [after0_8]
  unfold out0_8
  rw [View.canon_unit_zero hz3]
  simp only [View.ld_unit_zero (S := S5000x128) hz2, View.ld_unit_zero (S := S128x128) hz2, View.ld_unit_zero (S := S1x128) hz2]
  funext j
  obtain ⟨u, u', q, rfl⟩ : ∃ (u u' : Fin 1) (q : Fin 128), j = ix3 u u' q := ⟨j 0, j 1, j 2, eq_ix3 j⟩
  show k0_pay4 (iblk0 V c 0 t) (iblk0 V c 1 t) (iblk0 V c 2 t) (iblk0 V c 4 t) (iblk0 V c 5 t) (iblk0 V c 3 t) (iblk0 V c 6 t) (ix3 u u' q)
    = tileSum (NF V c) (((cfg0.win 8).blk t).view.emb (ix3 u u' q))
  refine (pay4_apply _ _ _ _ _ _ _ u u' q).trans ?_
  unfold tileSum
  refine Finset.sum_congr rfl fun p _ => ?_
  rw [pay_at V c t p q]
  have hu : u.val = 0 := by omega
  have hidx : (ix2 (rowAt t p) q : S100000x128.Idx)
      = ix2 (⟨((((cfg0.win 8).blk t).view.emb (ix3 u u' q)) 0).val * 5000 + p.val, by
          have := i3_lt0 (((cfg0.win 8).blk t).view.emb (ix3 u u' q)); have := p.isLt; omega⟩ : Fin 100000)
        (⟨((((cfg0.win 8).blk t).view.emb (ix3 u u' q)) 2).val, i3_lt2 _⟩ : Fin 128) := by
    funext a
    apply Fin.ext
    match a with
    | ⟨0, _⟩ => show t.val * 5000 + p.val = (win0_8.index t 0 * 1 + 1 * u.val) * 5000 + p.val; rw [e0, hu]; omega
    | ⟨1, _⟩ => show q.val = win0_8.index t 2 * 128 + 1 * q.val; rw [e2]; omega
  rw [hidx]

theorem mem_blk8 (t : Fin cfg0.N) (i : S20x1x128.Idx) :
    i ∈ ((cfg0.win 8).blk t).view.set ↔ ∀ a : Fin 3, win0_8.index t a * S1x1x128.size a ≤ (i a).val ∧ (i a).val < win0_8.index t a * S1x1x128.size a + S1x1x128.size a := by
  show i ∈ ((View.whole main_v24_1).slice (win0_8.rect t)).set ↔ _
  rw [View.set_slice_whole, Rect.mem_set_unit]
  exact Iff.rfl

theorem cover8 (i : S20x1x128.Idx) : ∃ t : Fin cfg0.N, (cfg0.win 8).flush t = true ∧ i ∈ ((cfg0.win 8).blk t).view.set := by
  have hi0 : (i 0).val < 20 := (i 0).isLt
  have hi1 : (i 1).val < 1 := (i 1).isLt
  have hi2 : (i 2).val < 128 := (i 2).isLt
  have hN : cfg0.N = 20 := N_0
  have ht : (i 0).val < cfg0.N := by omega
  obtain ⟨-, -, -, -, -, -, -, -, -, -, -, -, -, -, -, -, e0, e1, e2, -⟩ := idx0 ⟨(i 0).val, ht⟩
  refine ⟨⟨(i 0).val, ht⟩, flush0_8 _, ?_⟩
  rw [mem_blk8]
  intro a
  match a with
  | ⟨0, _⟩ =>
    show win0_8.index ⟨(i 0).val, ht⟩ 0 * 1 ≤ (i 0).val ∧ (i 0).val < win0_8.index ⟨(i 0).val, ht⟩ 0 * 1 + 1
    rw [e0]; show (i 0).val * 1 ≤ (i 0).val ∧ (i 0).val < (i 0).val * 1 + 1; omega
  | ⟨1, _⟩ =>
    show win0_8.index ⟨(i 0).val, ht⟩ 1 * 1 ≤ (i 1).val ∧ (i 1).val < win0_8.index ⟨(i 0).val, ht⟩ 1 * 1 + 1
    rw [e1]; omega
  | ⟨2, _⟩ =>
    show win0_8.index ⟨(i 0).val, ht⟩ 2 * 128 ≤ (i 2).val ∧ (i 2).val < win0_8.index ⟨(i 0).val, ht⟩ 2 * 128 + 128
    rw [e2]; omega

/-- THE SUMS ARRAY after the run. -/
theorem final8 (c : Dev nD) : (dat0 V c).arrAt 8 cfg0.N = tileSum (NF V c) :=
  (dat0 V c).arrAt_eq_of_cover 8 (tileSum (NF V c)) (fun t _ => flushed8_eq V c t) cover8

/-- Point t writes back, at column c of row t, the sum of the squares of its 5000 rows of the new features. -/
theorem flushed9_eq (c : Dev nD) (t : Fin cfg0.N) :
    (dat0 V c).flushed 9 t = ((cfg0.win 9).blk t).view.read (Elt Ideal) (tileSumSq (NF V c)) := by
  obtain ⟨-, -, -, -, -, -, -, -, -, -, -, -, -, -, -, -, -, -, -, e0, e1, e2⟩ := idx0 t
  show (cfg0.win 9).cut (grid0.coords t) ((dat0 V c).after 9 t) = _
  rw [after0_9]
  unfold out0_9
  rw [View.canon_unit_zero hz3]
  simp only [View.ld_unit_zero (S := S5000x128) hz2, View.ld_unit_zero (S := S128x128) hz2, View.ld_unit_zero (S := S1x128) hz2]
  funext j
  obtain ⟨u, u', q, rfl⟩ : ∃ (u u' : Fin 1) (q : Fin 128), j = ix3 u u' q := ⟨j 0, j 1, j 2, eq_ix3 j⟩
  show k0_pay1 (k0_pay3 (iblk0 V c 0 t) (iblk0 V c 1 t) (iblk0 V c 2 t) (iblk0 V c 4 t) (iblk0 V c 5 t) (iblk0 V c 3 t) (iblk0 V c 6 t)) (ix3 u u' q)
    = tileSumSq (NF V c) (((cfg0.win 9).blk t).view.emb (ix3 u u' q))
  refine (pay13_apply _ _ _ _ _ _ _ u u' q).trans ?_
  unfold tileSumSq tileSum
  refine Finset.sum_congr rfl fun p _ => ?_
  rw [pay_at V c t p q]
  have hu : u.val = 0 := by omega
  have hidx : (ix2 (rowAt t p) q : S100000x128.Idx)
      = ix2 (⟨((((cfg0.win 9).blk t).view.emb (ix3 u u' q)) 0).val * 5000 + p.val, by
          have := i3_lt0 (((cfg0.win 9).blk t).view.emb (ix3 u u' q)); have := p.isLt; omega⟩ : Fin 100000)
        (⟨((((cfg0.win 9).blk t).view.emb (ix3 u u' q)) 2).val, i3_lt2 _⟩ : Fin 128) := by
    funext a
    apply Fin.ext
    match a with
    | ⟨0, _⟩ => show t.val * 5000 + p.val = (win0_9.index t 0 * 1 + 1 * u.val) * 5000 + p.val; rw [e0, hu]; omega
    | ⟨1, _⟩ => show q.val = win0_9.index t 2 * 128 + 1 * q.val; rw [e2]; omega
  rw [hidx]

theorem mem_blk9 (t : Fin cfg0.N) (i : S20x1x128.Idx) :
    i ∈ ((cfg0.win 9).blk t).view.set ↔ ∀ a : Fin 3, win0_9.index t a * S1x1x128.size a ≤ (i a).val ∧ (i a).val < win0_9.index t a * S1x1x128.size a + S1x1x128.size a := by
  show i ∈ ((View.whole main_v24_2).slice (win0_9.rect t)).set ↔ _
  rw [View.set_slice_whole, Rect.mem_set_unit]
  exact Iff.rfl

theorem cover9 (i : S20x1x128.Idx) : ∃ t : Fin cfg0.N, (cfg0.win 9).flush t = true ∧ i ∈ ((cfg0.win 9).blk t).view.set := by
  have hi0 : (i 0).val < 20 := (i 0).isLt
  have hi1 : (i 1).val < 1 := (i 1).isLt
  have hi2 : (i 2).val < 128 := (i 2).isLt
  have hN : cfg0.N = 20 := N_0
  have ht : (i 0).val < cfg0.N := by omega
  obtain ⟨-, -, -, -, -, -, -, -, -, -, -, -, -, -, -, -, -, -, -, e0, e1, e2⟩ := idx0 ⟨(i 0).val, ht⟩
  refine ⟨⟨(i 0).val, ht⟩, flush0_9 _, ?_⟩
  rw [mem_blk9]
  intro a
  match a with
  | ⟨0, _⟩ =>
    show win0_9.index ⟨(i 0).val, ht⟩ 0 * 1 ≤ (i 0).val ∧ (i 0).val < win0_9.index ⟨(i 0).val, ht⟩ 0 * 1 + 1
    rw [e0]; show (i 0).val * 1 ≤ (i 0).val ∧ (i 0).val < (i 0).val * 1 + 1; omega
  | ⟨1, _⟩ =>
    show win0_9.index ⟨(i 0).val, ht⟩ 1 * 1 ≤ (i 1).val ∧ (i 1).val < win0_9.index ⟨(i 0).val, ht⟩ 1 * 1 + 1
    rw [e1]; omega
  | ⟨2, _⟩ =>
    show win0_9.index ⟨(i 0).val, ht⟩ 2 * 128 ≤ (i 2).val ∧ (i 2).val < win0_9.index ⟨(i 0).val, ht⟩ 2 * 128 + 128
    rw [e2]; omega

/-- THE SUMS-OF-SQUARES ARRAY after the run. -/
theorem final9 (c : Dev nD) : (dat0 V c).arrAt 9 cfg0.N = tileSumSq (NF V c) :=
  (dat0 V c).arrAt_eq_of_cover 9 (tileSumSq (NF V c)) (fun t _ => flushed9_eq V c t) cover9

end Cert.KernelIdeal.KReg0

end
-- ==== Proof.KReg1.lean ====
/-
  Region 1's output array as one function of the three arrays the region reads.

  At point t the new-features window holds rows 5000 t … 5000 t + 4999, the scale and shift windows their whole
  one-row arrays, and the output window's block is rows 5000 t … of the result.  The body multiplies each entry by
  its column's scale and adds its column's shift, so after the run entry (r, c) of the result is
  x (r, c) * scale (0, c) + shift (0, c).
-/
import proofs.«113694_j2010044694725_2_alg».proof.Proof.Gen.KernelIdeal.Frame
import proofs.«113694_j2010044694725_2_alg».proof.Proof.KBody
import Idealize.ShloMosaic.Lib.Pipeline.Value

set_option maxRecDepth 16384

noncomputable section

open scoped BigOperators

namespace Cert.KernelIdeal.KReg1

open Cert.KernelIdeal Cert.KernelIdeal.Gen Cert.KernelIdeal.KBody
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl

/-- The printed index maps over the grid. -/
theorem idx1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

theorem tlt (t : Fin cfg1.N) : t.val < 20 := by
  have h1 := t.isLt
  have h2 : cfg1.N = 20 := N_1
  omega

/-- Row 5000 t + p. -/
def rowAt (t : Fin cfg1.N) (p : Fin 5000) : Fin 100000 := ⟨t.val * 5000 + p.val, by have := tlt t; have := p.isLt; omega⟩

/-- The new-features block at point t: rows 5000 t … of the array. -/
theorem blk_x (c : Dev nD) (t : Fin cfg1.N) (x : S5000x128.Idx) (k : S100000x128.Idx)
    (hk0 : (k 0).val = t.val * 5000 + (x 0).val) (hk1 : (k 1).val = (x 1).val) :
    (iblk1 V c 0 t : Vec Ideal S5000x128 .f32) x = (V c main_v24_0 : S100000x128.Idx → EReal) k := by
  obtain ⟨e0, e1, -⟩ := idx1 t
  unfold iblk1
  rw [View.read_apply]
  show V c main_v24_0 _ = V c main_v24_0 _
  congr 1
  funext a
  apply Fin.ext
  match a with
  | ⟨0, _⟩ => show win1_0.index t 0 * 5000 + 1 * (x 0).val = (k 0).val; rw [e0, hk0]; omega
  | ⟨1, _⟩ => show win1_0.index t 1 * 128 + 1 * (x 1).val = (k 1).val; rw [e1, hk1]; omega

theorem blk_sc (c : Dev nD) (t : Fin cfg1.N) : (iblk1 V c 1 t : Vec Ideal S1x128 .f32) = (V c main_v43 : S1x128.Idx → EReal) := by
  obtain ⟨-, -, e0, e1, -⟩ := idx1 t
  funext x
  unfold iblk1
  rw [View.read_apply]
  show V c main_v43 _ = V c main_v43 _
  congr 1
  funext a
  apply Fin.ext
  match a with
  | ⟨0, _⟩ => show win1_1.index t 0 * 1 + 1 * (x 0).val = (x 0).val; rw [e0]; omega
  | ⟨1, _⟩ => show win1_1.index t 1 * 128 + 1 * (x 1).val = (x 1).val; rw [e1]; omega

theorem blk_sh (c : Dev nD) (t : Fin cfg1.N) : (iblk1 V c 2 t : Vec Ideal S1x128 .f32) = (V c main_v44 : S1x128.Idx → EReal) := by
  obtain ⟨-, -, -, -, e0, e1, -⟩ := idx1 t
  funext x
  unfold iblk1
  rw [View.read_apply]
  show V c main_v44 _ = V c main_v44 _
  congr 1
  funext a
  apply Fin.ext
  match a with
  | ⟨0, _⟩ => show win1_2.index t 0 * 1 + 1 * (x 0).val = (x 0).val; rw [e0]; omega
  | ⟨1, _⟩ => show win1_2.index t 1 * 128 + 1 * (x 1).val = (x 1).val; rw [e1]; omega

/-- Every entry times its column's scale plus its column's shift. -/
def affine (x : S100000x128.Idx → EReal) (sc sh : S1x128.Idx → EReal) : S100000x128.Idx → EReal :=
  fun i => x i * sc (ix2 (0 : Fin 1) (⟨(i 1).val, idx2_lt1 i⟩ : Fin 128)) + sh (ix2 (0 : Fin 1) (⟨(i 1).val, idx2_lt1 i⟩ : Fin 128))

theorem affine_ix2 (x : S100000x128.Idx → EReal) (sc sh : S1x128.Idx → EReal) (r : Fin 100000) (c : Fin 128) :
    affine x sc sh (ix2 r c) = x (ix2 r c) * sc (ix2 (0 : Fin 1) c) + sh (ix2 (0 : Fin 1) c) := rfl

/-- Point t writes back rows 5000 t … of the affine image. -/
theorem flushed3_eq (c : Dev nD) (t : Fin cfg1.N) :
    (dat1 V c).flushed 3 t = ((cfg1.win 3).blk t).view.read (Elt Ideal) (affine (V c main_v24_0) (V c main_v43) (V c main_v44)) := by
  obtain ⟨-, -, -, -, -, -, e0, e1⟩ := idx1 t
  show (cfg1.win 3).cut (grid1.coords t) ((dat1 V c).after 3 t) = _
  rw [after1_3]
  unfold out1_3
  rw [View.canon_unit_zero hz2]
  simp only [View.ld_unit_zero (S := S5000x128) hz2, View.ld_unit_zero (S := S1x128) hz2]
  funext j
  obtain ⟨p, q, rfl⟩ : ∃ (p : Fin 5000) (q : Fin 128), j = ix2 p q := ⟨j 0, j 1, eq_ix2 j⟩
  show k1_pay1 (iblk1 V c 0 t) (iblk1 V c 1 t) (iblk1 V c 2 t) (ix2 p q)
    = affine (V c main_v24_0) (V c main_v43) (V c main_v44) (((cfg1.win 3).blk t).view.emb (ix2 p q))
  have hemb : (((cfg1.win 3).blk t).view.emb (ix2 p q) : S100000x128.Idx) = ix2 (rowAt t p) q := by
    funext a
    apply Fin.ext
    match a with
    | ⟨0, _⟩ => show win1_3.index t 0 * 5000 + 1 * p.val = t.val * 5000 + p.val; rw [e0]; omega
    | ⟨1, _⟩ => show win1_3.index t 1 * 128 + 1 * q.val = q.val; rw [e1]; omega
  rw [hemb, affine_ix2]
  refine (k1_pay1_apply (iblk1 V c 0 t) (iblk1 V c 1 t) (iblk1 V c 2 t) p q).trans ?_
  rw [blk_sc V c t, blk_sh V c t, blk_x V c t (ix2 p q) (ix2 (rowAt t p) q) rfl rfl]

theorem mem_blk3 (t : Fin cfg1.N) (i : S100000x128.Idx) :
    i ∈ ((cfg1.win 3).blk t).view.set ↔ ∀ a : Fin 2, win1_3.index t a * S5000x128.size a ≤ (i a).val ∧ (i a).val < win1_3.index t a * S5000x128.size a + S5000x128.size a := by
  show i ∈ ((View.whole main_v45).slice (win1_3.rect t)).set ↔ _
  rw [View.set_slice_whole, Rect.mem_set_unit]
  exact Iff.rfl

theorem cover3 (i : S100000x128.Idx) : ∃ t : Fin cfg1.N, (cfg1.win 3).flush t = true ∧ i ∈ ((cfg1.win 3).blk t).view.set := by
  have hi0 : (i 0).val < 100000 := (i 0).isLt
  have hi1 : (i 1).val < 128 := (i 1).isLt
  have hN : cfg1.N = 20 := N_1
  have ht : (i 0).val / 5000 < cfg1.N := by omega
  obtain ⟨-, -, -, -, -, -, e0, e1⟩ := idx1 ⟨(i 0).val / 5000, ht⟩
  refine ⟨⟨(i 0).val / 5000, ht⟩, flush1_3 _, ?_⟩
  rw [mem_blk3]
  intro a
  match a with
  | ⟨0, _⟩ =>
    show win1_3.index ⟨(i 0).val / 5000, ht⟩ 0 * 5000 ≤ (i 0).val ∧ (i 0).val < win1_3.index ⟨(i 0).val / 5000, ht⟩ 0 * 5000 + 5000
    rw [e0]; show (i 0).val / 5000 * 5000 ≤ (i 0).val ∧ (i 0).val < (i 0).val / 5000 * 5000 + 5000; omega
  | ⟨1, _⟩ =>
    show win1_3.index ⟨(i 0).val / 5000, ht⟩ 1 * 128 ≤ (i 1).val ∧ (i 1).val < win1_3.index ⟨(i 0).val / 5000, ht⟩ 1 * 128 + 128
    rw [e1]; omega

/-- THE RESULT ARRAY after the run. -/
theorem final3 (c : Dev nD) : (dat1 V c).arrAt 3 cfg1.N = affine (V c main_v24_0) (V c main_v43) (V c main_v44) :=
  (dat1 V c).arrAt_eq_of_cover 3 _ (fun t _ => flushed3_eq V c t) cover3

end Cert.KernelIdeal.KReg1

end
-- ==== Proof.KHost.lean ====
/-
  The host operations of the kernel program, read back as functions of what they start from.

  BEFORE REGION 0: the aggregate (the rows of the narrowed features gathered at the source indices — a negative
  index wrapped by adding 100000 —, widened, and summed into a zero array at the destination indices), the three
  weight matrices transposed and narrowed, the two bias vectors viewed as one-row arrays.
  BETWEEN THE REGIONS: from the two statistics arrays (twenty rows of column sums each), the column sums s1 and
  s2 (a host sum over the twenty rows from zero), the mean s1 / 100000, the variance max (s2 / 100000 - mean * mean) 0,
  the scale gamma * rsqrt (variance + eps) and the shift beta - mean * scale, both viewed as one-row arrays.
-/
import proofs.«113694_j2010044694725_2_alg».proof.Proof.Gen.KernelIdeal.Frame
import Idealize.ShloMosaic.Lib.StableHlo.Run

set_option maxRecDepth 16384

noncomputable section

namespace Cert.KernelIdeal.KHost

open Cert.KernelIdeal Cert.KernelIdeal.Gen Idealize.ShloMosaic Idealize.ShloMosaic.TcCoe Idealize.SL.Sem Idealize.ShloMosaic.StableHlo

variable {F : FTy → Type} [FloatOps F]

/-! ## Before region 0 -/

/-- Row k of the index array, as a vector of 1600000 indices. -/
def idxRow0 (ei : (⟨S2x1600000, .i32⟩ : BufTy).Contents (Elt F)) : (⟨S1600000, .i32⟩ : BufTy).Contents (Elt F) :=
  fun i => shapeCast S1600000 (extractStridedSlice S1x1600000 ![0, 0] ei slices_S2x1600000_S1x1600000_0_0) shapeCasts_S1x1600000_S1600000 i
def idxRow1 (ei : (⟨S2x1600000, .i32⟩ : BufTy).Contents (Elt F)) : (⟨S1600000, .i32⟩ : BufTy).Contents (Elt F) :=
  fun i => shapeCast S1600000 (extractStridedSlice S1x1600000 ![1, 0] ei slices_S2x1600000_S1x1600000_1_0) shapeCasts_S1x1600000_S1600000 i

/-- The source indices, a negative one wrapped by adding the row count, as a column. -/
def srcCol (ei : (⟨S2x1600000, .i32⟩ : BufTy).Contents (Elt F)) : (⟨S1600000x1, .i32⟩ : BufTy).Contents (Elt F) :=
  broadcastInDim S1600000x1 ![0] bcast_S1600000_S1600000x1_0
    (select (cmpi .slt (idxRow0 (F := F) ei) (broadcastInDim S1600000 ![] bcast_S_S1600000 (constantI S_ 32 0#32)))
      (addi (idxRow0 (F := F) ei) (broadcastInDim S1600000 ![] bcast_S_S1600000 (constantI S_ 32 100000#32)))
      (idxRow0 (F := F) ei))

/-- The aggregate: the gathered rows summed at their destinations. -/
def aggOf (feats : (⟨S100000x128, .f32⟩ : BufTy).Contents (Elt F)) (ei : (⟨S2x1600000, .i32⟩ : BufTy).Contents (Elt F)) :
    (⟨S100000x128, .f32⟩ : BufTy).Contents (Elt F) :=
  Host.scatterAdd scatter_S100000x128_S1600000x1_S1600000x128_1_0_0_1
    (broadcastInDim S100000x128 ![] bcast_S_S100000x128 (constant (F := F) S_ .f32 0x00000000#32))
    (broadcastInDim S1600000x1 ![0] bcast_S1600000_S1600000x1_0 (idxRow1 (F := F) ei))
    (extf .f32 (Host.gather gather_S100000x128_S1600000x1_S1600000x128_1_0_n_n_0_1_1128
      (truncf .bf16 feats bitsLt_bf16_f32) (srcCol (F := F) ei)) bitsLt_bf16_f32)

/-- A weight matrix transposed and narrowed. -/
def wOf (w : (⟨S128x128, .f32⟩ : BufTy).Contents (Elt F)) : (⟨S128x128, .bf16⟩ : BufTy).Contents (Elt F) :=
  truncf .bf16 (transpose S128x128 [1, 0] w transposes_S128x128_S128x128_1_0) bitsLt_bf16_f32

/-- A vector viewed as a one-row array. -/
def rowOfVec (b : (⟨S128, .f32⟩ : BufTy).Contents (Elt F)) : (⟨S1x128, .f32⟩ : BufTy).Contents (Elt F) :=
  fun i => shapeCast S1x128 b shapeCasts_S128_S1x128 i

theorem v15_eq (W : Valuation τ sig (Elt F)) :
    StableHlo.after (hostOps0 (F := F)) W (Proc.devRef .tc main_v15)
      = aggOf (W (Proc.devRef .tc main_arg0)) (W (Proc.devRef .tc main_arg1)) := by
  after_results_simp
  rfl
theorem v17_eq (W : Valuation τ sig (Elt F)) :
    StableHlo.after (hostOps0 (F := F)) W (Proc.devRef .tc main_v17) = wOf (W (Proc.devRef .tc main_arg2)) := by
  after_results_simp
  rfl
theorem v19_eq (W : Valuation τ sig (Elt F)) :
    StableHlo.after (hostOps0 (F := F)) W (Proc.devRef .tc main_v19) = wOf (W (Proc.devRef .tc main_arg4)) := by
  after_results_simp
  rfl
theorem v21_eq (W : Valuation τ sig (Elt F)) :
    StableHlo.after (hostOps0 (F := F)) W (Proc.devRef .tc main_v21) = wOf (W (Proc.devRef .tc main_arg5)) := by
  after_results_simp
  rfl
theorem v22_eq (W : Valuation τ sig (Elt F)) :
    StableHlo.after (hostOps0 (F := F)) W (Proc.devRef .tc main_v22) = rowOfVec (W (Proc.devRef .tc main_arg3)) := by
  after_results_simp
  rfl
theorem v23_eq (W : Valuation τ sig (Elt F)) :
    StableHlo.after (hostOps0 (F := F)) W (Proc.devRef .tc main_v23) = rowOfVec (W (Proc.devRef .tc main_arg6)) := by
  after_results_simp
  rfl
theorem arg0_eq (W : Valuation τ sig (Elt F)) :
    StableHlo.after (hostOps0 (F := F)) W (Proc.devRef .tc main_arg0) = W (Proc.devRef .tc main_arg0) := by
  after_results_simp
theorem arg7_eq (W : Valuation τ sig (Elt F)) :
    StableHlo.after (hostOps0 (F := F)) W (Proc.devRef .tc main_arg7) = W (Proc.devRef .tc main_arg7) := by
  after_results_simp
theorem arg8_eq (W : Valuation τ sig (Elt F)) :
    StableHlo.after (hostOps0 (F := F)) W (Proc.devRef .tc main_arg8) = W (Proc.devRef .tc main_arg8) := by
  after_results_simp

/-! ## Between the regions -/

/-- The column sums of a statistics array: its twenty rows summed from zero. -/
def colSumOf (s : (⟨S20x1x128, .f32⟩ : BufTy).Contents (Elt F)) : (⟨S128, .f32⟩ : BufTy).Contents (Elt F) :=
  Host.reduceAdd (fun i => shapeCast S20x128 s shapeCasts_S20x1x128_S20x128 i) (constant (F := F) S_ .f32 0x00000000#32)
    reducesTo_S20x128_S128_d0 h_S_

/-- A column sum divided by the row count. -/
def meanOf (s : (⟨S20x1x128, .f32⟩ : BufTy).Contents (Elt F)) : (⟨S128, .f32⟩ : BufTy).Contents (Elt F) :=
  Host.divf (colSumOf s) (broadcastInDim S128 ![] bcast_S_S128 (constant (F := F) S_ .f32 0x47C35000#32))

/-- gamma * rsqrt (max (s2 / n - mean * mean) 0 + eps). -/
def scaleOf (s1 s2 : (⟨S20x1x128, .f32⟩ : BufTy).Contents (Elt F)) (gamma : (⟨S128, .f32⟩ : BufTy).Contents (Elt F)) :
    (⟨S128, .f32⟩ : BufTy).Contents (Elt F) :=
  mulf gamma (Host.rsqrt (addf (maximumf (subf (meanOf s2) (mulf (meanOf s1) (meanOf s1)))
      (broadcastInDim S128 ![] bcast_S_S128 (constant (F := F) S_ .f32 0x00000000#32)))
    (broadcastInDim S128 ![] bcast_S_S128 (constant (F := F) S_ .f32 0x3727C5AC#32))))

/-- beta - mean * scale. -/
def shiftOf (s1 s2 : (⟨S20x1x128, .f32⟩ : BufTy).Contents (Elt F)) (gamma beta : (⟨S128, .f32⟩ : BufTy).Contents (Elt F)) :
    (⟨S128, .f32⟩ : BufTy).Contents (Elt F) :=
  subf beta (mulf (meanOf s1) (scaleOf s1 s2 gamma))

theorem v43_eq (W : Valuation τ sig (Elt F)) :
    StableHlo.after (hostOps1 (F := F)) W (Proc.devRef .tc main_v43)
      = rowOfVec (scaleOf (W (Proc.devRef .tc main_v24_1)) (W (Proc.devRef .tc main_v24_2)) (W (Proc.devRef .tc main_arg7))) := by
  after_results_simp
  rfl
theorem v44_eq (W : Valuation τ sig (Elt F)) :
    StableHlo.after (hostOps1 (F := F)) W (Proc.devRef .tc main_v44)
      = rowOfVec (shiftOf (W (Proc.devRef .tc main_v24_1)) (W (Proc.devRef .tc main_v24_2)) (W (Proc.devRef .tc main_arg7))
          (W (Proc.devRef .tc main_arg8))) := by
  after_results_simp
  rfl
theorem v24_0_eq (W : Valuation τ sig (Elt F)) :
    StableHlo.after (hostOps1 (F := F)) W (Proc.devRef .tc main_v24_0) = W (Proc.devRef .tc main_v24_0) := by
  after_results_simp

end Cert.KernelIdeal.KHost

end
-- ==== Proof.KValue.lean ====
/-
  The idealized kernel program's result array as ONE function of its nine arguments.

  Walking the run's boundaries backwards: the result is region 1's output array, the affine image of region 0's
  new-features array by the scale and shift rows; the scale and shift are the host stretch's functions of region 0's
  two statistics arrays and of gamma, beta; region 0's three arrays are the new features NF of the arrays the first
  host stretch prepared (the aggregate, the transposed weights, the bias rows) and NF's tile sums and tile sums of
  squares.  Nothing in between writes an argument.
-/
import proofs.«113694_j2010044694725_2_alg».proof.Proof.KRun
import proofs.«113694_j2010044694725_2_alg».proof.Proof.KReg0
import proofs.«113694_j2010044694725_2_alg».proof.Proof.KReg1
import proofs.«113694_j2010044694725_2_alg».proof.Proof.KHost

set_option maxRecDepth 16384

noncomputable section

namespace Cert.KernelIdeal.KValue

open Cert.KernelIdeal Cert.KernelIdeal.Gen
open Idealize.ShloMosaic Idealize.ShloMosaic.TcCoe Idealize.SL.Sem Idealize.ShloMosaic.ValueIdx
open Cert.KernelIdeal.KHost Cert.KernelIdeal.KReg0 Cert.KernelIdeal.KReg1

/-- The new features, from the features, the index array, the three weight matrices and the two bias vectors. -/
def kerNF (a0 : S100000x128.Idx → EReal) (a1 : (⟨S2x1600000, .i32⟩ : BufTy).Contents (Elt Ideal))
    (a2 : S128x128.Idx → EReal) (a3 : S128.Idx → EReal) (a4 a5 : S128x128.Idx → EReal) (a6 : S128.Idx → EReal) :
    S100000x128.Idx → EReal :=
  nfArr a0 (aggOf (F := Ideal) a0 a1) (wOf (F := Ideal) a2) (wOf (F := Ideal) a4) (wOf (F := Ideal) a5)
    (rowOfVec (F := Ideal) a3) (rowOfVec (F := Ideal) a6)

/-- The affine image of an array by the scale and shift computed from its own tile statistics. -/
def normOf (nf : S100000x128.Idx → EReal) (a7 a8 : S128.Idx → EReal) : S100000x128.Idx → EReal :=
  affine nf (rowOfVec (F := Ideal) (scaleOf (F := Ideal) (tileSum nf) (tileSumSq nf) a7))
    (rowOfVec (F := Ideal) (shiftOf (F := Ideal) (tileSum nf) (tileSumSq nf) a7 a8))

/-- The program's result as a function of its arguments. -/
def kerOut (a0 : S100000x128.Idx → EReal) (a1 : (⟨S2x1600000, .i32⟩ : BufTy).Contents (Elt Ideal))
    (a2 : S128x128.Idx → EReal) (a3 : S128.Idx → EReal) (a4 a5 : S128x128.Idx → EReal) (a6 a7 a8 : S128.Idx → EReal) :
    S100000x128.Idx → EReal :=
  normOf (kerNF a0 a1 a2 a3 a4 a5 a6) a7 a8

variable (m : (ℓ : Loc nD τ sig) → Buf (Elt Ideal) ℓ) (ρ : Dev nD → PrngReg)

/-- Region 0's new-features array is the new features of the arguments. -/
theorem nf_eq (c : Dev nD) :
    NF (V1 m ρ) c = kerNF (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) := by
  show nfArr (StableHlo.after hostOps0 (W0 m ρ c) (Proc.devRef .tc main_arg0))
      (StableHlo.after hostOps0 (W0 m ρ c) (Proc.devRef .tc main_v15))
      (StableHlo.after hostOps0 (W0 m ρ c) (Proc.devRef .tc main_v17))
      (StableHlo.after hostOps0 (W0 m ρ c) (Proc.devRef .tc main_v19))
      (StableHlo.after hostOps0 (W0 m ρ c) (Proc.devRef .tc main_v21))
      (StableHlo.after hostOps0 (W0 m ρ c) (Proc.devRef .tc main_v22))
      (StableHlo.after hostOps0 (W0 m ρ c) (Proc.devRef .tc main_v23)) = _
  rw [KHost.arg0_eq, KHost.v15_eq, KHost.v17_eq, KHost.v19_eq, KHost.v21_eq, KHost.v22_eq, KHost.v23_eq]
  rfl

/-- gamma and beta reach the second host stretch as launched. -/
theorem w2_arg7 (c : Dev nD) : W2 m ρ c (Proc.devRef .tc main_arg7) = m ((c.tc : Thread nD τ).loc main_arg7) :=
  (W2_of_ne m ρ c main_arg7 (by decide)).trans (KHost.arg7_eq (W0 m ρ c))
theorem w2_arg8 (c : Dev nD) : W2 m ρ c (Proc.devRef .tc main_arg8) = m ((c.tc : Thread nD τ).loc main_arg8) :=
  (W2_of_ne m ρ c main_arg8 (by decide)).trans (KHost.arg8_eq (W0 m ρ c))

/-- THE RESULT ARRAY at the run's last boundary. -/
theorem result_eq (c : Dev nD) :
    W4 m ρ c (Proc.devRef .tc main_v45)
      = kerOut (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7))
          (m ((c.tc : Thread nD τ).loc main_arg8)) := by
  have h7 : W2 m ρ c (Proc.devRef .tc main_v24_0) = NF (V1 m ρ) c := (W2_arr m ρ c 7).trans (final7 (V1 m ρ) c)
  have h8 : W2 m ρ c (Proc.devRef .tc main_v24_1) = tileSum (NF (V1 m ρ) c) := (W2_arr m ρ c 8).trans (final8 (V1 m ρ) c)
  have h9 : W2 m ρ c (Proc.devRef .tc main_v24_2) = tileSumSq (NF (V1 m ρ) c) := (W2_arr m ρ c 9).trans (final9 (V1 m ρ) c)
  have e0 : V3 m ρ c main_v24_0 = NF (V1 m ρ) c := (KHost.v24_0_eq (W2 m ρ c)).trans h7
  have e1 : V3 m ρ c main_v43 = rowOfVec (F := Ideal) (scaleOf (F := Ideal) (tileSum (NF (V1 m ρ) c)) (tileSumSq (NF (V1 m ρ) c))
      (m ((c.tc : Thread nD τ).loc main_arg7))) := by
    refine (KHost.v43_eq (W2 m ρ c)).trans ?_
    rw [h8, h9, w2_arg7]
  have e2 : V3 m ρ c main_v44 = rowOfVec (F := Ideal) (shiftOf (F := Ideal) (tileSum (NF (V1 m ρ) c)) (tileSumSq (NF (V1 m ρ) c))
      (m ((c.tc : Thread nD τ).loc main_arg7)) (m ((c.tc : Thread nD τ).loc main_arg8))) := by
    refine (KHost.v44_eq (W2 m ρ c)).trans ?_
    rw [h8, h9, w2_arg7, w2_arg8]
  refine (W4_arr m ρ c 3).trans ((final3 (V3 m ρ) c).trans ?_)
  rw [e0, e1, e2, nf_eq]
  rfl

/-- THE RUN, READ: every weakly fair execution terminates with the result array at `kerOut` of the arguments and the
    arguments unchanged. -/
theorem run : θ_run defs (onTc (τ := τ) (main (F := Ideal))) ⟨m, fun _ => 0, ρ⟩ (fun r => ∀ c : Dev nD,
      r.2.mem ((c.tc : Thread nD τ).loc main_v45)
        = kerOut (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7))
          (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨(h c).1.trans (result_eq m ρ c), (h c).2⟩) (Cert.KernelIdeal.KRun.run (F := Ideal) m ρ)

end Cert.KernelIdeal.KValue

end
-- ==== Proof.RefRun.lean ====
/-
  The reference program's run, read back as a named term.

  @main of the reference is a straight line of host operations once its three calls are unfolded at their call
  sites over the calls' buffer records — the two `relu`s (three operations each: the scalar zero, its broadcast,
  the maximum) and the variance (nineteen operations and, inside it, the three of the select helper) —: the
  eighty-one operations `ops`. Every weakly fair execution then terminates with each buffer at the fold of the
  operations' results over the launch contents. At the result buffer that fold is the composition
  `bnOf (nfOf feats (aggOf feats ei) wrel brel wroot wres bres) gamma beta` of three staged terms of the nine
  arguments' contents, each stage the printed operations applied in order: the neighbour sum (`aggOf`), the two
  rectified affine maps and their sum (`nfOf`), the normalisation over the rows (`bnOf`). At each argument
  buffer the fold is the launch contents: no operation writes an argument.

  The equalities hold for any float values `F`: both sides apply the same functions to the same terms, and
  nothing here says what those functions compute.
-/
import proofs.«113694_j2010044694725_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's eighty-one operations in order, the calls unfolded: the seventeen of the neighbour sum (the two
    slices and reshapes of the index array, the wrap of a negative source, the gather, the zero array, the
    scatter-add); the eight of the first affine map and the three of its `relu` into the first call's buffers;
    the five of the second affine map and the three of its `relu` into the second call's; their sum; the six of
    the column mean and the integer zero; the variance's nineteen into the third call's buffers and the select
    helper's three into the record nested in it; the sixteen of the normalisation. -/
abbrev ops : List (HloOp τ sig (Elt F)) :=
  [
    StableHlo.unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v0 main_v1 rfl shapeCasts_S1x1600000_S1600000,
    StableHlo.unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v2 main_v3 rfl shapeCasts_S1x1600000_S1600000,
    StableHlo.nullary main_c (constantI S_ 32 0#32),
    StableHlo.unary main_c main_v4 (broadcastInDim S1600000 ![] bcast_S_S1600000 : (⟨S_, .i32⟩ : BufTy).Contents (Elt F) → (⟨S1600000, .i32⟩ : BufTy).Contents (Elt F)),
    StableHlo.binary main_v1 main_v4 main_v5 (cmpi .slt : (⟨S1600000, .i32⟩ : BufTy).Contents (Elt F) → (⟨S1600000, .i32⟩ : BufTy).Contents (Elt F) → (⟨S1600000, .i1⟩ : BufTy).Contents (Elt F)),
    StableHlo.nullary main_c_0 (constantI S_ 32 100000#32),
    StableHlo.unary main_c_0 main_v6 (broadcastInDim S1600000 ![] bcast_S_S1600000 : (⟨S_, .i32⟩ : BufTy).Contents (Elt F) → (⟨S1600000, .i32⟩ : BufTy).Contents (Elt F)),
    StableHlo.binary main_v1 main_v6 main_v7 (addi : (⟨S1600000, .i32⟩ : BufTy).Contents (Elt F) → (⟨S1600000, .i32⟩ : BufTy).Contents (Elt F) → (⟨S1600000, .i32⟩ : BufTy).Contents (Elt F)),
    StableHlo.ternary main_v5 main_v7 main_v1 main_v8 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v8 main_v9 (broadcastInDim S1600000x1 ![0] bcast_S1600000_S1600000x1_0 : (⟨S1600000, .i32⟩ : BufTy).Contents (Elt F) → (⟨S1600000x1, .i32⟩ : BufTy).Contents (Elt F)),
    StableHlo.binary main_arg0 main_v9 main_v10 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.nullary main_cst (constant S_ .f32 0x00000000#32),
    StableHlo.unary main_cst main_v11 (broadcastInDim S100000x128 ![] bcast_S_S100000x128 : (⟨S_, .f32⟩ : BufTy).Contents (Elt F) → (⟨S100000x128, .f32⟩ : BufTy).Contents (Elt F)),
    StableHlo.unary main_v3 main_v12 (broadcastInDim S1600000x1 ![0] bcast_S1600000_S1600000x1_0 : (⟨S1600000, .i32⟩ : BufTy).Contents (Elt F) → (⟨S1600000x1, .i32⟩ : BufTy).Contents (Elt F)),
    StableHlo.ternary main_v11 main_v12 main_v10 main_v13 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.unary main_arg2 main_v14 ((transpose S128x128 [1, 0] · transposes_S128x128_S128x128_1_0) : (⟨S128x128, .f32⟩ : BufTy).Contents (Elt F) → (⟨S128x128, .f32⟩ : BufTy).Contents (Elt F)),
    StableHlo.binary main_v13 main_v14 main_v15 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg3 main_v16 (broadcastInDim S1x128 ![1] bcast_S128_S1x128_1 : (⟨S128, .f32⟩ : BufTy).Contents (Elt F) → (⟨S1x128, .f32⟩ : BufTy).Contents (Elt F)),
    StableHlo.unary main_v16 main_v17 (broadcastInDim S100000x128 ![0, 1] bcast_S1x128_S100000x128_0_1 : (⟨S1x128, .f32⟩ : BufTy).Contents (Elt F) → (⟨S100000x128, .f32⟩ : BufTy).Contents (Elt F)),
    StableHlo.binary main_v15 main_v17 main_v18 (addf : (⟨S100000x128, .f32⟩ : BufTy).Contents (Elt F) → (⟨S100000x128, .f32⟩ : BufTy).Contents (Elt F) → (⟨S100000x128, .f32⟩ : BufTy).Contents (Elt F)),
    StableHlo.unary main_arg4 main_v19 ((transpose S128x128 [1, 0] · transposes_S128x128_S128x128_1_0) : (⟨S128x128, .f32⟩ : BufTy).Contents (Elt F) → (⟨S128x128, .f32⟩ : BufTy).Contents (Elt F)),
    StableHlo.binary main_arg0 main_v19 main_v20 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.binary main_v18 main_v20 main_v21 (addf : (⟨S100000x128, .f32⟩ : BufTy).Contents (Elt F) → (⟨S100000x128, .f32⟩ : BufTy).Contents (Elt F) → (⟨S100000x128, .f32⟩ : BufTy).Contents (Elt F)),
    StableHlo.TRef.nullary main_call0.cst (constant S_ .f32 0x00000000#32),
    StableHlo.TRef.unary main_call0.cst main_call0.v0 (broadcastInDim S100000x128 ![] bcast_S_S100000x128),
    StableHlo.TRef.binary (.of main_v21) main_call0.v0 main_call0.v1 maximumf,
    StableHlo.unary main_arg5 main_v23 ((transpose S128x128 [1, 0] · transposes_S128x128_S128x128_1_0) : (⟨S128x128, .f32⟩ : BufTy).Contents (Elt F) → (⟨S128x128, .f32⟩ : BufTy).Contents (Elt F)),
    StableHlo.binary main_arg0 main_v23 main_v24 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg6 main_v25 (broadcastInDim S1x128 ![1] bcast_S128_S1x128_1 : (⟨S128, .f32⟩ : BufTy).Contents (Elt F) → (⟨S1x128, .f32⟩ : BufTy).Contents (Elt F)),
    StableHlo.unary main_v25 main_v26 (broadcastInDim S100000x128 ![0, 1] bcast_S1x128_S100000x128_0_1 : (⟨S1x128, .f32⟩ : BufTy).Contents (Elt F) → (⟨S100000x128, .f32⟩ : BufTy).Contents (Elt F)),
    StableHlo.binary main_v24 main_v26 main_v27 (addf : (⟨S100000x128, .f32⟩ : BufTy).Contents (Elt F) → (⟨S100000x128, .f32⟩ : BufTy).Contents (Elt F) → (⟨S100000x128, .f32⟩ : BufTy).Contents (Elt F)),
    StableHlo.TRef.nullary main_call1.cst (constant S_ .f32 0x00000000#32),
    StableHlo.TRef.unary main_call1.cst main_call1.v0 (broadcastInDim S100000x128 ![] bcast_S_S100000x128),
    StableHlo.TRef.binary (.of main_v27) main_call1.v0 main_call1.v1 maximumf,
    StableHlo.binary main_v22 main_v28 main_v29 (addf : (⟨S100000x128, .f32⟩ : BufTy).Contents (Elt F) → (⟨S100000x128, .f32⟩ : BufTy).Contents (Elt F) → (⟨S100000x128, .f32⟩ : BufTy).Contents (Elt F)),
    StableHlo.nullary main_cst_1 (constant S_ .f32 0x00000000#32),
    StableHlo.binary main_v29 main_cst_1 main_v30 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_2 (constant S_ .f32 0x47C35000#32),
    StableHlo.unary main_cst_2 main_v31 (broadcastInDim S128 ![] bcast_S_S128 : (⟨S_, .f32⟩ : BufTy).Contents (Elt F) → (⟨S128, .f32⟩ : BufTy).Contents (Elt F)),
    StableHlo.binary main_v30 main_v31 main_v32 (Host.divf : (⟨S128, .f32⟩ : BufTy).Contents (Elt F) → (⟨S128, .f32⟩ : BufTy).Contents (Elt F) → (⟨S128, .f32⟩ : BufTy).Contents (Elt F)),
    StableHlo.nullary main_c_3 (constantI S_ 32 0#32),
    StableHlo.TRef.nullary main_call2.cst (constant S_ .f32 0x00000000#32),
    StableHlo.TRef.binary (.of main_v29) main_call2.cst main_call2.v0 (fun x v => Host.reduceAdd x v reducesTo_S100000x128_S128_d0 h_S_),
    StableHlo.TRef.unary main_call2.v0 main_call2.v1 (broadcastInDim S1x128 ![1] bcast_S128_S1x128_1),
    StableHlo.TRef.nullary main_call2.cst_0 (constant S_ .f32 0x47C35000#32),
    StableHlo.TRef.unary main_call2.cst_0 main_call2.v2 (broadcastInDim S1x128 ![] bcast_S_S1x128),
    StableHlo.TRef.binary main_call2.v1 main_call2.v2 main_call2.v3 Host.divf,
    StableHlo.TRef.unary main_call2.v3 main_call2.v4 (broadcastInDim S100000x128 ![0, 1] bcast_S1x128_S100000x128_0_1),
    StableHlo.TRef.binary (.of main_v29) main_call2.v4 main_call2.v5 subf,
    StableHlo.TRef.binary main_call2.v5 main_call2.v5 main_call2.v6 mulf,
    StableHlo.TRef.unary (.of main_c_3) main_call2.v7 (sitofp .f32),
    StableHlo.TRef.nullary main_call2.cst_1 (constant S_ .f32 0x47C35000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S100000x128_S128_d0 h_S_),
    StableHlo.TRef.unary main_call2.v8 main_call2.v10 (broadcastInDim S128 ![] bcast_S_S128),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S128 ![] bcast_S_S128),
    StableHlo.TRef.ternary main_call2.v12 main_call2.v11 main_call2.call0.v1 main_call2.call0.v2 (fun p a b => select (broadcastInDim S128 ![] bcast_S_S128 p) a b),
    StableHlo.unary main_v32 main_v34 (broadcastInDim S1x128 ![1] bcast_S128_S1x128_1 : (⟨S128, .f32⟩ : BufTy).Contents (Elt F) → (⟨S1x128, .f32⟩ : BufTy).Contents (Elt F)),
    StableHlo.unary main_v34 main_v35 (broadcastInDim S100000x128 ![0, 1] bcast_S1x128_S100000x128_0_1 : (⟨S1x128, .f32⟩ : BufTy).Contents (Elt F) → (⟨S100000x128, .f32⟩ : BufTy).Contents (Elt F)),
    StableHlo.binary main_v29 main_v35 main_v36 (subf : (⟨S100000x128, .f32⟩ : BufTy).Contents (Elt F) → (⟨S100000x128, .f32⟩ : BufTy).Contents (Elt F) → (⟨S100000x128, .f32⟩ : BufTy).Contents (Elt F)),
    StableHlo.nullary main_cst_4 (constant S_ .f32 0x3727C5AC#32),
    StableHlo.unary main_cst_4 main_v37 (broadcastInDim S128 ![] bcast_S_S128 : (⟨S_, .f32⟩ : BufTy).Contents (Elt F) → (⟨S128, .f32⟩ : BufTy).Contents (Elt F)),
    StableHlo.binary main_v33 main_v37 main_v38 (addf : (⟨S128, .f32⟩ : BufTy).Contents (Elt F) → (⟨S128, .f32⟩ : BufTy).Contents (Elt F) → (⟨S128, .f32⟩ : BufTy).Contents (Elt F)),
    StableHlo.unary main_v38 main_v39 (Host.rsqrt : (⟨S128, .f32⟩ : BufTy).Contents (Elt F) → (⟨S128, .f32⟩ : BufTy).Contents (Elt F)),
    StableHlo.unary main_v39 main_v40 (broadcastInDim S1x128 ![1] bcast_S128_S1x128_1 : (⟨S128, .f32⟩ : BufTy).Contents (Elt F) → (⟨S1x128, .f32⟩ : BufTy).Contents (Elt F)),
    StableHlo.unary main_v40 main_v41 (broadcastInDim S100000x128 ![0, 1] bcast_S1x128_S100000x128_0_1 : (⟨S1x128, .f32⟩ : BufTy).Contents (Elt F) → (⟨S100000x128, .f32⟩ : BufTy).Contents (Elt F)),
    StableHlo.binary main_v36 main_v41 main_v42 (mulf : (⟨S100000x128, .f32⟩ : BufTy).Contents (Elt F) → (⟨S100000x128, .f32⟩ : BufTy).Contents (Elt F) → (⟨S100000x128, .f32⟩ : BufTy).Contents (Elt F)),
    StableHlo.unary main_arg7 main_v43 (broadcastInDim S1x128 ![1] bcast_S128_S1x128_1 : (⟨S128, .f32⟩ : BufTy).Contents (Elt F) → (⟨S1x128, .f32⟩ : BufTy).Contents (Elt F)),
    StableHlo.unary main_v43 main_v44 (broadcastInDim S100000x128 ![0, 1] bcast_S1x128_S100000x128_0_1 : (⟨S1x128, .f32⟩ : BufTy).Contents (Elt F) → (⟨S100000x128, .f32⟩ : BufTy).Contents (Elt F)),
    StableHlo.binary main_v42 main_v44 main_v45 (mulf : (⟨S100000x128, .f32⟩ : BufTy).Contents (Elt F) → (⟨S100000x128, .f32⟩ : BufTy).Contents (Elt F) → (⟨S100000x128, .f32⟩ : BufTy).Contents (Elt F)),
    StableHlo.unary main_arg8 main_v46 (broadcastInDim S1x128 ![1] bcast_S128_S1x128_1 : (⟨S128, .f32⟩ : BufTy).Contents (Elt F) → (⟨S1x128, .f32⟩ : BufTy).Contents (Elt F)),
    StableHlo.unary main_v46 main_v47 (broadcastInDim S100000x128 ![0, 1] bcast_S1x128_S100000x128_0_1 : (⟨S1x128, .f32⟩ : BufTy).Contents (Elt F) → (⟨S100000x128, .f32⟩ : BufTy).Contents (Elt F)),
    StableHlo.binary main_v45 main_v47 main_v48 (addf : (⟨S100000x128, .f32⟩ : BufTy).Contents (Elt F) → (⟨S100000x128, .f32⟩ : BufTy).Contents (Elt F) → (⟨S100000x128, .f32⟩ : BufTy).Contents (Elt F)) ]

set_option maxRecDepth 8192 in
set_option maxHeartbeats 1000000 in
/-- @main is that straight line: a call is its callee's body at the call's buffers, and sequencing a body
    before the rest is the one chain of steps, by computation. -/
theorem main_eq (c : Dev nD) : main (F := F) c = seq ops := rfl

/-- The signature scopes no TensorCore buffer and no semaphore. -/
theorem scopedRefs_eq : (Finset.univ.filter fun b : Ref sig .tc => b.isScoped) = ∅ := by decide
@[inherit_doc scopedRefs_eq]
theorem scopedSems_eq : (Finset.univ.filter fun sm : SemLoc sig => sm.isScoped .tc) = ∅ := by decide

/-- Every operation touches TensorCore references only. -/
theorem ops_sub : (ops : List (HloOp τ sig (Elt F))).Forall fun op => op.bufs ⊆ tcRefs τ sig :=
  ⟨unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., binary_bufs_sub .., unary_bufs_sub .., unary_bufs_sub .., binary_bufs_sub .., unary_bufs_sub .., binary_bufs_sub .., binary_bufs_sub .., nullary_bufs_sub .., unary_bufs_sub .., binary_bufs_sub .., unary_bufs_sub .., binary_bufs_sub .., unary_bufs_sub .., unary_bufs_sub .., binary_bufs_sub .., nullary_bufs_sub .., unary_bufs_sub .., binary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub ..⟩

/-! ## The result as a term of the arguments' contents, in three stages -/

/-- The neighbour sum. The two rows of the index array are the sources and the destinations of the
    1600000 edges; a negative source is wrapped by adding 100000; row `e` of the gathered array is the
    feature row of edge `e`'s source; the result is the zero array with each gathered row added into the
    row of its edge's destination: row `i` is the sum of `feats (src e)` over the edges `e` with `dst e = i`. -/
def aggOf (feats : (⟨S100000x128, .f32⟩ : BufTy).Contents (Elt F)) (ei : (⟨S2x1600000, .i32⟩ : BufTy).Contents (Elt F)) :
    (⟨S100000x128, .f32⟩ : BufTy).Contents (Elt F) :=
  have v0 : IVec S1x1600000 32 := extractStridedSlice S1x1600000 ![0, 0] ei slices_S2x1600000_S1x1600000_0_0
  have v1 : IVec S1600000 32 := shapeCast S1600000 v0 shapeCasts_S1x1600000_S1600000
  have v2 : IVec S1x1600000 32 := extractStridedSlice S1x1600000 ![1, 0] ei slices_S2x1600000_S1x1600000_1_0
  have v3 : IVec S1600000 32 := shapeCast S1600000 v2 shapeCasts_S1x1600000_S1600000
  have c : IVec S_ 32 := constantI S_ 32 0#32
  have v4 : IVec S1600000 32 := broadcastInDim S1600000 ![] bcast_S_S1600000 c
  have v5 : IVec S1600000 1 := cmpi .slt v1 v4
  have c_0 : IVec S_ 32 := constantI S_ 32 100000#32
  have v6 : IVec S1600000 32 := broadcastInDim S1600000 ![] bcast_S_S1600000 c_0
  have v7 : IVec S1600000 32 := addi v1 v6
  have v8 : IVec S1600000 32 := select v5 v7 v1
  have v9 : IVec S1600000x1 32 := broadcastInDim S1600000x1 ![0] bcast_S1600000_S1600000x1_0 v8
  have v10 : FVec F S1600000x128 .f32 := Host.gather gather_S100000x128_S1600000x1_S1600000x128_1_0_n_n_0_1_1128 feats v9
  have cst : FVec F S_ .f32 := constant S_ .f32 0x00000000#32
  have v11 : FVec F S100000x128 .f32 := broadcastInDim S100000x128 ![] bcast_S_S100000x128 cst
  have v12 : IVec S1600000x1 32 := broadcastInDim S1600000x1 ![0] bcast_S1600000_S1600000x1_0 v3
  have v13 : FVec F S100000x128 .f32 := Host.scatterAdd scatter_S100000x128_S1600000x1_S1600000x128_1_0_0_1 v11 v12 v10
  v13

/-- The layer before normalisation: `relu (agg · wrelᵀ + brel + feats · wrootᵀ) + relu (feats · wresᵀ + bres)`,
    each product a contraction of the 128 columns with the transposed weight, each bias broadcast down
    the rows, `relu x` the maximum of `x` and the zero array. -/
def nfOf (feats agg : (⟨S100000x128, .f32⟩ : BufTy).Contents (Elt F)) (wrel : (⟨S128x128, .f32⟩ : BufTy).Contents (Elt F))
    (brel : (⟨S128, .f32⟩ : BufTy).Contents (Elt F)) (wroot wres : (⟨S128x128, .f32⟩ : BufTy).Contents (Elt F))
    (bres : (⟨S128, .f32⟩ : BufTy).Contents (Elt F)) : (⟨S100000x128, .f32⟩ : BufTy).Contents (Elt F) :=
  have v14 : FVec F S128x128 .f32 := transpose S128x128 [1, 0] wrel transposes_S128x128_S128x128_1_0
  have v15 : FVec F S100000x128 .f32 := Host.dotGeneral dot_S100000x128_S128x128_S100000x128_1_0_0_1_n_n none agg v14
  have v16 : FVec F S1x128 .f32 := broadcastInDim S1x128 ![1] bcast_S128_S1x128_1 brel
  have v17 : FVec F S100000x128 .f32 := broadcastInDim S100000x128 ![0, 1] bcast_S1x128_S100000x128_0_1 v16
  have v18 : FVec F S100000x128 .f32 := addf v15 v17
  have v19 : FVec F S128x128 .f32 := transpose S128x128 [1, 0] wroot transposes_S128x128_S128x128_1_0
  have v20 : FVec F S100000x128 .f32 := Host.dotGeneral dot_S100000x128_S128x128_S100000x128_1_0_0_1_n_n none feats v19
  have v21 : FVec F S100000x128 .f32 := addf v18 v20
  have call0_cst : FVec F S_ .f32 := constant S_ .f32 0x00000000#32
  have call0_v0 : FVec F S100000x128 .f32 := broadcastInDim S100000x128 ![] bcast_S_S100000x128 call0_cst
  have v22 : FVec F S100000x128 .f32 := maximumf v21 call0_v0
  have v23 : FVec F S128x128 .f32 := transpose S128x128 [1, 0] wres transposes_S128x128_S128x128_1_0
  have v24 : FVec F S100000x128 .f32 := Host.dotGeneral dot_S100000x128_S128x128_S100000x128_1_0_0_1_n_n none feats v23
  have v25 : FVec F S1x128 .f32 := broadcastInDim S1x128 ![1] bcast_S128_S1x128_1 bres
  have v26 : FVec F S100000x128 .f32 := broadcastInDim S100000x128 ![0, 1] bcast_S1x128_S100000x128_0_1 v25
  have v27 : FVec F S100000x128 .f32 := addf v24 v26
  have call1_cst : FVec F S_ .f32 := constant S_ .f32 0x00000000#32
  have call1_v0 : FVec F S100000x128 .f32 := broadcastInDim S100000x128 ![] bcast_S_S100000x128 call1_cst
  have v28 : FVec F S100000x128 .f32 := maximumf v27 call1_v0
  have v29 : FVec F S100000x128 .f32 := addf v22 v28
  v29

/-- The normalisation over the 100000 rows, column by column: the mean is the column sum divided by 1e5;
    the variance is the column sum of the squared differences from that mean (computed again from the
    column sum) divided by `1e5 - 0`, kept where `1e5 - 0 > 0` and replaced by the constant `0x7FC00000`
    otherwise; the result is `(nf - mean) * rsqrt (variance + 0x3727C5AC) * gamma + beta`, the row
    vectors broadcast down the rows. -/
def bnOf (nf : (⟨S100000x128, .f32⟩ : BufTy).Contents (Elt F)) (gamma beta : (⟨S128, .f32⟩ : BufTy).Contents (Elt F)) :
    (⟨S100000x128, .f32⟩ : BufTy).Contents (Elt F) :=
  have cst_1 : FVec F S_ .f32 := constant S_ .f32 0x00000000#32
  have v30 : FVec F S128 .f32 := Host.reduceAdd nf cst_1 reducesTo_S100000x128_S128_d0 h_S_
  have cst_2 : FVec F S_ .f32 := constant S_ .f32 0x47C35000#32
  have v31 : FVec F S128 .f32 := broadcastInDim S128 ![] bcast_S_S128 cst_2
  have v32 : FVec F S128 .f32 := Host.divf v30 v31
  have c_3 : IVec S_ 32 := constantI S_ 32 0#32
  have call2_cst : FVec F S_ .f32 := constant S_ .f32 0x00000000#32
  have call2_v0 : FVec F S128 .f32 := Host.reduceAdd nf call2_cst reducesTo_S100000x128_S128_d0 h_S_
  have call2_v1 : FVec F S1x128 .f32 := broadcastInDim S1x128 ![1] bcast_S128_S1x128_1 call2_v0
  have call2_cst_0 : FVec F S_ .f32 := constant S_ .f32 0x47C35000#32
  have call2_v2 : FVec F S1x128 .f32 := broadcastInDim S1x128 ![] bcast_S_S1x128 call2_cst_0
  have call2_v3 : FVec F S1x128 .f32 := Host.divf call2_v1 call2_v2
  have call2_v4 : FVec F S100000x128 .f32 := broadcastInDim S100000x128 ![0, 1] bcast_S1x128_S100000x128_0_1 call2_v3
  have call2_v5 : FVec F S100000x128 .f32 := subf nf call2_v4
  have call2_v6 : FVec F S100000x128 .f32 := mulf call2_v5 call2_v5
  have call2_v7 : FVec F S_ .f32 := sitofp .f32 c_3
  have call2_cst_1 : FVec F S_ .f32 := constant S_ .f32 0x47C35000#32
  have call2_v8 : FVec F S_ .f32 := subf call2_cst_1 call2_v7
  have call2_cst_2 : FVec F S_ .f32 := constant S_ .f32 0x00000000#32
  have call2_v9 : FVec F S128 .f32 := Host.reduceAdd call2_v6 call2_cst_2 reducesTo_S100000x128_S128_d0 h_S_
  have call2_v10 : FVec F S128 .f32 := broadcastInDim S128 ![] bcast_S_S128 call2_v8
  have call2_v11 : FVec F S128 .f32 := Host.divf call2_v9 call2_v10
  have call2_cst_3 : FVec F S_ .f32 := constant S_ .f32 0x00000000#32
  have call2_v12 : IVec S_ 1 := cmpf .ogt call2_v8 call2_cst_3
  have call2_cst_4 : FVec F S_ .f32 := constant S_ .f32 0x7FC00000#32
  have call2_call0_v0 : FVec F S_ .f32 := id call2_cst_4
  have call2_call0_v1 : FVec F S128 .f32 := broadcastInDim S128 ![] bcast_S_S128 call2_call0_v0
  have v33 : FVec F S128 .f32 := select (broadcastInDim S128 ![] bcast_S_S128 call2_v12) call2_v11 call2_call0_v1
  have v34 : FVec F S1x128 .f32 := broadcastInDim S1x128 ![1] bcast_S128_S1x128_1 v32
  have v35 : FVec F S100000x128 .f32 := broadcastInDim S100000x128 ![0, 1] bcast_S1x128_S100000x128_0_1 v34
  have v36 : FVec F S100000x128 .f32 := subf nf v35
  have cst_4 : FVec F S_ .f32 := constant S_ .f32 0x3727C5AC#32
  have v37 : FVec F S128 .f32 := broadcastInDim S128 ![] bcast_S_S128 cst_4
  have v38 : FVec F S128 .f32 := addf v33 v37
  have v39 : FVec F S128 .f32 := Host.rsqrt v38
  have v40 : FVec F S1x128 .f32 := broadcastInDim S1x128 ![1] bcast_S128_S1x128_1 v39
  have v41 : FVec F S100000x128 .f32 := broadcastInDim S100000x128 ![0, 1] bcast_S1x128_S100000x128_0_1 v40
  have v42 : FVec F S100000x128 .f32 := mulf v36 v41
  have v43 : FVec F S1x128 .f32 := broadcastInDim S1x128 ![1] bcast_S128_S1x128_1 gamma
  have v44 : FVec F S100000x128 .f32 := broadcastInDim S100000x128 ![0, 1] bcast_S1x128_S100000x128_0_1 v43
  have v45 : FVec F S100000x128 .f32 := mulf v42 v44
  have v46 : FVec F S1x128 .f32 := broadcastInDim S1x128 ![1] bcast_S128_S1x128_1 beta
  have v47 : FVec F S100000x128 .f32 := broadcastInDim S100000x128 ![0, 1] bcast_S1x128_S100000x128_0_1 v46
  have v48 : FVec F S100000x128 .f32 := addf v45 v47
  v48

/-! ## The fold at the result and at the arguments -/

attribute [local irreducible] Host.gather Host.scatterAdd Host.reduceAdd in
set_option maxRecDepth 8192 in
set_option maxHeartbeats 1000000 in
/-- The fold at the result buffer is the three stages composed, by computation: the fold unrolled, each
    operation's result decides whether the buffer read is the one it writes, and the typed references' casts are
    the identity at these literal references. The gather, the scatter-add and the column sums are kept folded
    meanwhile: the equation never looks inside them. -/
theorem out_eq (V : Valuation τ sig (Elt F)) :
    after ops V (main_v48 : DevRef τ sig)
      = bnOf (nfOf (V (main_arg0 : DevRef τ sig)) (aggOf (V (main_arg0 : DevRef τ sig)) (V (main_arg1 : DevRef τ sig)))
            (V (main_arg2 : DevRef τ sig)) (V (main_arg3 : DevRef τ sig)) (V (main_arg4 : DevRef τ sig))
            (V (main_arg5 : DevRef τ sig)) (V (main_arg6 : DevRef τ sig)))
          (V (main_arg7 : DevRef τ sig)) (V (main_arg8 : DevRef τ sig)) := by
  dsimp only [after_cons, after_nil]
  rfl

attribute [local irreducible] Host.gather Host.scatterAdd Host.reduceAdd in
set_option maxRecDepth 8192 in
/-- No operation writes an argument buffer: the fold there is the contents it started from. -/
theorem arg0_eq (V : Valuation τ sig (Elt F)) :
    after ops V (main_arg0 : DevRef τ sig) = V (main_arg0 : DevRef τ sig) := rfl

attribute [local irreducible] Host.gather Host.scatterAdd Host.reduceAdd in
set_option maxRecDepth 8192 in
@[inherit_doc arg0_eq]
theorem arg1_eq (V : Valuation τ sig (Elt F)) :
    after ops V (main_arg1 : DevRef τ sig) = V (main_arg1 : DevRef τ sig) := rfl

attribute [local irreducible] Host.gather Host.scatterAdd Host.reduceAdd in
set_option maxRecDepth 8192 in
@[inherit_doc arg0_eq]
theorem arg2_eq (V : Valuation τ sig (Elt F)) :
    after ops V (main_arg2 : DevRef τ sig) = V (main_arg2 : DevRef τ sig) := rfl

attribute [local irreducible] Host.gather Host.scatterAdd Host.reduceAdd in
set_option maxRecDepth 8192 in
@[inherit_doc arg0_eq]
theorem arg3_eq (V : Valuation τ sig (Elt F)) :
    after ops V (main_arg3 : DevRef τ sig) = V (main_arg3 : DevRef τ sig) := rfl

attribute [local irreducible] Host.gather Host.scatterAdd Host.reduceAdd in
set_option maxRecDepth 8192 in
@[inherit_doc arg0_eq]
theorem arg4_eq (V : Valuation τ sig (Elt F)) :
    after ops V (main_arg4 : DevRef τ sig) = V (main_arg4 : DevRef τ sig) := rfl

attribute [local irreducible] Host.gather Host.scatterAdd Host.reduceAdd in
set_option maxRecDepth 8192 in
@[inherit_doc arg0_eq]
theorem arg5_eq (V : Valuation τ sig (Elt F)) :
    after ops V (main_arg5 : DevRef τ sig) = V (main_arg5 : DevRef τ sig) := rfl

attribute [local irreducible] Host.gather Host.scatterAdd Host.reduceAdd in
set_option maxRecDepth 8192 in
@[inherit_doc arg0_eq]
theorem arg6_eq (V : Valuation τ sig (Elt F)) :
    after ops V (main_arg6 : DevRef τ sig) = V (main_arg6 : DevRef τ sig) := rfl

attribute [local irreducible] Host.gather Host.scatterAdd Host.reduceAdd in
set_option maxRecDepth 8192 in
@[inherit_doc arg0_eq]
theorem arg7_eq (V : Valuation τ sig (Elt F)) :
    after ops V (main_arg7 : DevRef τ sig) = V (main_arg7 : DevRef τ sig) := rfl

attribute [local irreducible] Host.gather Host.scatterAdd Host.reduceAdd in
set_option maxRecDepth 8192 in
@[inherit_doc arg0_eq]
theorem arg8_eq (V : Valuation τ sig (Elt F)) :
    after ops V (main_arg8 : DevRef τ sig) = V (main_arg8 : DevRef τ sig) := rfl

/-! ## The run -/

/-- On the one device, for any float values, from any memory with zero counters: every weakly fair execution
    of @main terminates with the result buffer at `bnOf (nfOf feats (aggOf feats ei) …) gamma beta` of the nine
    arguments' launch contents, and the nine arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v48)
          = bnOf (nfOf (m ((c.tc : Thread nD τ).loc main_arg0)) (aggOf (m ((c.tc : Thread nD τ).loc main_arg0)) (m ((c.tc : Thread nD τ).loc main_arg1)))
                (m ((c.tc : Thread nD τ).loc main_arg2)) (m ((c.tc : Thread nD τ).loc main_arg3)) (m ((c.tc : Thread nD τ).loc main_arg4))
                (m ((c.tc : Thread nD τ).loc main_arg5)) (m ((c.tc : Thread nD τ).loc main_arg6)))
              (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨(h c main_v48).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _),
      (h c main_arg8).trans (arg8_eq _)⟩)
    (run_seq scopedRefs_eq scopedSems_eq defs main (fun _ => ops) main_eq (fun _ => ops_sub) m ρ)

end Cert.ReferenceIdeal.RefRun

end
-- ==== Proof.Finite.lean ====
/-
  From the precondition to finiteness.

  The precondition is the conjunction, over the eight float inputs, of "every entry has absolute value below plus
  infinity" (a comparison with the infinity pattern, reduced by "and" over the whole array).  An extended real whose
  absolute value max x (-x) is below the top element is neither infinity, hence a real number.  So under the
  precondition every entry of every float input is a real number.
-/
import proofs.«113694_j2010044694725_2_alg».proof.Pre_finite_inputs
import Idealize.ShloMosaic.PureOps.Ideal
import Idealize.ShloMosaic.Lib.ReduceAll
import Idealize.ShloMosaic.Lib.Affine
import Idealize.ShloMosaic.Lib.ValueIdx

noncomputable section

namespace BnFinite

open Idealize.ShloMosaic Idealize.ShloMosaic.ValueIdx Cert.Pre_finite_inputs

/-- Every entry is a real number. -/
def AllReal {s : Shape} (x : s.Idx → EReal) : Prop := ∀ i, ∃ r : ℝ, x i = (r : EReal)

instance : Subsingleton S_.Idx := ⟨fun a b => funext fun d => d.elim0⟩

/-- An extended real whose absolute value is below the infinity pattern is a real number. -/
theorem real_of_abs_lt {x : EReal} (h : Ideal.cmp .olt (max x (-x)) (Ideal.ofBits .f32 0x7F800000#32) = 1#1) :
    ∃ r : ℝ, x = (r : EReal) := by
  have htop : Ideal.ofBits .f32 0x7F800000#32 = ⊤ := by simp [Ideal.ofBits, Ideal.ieee]
  rw [htop] at h
  have hlt : max x (-x) < ⊤ := by
    unfold Ideal.cmp at h
    by_contra hc
    simp [hc] at h
  have h1 : x ≠ ⊤ := fun e => by rw [e] at hlt; simp at hlt
  have h2 : x ≠ ⊥ := fun e => by rw [e] at hlt; simp at hlt
  exact ⟨x.toReal, (EReal.coe_toReal h1 h2).symm⟩

variable [Cert.Pre_finite_inputs.Facts]

/-- One conjunct: the "and" over an array of the comparisons gives the comparison at every entry. -/
theorem allReal_of_all {s : Shape} {axes : List (Fin s.rank)} (a : FVec Ideal s .f32) (inf : FVec Ideal s .f32)
    (hinf : ∀ i, inf i = Ideal.ofBits .f32 0x7F800000#32)
    (hR : s.ReducesTo axes S_) (hu : 0 < (S_ : Shape).numel)
    (e : Host.reduce IntOp.andi (cmpf .olt (Host.absf a) inf) (constantI S_ 1 1#1) hR hu ix0 = 1#1) : AllReal a := by
  intro i
  have h := Host.reduce_andi_all _ _ hR hu ix0 e i
  have h' : Ideal.cmp .olt (max (a i) (-(a i))) (inf i) = 1#1 := h
  rw [hinf i] at h'
  exact real_of_abs_lt h'

/-- UNDER THE PRECONDITION every float input holds real numbers. -/
theorem reals_of_pre (a0 : FVec Ideal S100000x128 .f32) (a1 : IVec S2x1600000 32) (a2 : FVec Ideal S128x128 .f32)
    (a3 : FVec Ideal S128 .f32) (a4 a5 : FVec Ideal S128x128 .f32) (a6 a7 a8 : FVec Ideal S128 .f32)
    (h : fn (F := Ideal) a0 a1 a2 a3 a4 a5 a6 a7 a8 = fun _ => 1#1) :
    AllReal a0 ∧ AllReal a2 ∧ AllReal a3 ∧ AllReal a4 ∧ AllReal a5 ∧ AllReal a6 ∧ AllReal a7 ∧ AllReal a8 := by
  have h0 := congrFun h ix0
  dsimp only [fn, fn_part1, fn_part2] at h0
  change IntOp.andi _ _ = 1#1 at h0
  obtain ⟨h33, h37⟩ := IntOp.andi_eq_one.mp h0
  change IntOp.andi _ _ = 1#1 at h33
  obtain ⟨h28, h32⟩ := IntOp.andi_eq_one.mp h33
  change IntOp.andi _ _ = 1#1 at h28
  obtain ⟨h23, h27⟩ := IntOp.andi_eq_one.mp h28
  change IntOp.andi _ _ = 1#1 at h23
  obtain ⟨h18, h22⟩ := IntOp.andi_eq_one.mp h23
  change IntOp.andi _ _ = 1#1 at h18
  obtain ⟨h13, h17⟩ := IntOp.andi_eq_one.mp h18
  change IntOp.andi _ _ = 1#1 at h13
  obtain ⟨h8, h12⟩ := IntOp.andi_eq_one.mp h13
  change IntOp.andi _ _ = 1#1 at h8
  obtain ⟨h3, h7⟩ := IntOp.andi_eq_one.mp h8
  exact ⟨allReal_of_all a0 _ (fun _ => rfl) _ _ h3, allReal_of_all a2 _ (fun _ => rfl) _ _ h7,
    allReal_of_all a3 _ (fun _ => rfl) _ _ h12, allReal_of_all a4 _ (fun _ => rfl) _ _ h17,
    allReal_of_all a5 _ (fun _ => rfl) _ _ h22, allReal_of_all a6 _ (fun _ => rfl) _ _ h27,
    allReal_of_all a7 _ (fun _ => rfl) _ _ h32, allReal_of_all a8 _ (fun _ => rfl) _ _ h37⟩

end BnFinite

end
-- ==== Proof.LibRealSums.lean ====
/-
  Finite sums of real numbers, read on the extended reals.

  Coercion from the reals to the extended reals commutes with a finite sum (`coe_sum_real`: by induction on the index
  set, the coercion being additive), and a finite sum of products of extended reals each of which is a real number is the
  coercion of the real sum of the real products (`sum_mul_of_real`).  With these a computation on extended reals whose
  inputs are all finite can be carried out in the reals, where a factor moves across a sum and a nonzero divisor cancels.
-/
import Mathlib.Data.EReal.Operations
import Mathlib.Algebra.BigOperators.Fin

open scoped BigOperators

namespace RealSums

/-- A finite sum of real numbers, read on the extended reals, is the sum of the readings. -/
theorem coe_sum_real {ι : Type*} (s : Finset ι) (f : ι → ℝ) :
    ((∑ i ∈ s, f i : ℝ) : EReal) = ∑ i ∈ s, (f i : EReal) := by
  classical
  refine Finset.induction_on s (by simp) ?_
  intro a t ha ih
  rw [Finset.sum_insert ha, Finset.sum_insert ha, EReal.coe_add, ih]

/-- A finite sum of products of entries that are real numbers is the real sum of the real products. -/
theorem sum_mul_of_real {ι : Type*} [Fintype ι] (A B : ι → EReal) (a b : ι → ℝ)
    (hA : ∀ i, A i = (a i : EReal)) (hB : ∀ i, B i = (b i : EReal)) :
    ∑ i, A i * B i = ((∑ i, a i * b i : ℝ) : EReal) := by
  rw [coe_sum_real]
  exact Finset.sum_congr rfl (fun i _ => by rw [hA, hB, EReal.coe_mul])

end RealSums
-- ==== Proof.LibBnLaw.lean ====
/-
  The batch-normalization law that joins the two programs, on one column.

  A column of N real numbers c has the sums s1 = Σ c and s2 = Σ c², and the mean μ = s1 / N.
  One program normalizes an entry x of the column as
      x · (g · r) + (b − μ · (g · r)),   r = 1 / √(max (s2 / N − μ · μ) 0 + ε),
  the other as
      ((x − μ) · r') · g + b,            r' = 1 / √(v + ε),   v = (Σ (c − μ) · (c − μ)) / N.
  Over the reals  s2 / N − μ² = (Σ (c − μ)²) / N ≥ 0,  so the maximum with zero changes nothing and r = r'; since
  v + ε > 0 the inverse square root is a real number, and the two expressions are one polynomial identity
  (distributivity, which is why every quantity must be finite: on the extended reals it fails at the infinities).
-/
import Idealize.ShloMosaic.PureOps.Ideal
import proofs.«113694_j2010044694725_2_alg».proof.Proof.LibRealSums

noncomputable section

open scoped BigOperators

namespace BnLaw

open Idealize.ShloMosaic

/-- One entry as the first program computes it from the column sums s1, s2: the affine map folded into a scale and
    a shift.  "z" is the zero the variance is clamped at. -/
def foldedOut (n eps z s1 s2 g b x : EReal) : EReal :=
  x * (g * Ideal.rsqrt (max (Ideal.div s2 n - Ideal.div s1 n * Ideal.div s1 n) z + eps))
    + (b - Ideal.div s1 n * (g * Ideal.rsqrt (max (Ideal.div s2 n - Ideal.div s1 n * Ideal.div s1 n) z + eps)))

/-- One entry as the second program computes it from the column sum s1 and the centred second moment v. -/
def centredOut (n eps v s1 g b x : EReal) : EReal :=
  (x - Ideal.div s1 n) * Ideal.rsqrt (v + eps) * g + b

/-- The quotient of a real by a nonzero real, on the extended reals, is the real quotient. -/
theorem div_real (a : ℝ) {y : ℝ} (hy : y ≠ 0) : Ideal.div (a : EReal) (y : EReal) = ((a / y : ℝ) : EReal) := by
  rw [Ideal.div_coe hy, ← EReal.coe_mul]
  congr 1
  field_simp

/-- The inverse square root of a positive real is a real number. -/
theorem rsqrt_pos {r : ℝ} (hr : 0 < r) : Ideal.rsqrt (r : EReal) = (((Real.sqrt r)⁻¹ : ℝ) : EReal) := by
  rw [Ideal.rsqrt_coe, if_neg (not_lt.2 hr.le), if_neg hr.ne']

/-- The second moment about the mean: Σ (c − μ)² / N = Σ c² / N − μ², for μ = Σ c / N. -/
theorem centred_moment {N : ℕ} (hN : 0 < N) (c : Fin N → ℝ) :
    (∑ r, c r * c r) / (N : ℝ) - (∑ r, c r) / (N : ℝ) * ((∑ r, c r) / (N : ℝ))
      = (∑ r, (c r - (∑ r', c r') / (N : ℝ)) * (c r - (∑ r', c r') / (N : ℝ))) / (N : ℝ) := by
  have hN' : (N : ℝ) ≠ 0 := by exact_mod_cast hN.ne'
  set μ := (∑ r, c r) / (N : ℝ) with hμ
  have hs : ∑ r, c r = (N : ℝ) * μ := by rw [hμ]; field_simp
  have h1 : ∑ r, (c r - μ) * (c r - μ) = (∑ r, c r * c r) - 2 * μ * (∑ r, c r) + (N : ℝ) * (μ * μ) := by
    have : ∀ r, (c r - μ) * (c r - μ) = c r * c r - 2 * μ * c r + μ * μ := fun r => by ring
    simp only [this, Finset.sum_add_distrib, Finset.sum_sub_distrib, ← Finset.mul_sum, Finset.sum_const, Finset.card_univ,
      Fintype.card_fin, nsmul_eq_mul]
    ring
  rw [h1, hs]
  field_simp
  ring

theorem centred_moment_nonneg {N : ℕ} (c : Fin N → ℝ) (μ : ℝ) : 0 ≤ (∑ r, (c r - μ) * (c r - μ)) / (N : ℝ) :=
  div_nonneg (Finset.sum_nonneg fun r _ => mul_self_nonneg _) (Nat.cast_nonneg N)

/-- THE LAW.  For a column of real numbers, a positive ε and real g, b, x, the folded form and the centred form
    of the normalized entry are equal. -/
theorem folded_eq_centred {N : ℕ} (hN : 0 < N) (c : Fin N → ℝ) (e : ℝ) (he : 0 < e) (g b x : ℝ) :
    foldedOut ((N : ℝ) : EReal) (e : EReal) 0 (∑ r, (c r : EReal)) (∑ r, (c r : EReal) * (c r : EReal)) (g : EReal) (b : EReal) (x : EReal)
      = centredOut ((N : ℝ) : EReal) (e : EReal)
          (Ideal.div (∑ r, ((c r : EReal) - Ideal.div (∑ r', (c r' : EReal)) ((N : ℝ) : EReal))
              * ((c r : EReal) - Ideal.div (∑ r', (c r' : EReal)) ((N : ℝ) : EReal))) ((N : ℝ) : EReal))
          (∑ r, (c r : EReal)) (g : EReal) (b : EReal) (x : EReal) := by
  have hN' : (N : ℝ) ≠ 0 := by exact_mod_cast hN.ne'
  have hs1 : ∑ r, (c r : EReal) = ((∑ r, c r : ℝ) : EReal) := (RealSums.coe_sum_real _ _).symm
  have hs2 : ∑ r, (c r : EReal) * (c r : EReal) = ((∑ r, c r * c r : ℝ) : EReal) := by
    rw [RealSums.coe_sum_real]; exact Finset.sum_congr rfl fun r _ => (EReal.coe_mul _ _).symm
  unfold foldedOut centredOut
  rw [hs1, hs2, div_real _ hN', div_real _ hN']
  set μ : ℝ := (∑ r, c r) / (N : ℝ) with hμ
  have hv : ∑ r, ((c r : EReal) - (μ : EReal)) * ((c r : EReal) - (μ : EReal))
      = ((∑ r, (c r - μ) * (c r - μ) : ℝ) : EReal) := by
    rw [RealSums.coe_sum_real]
    exact Finset.sum_congr rfl fun r _ => by rw [← EReal.coe_sub, ← EReal.coe_mul]
  rw [hv, div_real _ hN']
  have hm := centred_moment hN c
  rw [← hμ] at hm
  have hnn : 0 ≤ (∑ r, (c r - μ) * (c r - μ)) / (N : ℝ) := centred_moment_nonneg c μ
  rw [← EReal.coe_mul, ← EReal.coe_sub, hm, max_eq_left (by exact_mod_cast hnn), ← EReal.coe_add,
    rsqrt_pos (by linarith)]
  set ρ : ℝ := (Real.sqrt ((∑ r, (c r - μ) * (c r - μ)) / (N : ℝ) + e))⁻¹
  simp only [← EReal.coe_mul, ← EReal.coe_sub, ← EReal.coe_add]
  congr 1
  ring

end BnLaw

end
-- ==== Proof.LibColSum.lean ====
/-
  Reading a host column sum and a unit-axis cast at coordinates, on the extended reals, over generic extents.

  A host sum of an n × k array along axis 0, started from the zero pattern, is at column c the sum over the rows r of
  the entry (r, c) ("colSum_host"; "lift0" names the index the reduction puts back).  An [a, 1, b] array cast to
  [a, b] reads, at (i, j), the operand at (i, 0, j) ("cast_a1b_ab").
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace BnRead

open Idealize.ShloMosaic Idealize.ShloMosaic.ValueIdx

/-- Index (r, c) is the reduced index c with the coordinate r put back on axis 0. -/
theorem lift0 {n k : ℕ} (h : (⟨2, ![n, k]⟩ : Shape).Reduces [0] (⟨1, ![k]⟩ : Shape)) (c : Fin k)
    (l : Fin ((⟨2, ![n, k]⟩ : Shape).size 0)) : h.lift (ix1 c) l = ix2 (⟨l.val, l.isLt⟩ : Fin n) c :=
  funext fun ax => Fin.ext (by match ax with | ⟨0, _⟩ => rfl | ⟨1, _⟩ => rfl)

/-- The host's sum down a column, from zero. -/
theorem colSum_host {n k : ℕ} (y : FVec Ideal (⟨2, ![n, k]⟩ : Shape) .f32)
    (hR' : (⟨2, ![n, k]⟩ : Shape).ReducesTo [0] (⟨1, ![k]⟩ : Shape))
    (hR : (⟨2, ![n, k]⟩ : Shape).Reduces [0] (⟨1, ![k]⟩ : Shape)) (hu : 0 < (⟨0, ![]⟩ : Shape).numel) (c : Fin k) :
    Host.reduceAdd y (constant (F := Ideal) (⟨0, ![]⟩ : Shape) .f32 0x00000000#32) hR' hu (ix1 c) = ∑ r : Fin n, y (ix2 r c) := by
  simp only [Host.reduceAdd, Ideal.hostReduceAdd_def]
  rw [Ideal.hostReduceAdd_single hR' hR, constant_apply, Ideal.ofBits_zero_f32, zero_add]
  exact Finset.sum_congr rfl fun l _ => congrArg y (lift0 hR c l)

/-- An [a, 1, b] array cast to [a, b] reads, at (i, j), the operand at (i, 0, j). -/
theorem cast_a1b_ab {α : Type} {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h (ix2 i j) (ix3 i (0 : Fin 1) j) (by
    rw [Shape.rowMajor_val_three, Shape.rowMajor_val_two]
    show (i.val * 1 + 0) * b + j.val = i.val * b + j.val
    rw [Nat.mul_one, Nat.add_zero])

end BnRead

end
-- ==== Proof.Consts.lean ====
/-
  The float constants the two programs spell, as the extended reals their patterns denote: zero, the row count
  100000 (both programs divide the column sums by it), and the small positive number added under the inverse
  square root (the same pattern in both programs; only its positivity matters).
-/
import Idealize.ShloMosaic.PureOps.Ideal

noncomputable section

namespace BnConsts

open Idealize.ShloMosaic

/-- The zero pattern denotes 0. -/
theorem ofBits_zero : Ideal.ofBits .f32 0x00000000#32 = 0 := by
  simp [Ideal.ofBits, Ideal.ieee]

/-- The pattern of 100000.0 denotes the real 100000. -/
theorem ofBits_n : Ideal.ofBits .f32 0x47C35000#32 = ((100000 : ℝ) : EReal) := by
  simp [Ideal.ofBits, Ideal.ieee, -EReal.coe_mul]; norm_num

/-- The real the small constant's pattern denotes: 10995116 / 2^40, about 1.0e-5. -/
def epsR : ℝ := 10995116 * (2 : ℝ) ^ (-40 : ℤ)

theorem epsR_pos : 0 < epsR := by unfold epsR; positivity

theorem ofBits_eps : Ideal.ofBits .f32 0x3727C5AC#32 = ((epsR : ℝ) : EReal) := by
  unfold epsR
  simp [Ideal.ofBits, Ideal.ieee, -EReal.coe_mul]

end BnConsts

end
-- ==== Proof.LibTiles.lean ====
/-
  A sum over `T · B` consecutive indices, cut into `T` tiles of `B`, and a running total over tiles.

  `sum_tiles`: index `j < T · B` is `J · B + b` for exactly one tile `J < T` and one offset `b < B`, so the sum over all
  `j` is the sum over tiles of the sums over offsets.  `fold_tiles`: the running total that starts at `0 + a 0` and
  adds `a 1`, `a 2`, … in turn is, after `n` further steps, the sum of `a 0 … a n`.
-/
import Mathlib.Algebra.BigOperators.Fin
import Mathlib.Tactic.Ring

open scoped BigOperators

namespace Tiles

/-- The sum over tiles of the sums inside each tile is the sum over all indices. -/
theorem sum_tiles {M : Type*} [AddCommMonoid M] (T B : ℕ) (f : ℕ → M) :
    ∑ J : Fin T, ∑ b : Fin B, f (J.val * B + b.val) = ∑ j : Fin (T * B), f j.val := by
  rw [← (finProdFinEquiv (m := T) (n := B)).sum_comp (fun j => f j.val), Fintype.sum_prod_type]
  refine Finset.sum_congr rfl fun J _ => Finset.sum_congr rfl fun b _ => ?_
  refine congrArg f ?_
  show J.val * B + b.val = b.val + B * J.val
  ring

/-- The running total over tiles, started from `0 + a 0`, is the sum of the tiles' contributions. -/
theorem fold_tiles {M : Type*} [AddCommMonoid M] (a : ℕ → M) (n : ℕ) :
    (Nat.rec (motive := fun _ => M) (0 + a 0) (fun k x => x + a (k + 1)) n) = ∑ J ∈ Finset.range (n + 1), a J := by
  induction n with
  | zero => simp
  | succ k ih =>
    show (Nat.rec (motive := fun _ => M) (0 + a 0) (fun k x => x + a (k + 1)) k) + a (k + 1) = _
    rw [ih, Finset.sum_range_succ _ (k + 1)]

end Tiles
-- ==== Proof.KEntry.lean ====
/-
  One entry of the idealized kernel program's result, in the law's folded form.

  The column sums the host stretch takes over the twenty rows of a tile-sum array are the sums over all 100000 rows
  (twenty tiles of 5000 rows each: a regrouping of one finite sum), the host's quotient, maximum and inverse square
  root act entry by entry, a vector viewed as a one-row array reads back the vector, and the three float constants
  denote 0, 100000 and a positive real.  So entry (r, c) of the result is the folded expression of
  nf (r, c), gamma c, beta c and the two sums of column c of nf.
-/
import proofs.«113694_j2010044694725_2_alg».proof.Proof.KHost
import proofs.«113694_j2010044694725_2_alg».proof.Proof.KReg0
import proofs.«113694_j2010044694725_2_alg».proof.Proof.KReg1
import proofs.«113694_j2010044694725_2_alg».proof.Proof.LibBnLaw
import proofs.«113694_j2010044694725_2_alg».proof.Proof.LibColSum
import proofs.«113694_j2010044694725_2_alg».proof.Proof.Consts
import proofs.«113694_j2010044694725_2_alg».proof.Proof.LibTiles
import Idealize.ShloMosaic.Lib.ValueLayout

noncomputable section

open scoped BigOperators

namespace Cert.KernelIdeal.KEntry

open Cert.KernelIdeal Cert.KernelIdeal.Gen Idealize.ShloMosaic Idealize.ShloMosaic.ValueIdx
open Cert.KernelIdeal.KHost Cert.KernelIdeal.KReg0 Cert.KernelIdeal.KReg1 BnRead

theorem reduces_S20x128_S128 : (S20x128 : Shape).Reduces [0] S128 := by decide

/-- The column sums of a statistics array, read at column c: the sum of its twenty rows. -/
theorem colSumOf_apply (s : S20x1x128.Idx → EReal) (c : Fin 128) :
    colSumOf (F := Ideal) s (ix1 c) = ∑ T : Fin 20, s (ix3 T (0 : Fin 1) c) := by
  unfold colSumOf
  rw [colSum_host (n := 20) (k := 128) _ reducesTo_S20x128_S128_d0 reduces_S20x128_S128 h_S_ c]
  exact Finset.sum_congr rfl fun T _ => cast_a1b_ab (a := 20) (b := 128) s shapeCasts_S20x1x128_S20x128 T c

/-- Twenty tiles of 5000 rows are the 100000 rows. -/
theorem sum_tileSum (G : S100000x128.Idx → EReal) (c : Fin 128) :
    ∑ T : Fin 20, tileSum G (ix3 T (0 : Fin 1) c) = ∑ r : Fin 100000, G (ix2 r c) := by
  have h := Tiles.sum_tiles 20 5000 (fun k => if hk : k < 100000 then G (ix2 (⟨k, hk⟩ : Fin 100000) c) else 0)
  have hL : ∀ T : Fin 20, tileSum G (ix3 T (0 : Fin 1) c)
      = ∑ b : Fin 5000, (fun k => if hk : k < 100000 then G (ix2 (⟨k, hk⟩ : Fin 100000) c) else 0) (T.val * 5000 + b.val) := by
    intro T
    unfold tileSum
    refine Finset.sum_congr rfl fun p _ => ?_
    have hlt : T.val * 5000 + p.val < 100000 := by have := T.isLt; have := p.isLt; omega
    show G _ = dite _ _ _
    rw [dif_pos hlt]
  have hR : ∑ j : Fin (20 * 5000), (fun k => if hk : k < 100000 then G (ix2 (⟨k, hk⟩ : Fin 100000) c) else 0) j.val
      = ∑ r : Fin 100000, G (ix2 r c) :=
    Finset.sum_congr rfl fun r _ => by
      show dite _ _ _ = _
      rw [dif_pos r.isLt]
  rw [Finset.sum_congr rfl fun T _ => hL T, h]
  exact hR

/-- The column sums of the tile sums are the sums down the whole columns. -/
theorem colSum_tileSum (G : S100000x128.Idx → EReal) (c : Fin 128) :
    colSumOf (F := Ideal) (tileSum G) (ix1 c) = ∑ r : Fin 100000, G (ix2 r c) := by
  rw [colSumOf_apply, sum_tileSum]

theorem colSum_tileSumSq (G : S100000x128.Idx → EReal) (c : Fin 128) :
    colSumOf (F := Ideal) (tileSumSq G) (ix1 c) = ∑ r : Fin 100000, G (ix2 r c) * G (ix2 r c) := by
  unfold tileSumSq
  rw [colSumOf_apply, sum_tileSum]

/-- A vector viewed as a one-row array reads back the vector. -/
theorem rowOfVec_apply (v : S128.Idx → EReal) (c : Fin 128) : rowOfVec (F := Ideal) v (ix2 (0 : Fin 1) c) = v (ix1 c) :=
  shapeCast_a_1a_apply (a := 128) v shapeCasts_S128_S1x128 (0 : Fin 1) c

/-- The mean, the scale and the shift at column c, from the column sums. -/
theorem meanOf_apply (s : S20x1x128.Idx → EReal) (c : Fin 128) :
    meanOf (F := Ideal) s (ix1 c) = Ideal.div (colSumOf (F := Ideal) s (ix1 c)) (Ideal.ofBits .f32 0x47C35000#32) := rfl

theorem scaleOf_apply (s1 s2 : S20x1x128.Idx → EReal) (g : S128.Idx → EReal) (c : Fin 128) :
    scaleOf (F := Ideal) s1 s2 g (ix1 c)
      = g (ix1 c) * Ideal.rsqrt (max (meanOf (F := Ideal) s2 (ix1 c) - meanOf (F := Ideal) s1 (ix1 c) * meanOf (F := Ideal) s1 (ix1 c))
          (Ideal.ofBits .f32 0x00000000#32) + Ideal.ofBits .f32 0x3727C5AC#32) := rfl

theorem shiftOf_apply (s1 s2 : S20x1x128.Idx → EReal) (g b : S128.Idx → EReal) (c : Fin 128) :
    shiftOf (F := Ideal) s1 s2 g b (ix1 c) = b (ix1 c) - meanOf (F := Ideal) s1 (ix1 c) * scaleOf (F := Ideal) s1 s2 g (ix1 c) := rfl

/-- ONE ENTRY of the normalized array, in the law's folded form over the whole column. -/
theorem norm_entry (nf : S100000x128.Idx → EReal) (g b : S128.Idx → EReal) (r : Fin 100000) (c : Fin 128) :
    affine nf (rowOfVec (F := Ideal) (scaleOf (F := Ideal) (tileSum nf) (tileSumSq nf) g))
        (rowOfVec (F := Ideal) (shiftOf (F := Ideal) (tileSum nf) (tileSumSq nf) g b)) (ix2 r c)
      = BnLaw.foldedOut (((100000 : ℕ) : ℝ) : EReal) (BnConsts.epsR : EReal) 0
          (∑ r' : Fin 100000, nf (ix2 r' c)) (∑ r' : Fin 100000, nf (ix2 r' c) * nf (ix2 r' c))
          (g (ix1 c)) (b (ix1 c)) (nf (ix2 r c)) := by
  rw [affine_ix2, rowOfVec_apply, rowOfVec_apply, shiftOf_apply, scaleOf_apply, meanOf_apply, meanOf_apply,
    colSum_tileSum, colSum_tileSumSq, BnConsts.ofBits_zero, BnConsts.ofBits_n, BnConsts.ofBits_eps]
  unfold BnLaw.foldedOut
  norm_num

end Cert.KernelIdeal.KEntry

end
-- ==== Proof.RefEntry.lean ====
/-
  The reference program's staged terms, read at an index on the extended reals.

  THE LAYER.  Entry (r, c) of the layer before normalisation is
      max (agg_r · Wrel[c, :] + brel[c] + x_r · Wroot[c, :]) 0 + max (x_r · Wres[c, :] + bres[c]) 0:
  the host's dot_general with the transposed weight is the row-times-matrix contraction, a bias vector broadcast in
  two steps reads the vector at the column, the zero array reads zero.
  THE NORMALISATION.  Entry (r, c) is the centred form of the law: the mean is the column sum (a host sum down the
  column, from zero) divided by 100000; the variance is the column sum of the squared differences from that mean
  divided by 100000 - 0 — the guard "100000 - 0 > 0" holds, so the guarded select keeps the quotient —; then
  (x - mean) * rsqrt (variance + eps) * gamma + beta.
-/
import proofs.«113694_j2010044694725_2_alg».proof.Proof.RefRun
import proofs.«113694_j2010044694725_2_alg».proof.Proof.LibRowOps
import proofs.«113694_j2010044694725_2_alg».proof.Proof.KEntry
import Idealize.ShloMosaic.Lib.KernelVsHost

set_option maxRecDepth 16384

noncomputable section

open scoped BigOperators

namespace Cert.ReferenceIdeal.RefEntry

open Cert.ReferenceIdeal Cert.ReferenceIdeal.Gen Idealize.ShloMosaic Idealize.ShloMosaic.ValueIdx GcnSpec GcnOps BnRead
open Cert.ReferenceIdeal.RefRun

/-! ## The layer -/

theorem d_rank : (dot_S100000x128_S128x128_S100000x128_1_0_0_1_n_n).contr.rank = 1 := rfl
theorem d_size : (dot_S100000x128_S128x128_S100000x128_1_0_0_1_n_n).contr.size ⟨0, by rw [d_rank]; omega⟩ = 128 := rfl
theorem d_l0 (j : S100000x128.Idx) (c : (dot_S100000x128_S128x128_S100000x128_1_0_0_1_n_n).contr.Idx) :
    ((dot_S100000x128_S128x128_S100000x128_1_0_0_1_n_n).lhsIdx j c 0).val = (j 0).val := rfl
theorem d_l1 (j : S100000x128.Idx) (c : (dot_S100000x128_S128x128_S100000x128_1_0_0_1_n_n).contr.Idx) :
    ((dot_S100000x128_S128x128_S100000x128_1_0_0_1_n_n).lhsIdx j c 1).val = (c ⟨0, by rw [d_rank]; omega⟩).val :=
  (dot_S100000x128_S128x128_S100000x128_1_0_0_1_n_n).lhsIdx_val_of_single rfl j c
theorem d_r0 (j : S100000x128.Idx) (c : (dot_S100000x128_S128x128_S100000x128_1_0_0_1_n_n).contr.Idx) :
    ((dot_S100000x128_S128x128_S100000x128_1_0_0_1_n_n).rhsIdx j c 0).val = (c ⟨0, by rw [d_rank]; omega⟩).val :=
  (dot_S100000x128_S128x128_S100000x128_1_0_0_1_n_n).rhsIdx_val_of_single rfl j c
theorem d_r1 (j : S100000x128.Idx) (c : (dot_S100000x128_S128x128_S100000x128_1_0_0_1_n_n).contr.Idx) :
    ((dot_S100000x128_S128x128_S100000x128_1_0_0_1_n_n).rhsIdx j c 1).val = (j 1).val := rfl

/-- Entry (r, c) of the host's product: row r against column c. -/
theorem dg_apply (x : FVec Ideal S100000x128 .f32) (w : FVec Ideal S128x128 .f32) (r : Fin 100000) (c : Fin 128) :
    Host.dotGeneral dot_S100000x128_S128x128_S100000x128_1_0_0_1_n_n none x w (ix2 r c) = linRow w (row x r) c :=
  (congrFun (dotGeneral_eq_lin (n := 100000) (k := 128) (q := 128) dot_S100000x128_S128x128_S100000x128_1_0_0_1_n_n none .single
    d_rank d_size d_l0 d_l1 d_r0 d_r1 x w) (ix2 r c)).trans rfl

theorem shapeCasts_S128_S1x128 : (S128 : Shape).ShapeCasts S1x128 := by decide

/-- A vector broadcast to one row and then down the rows reads the vector at the column. -/
theorem bias2_apply (b : FVec Ideal S128 .f32) (r : Fin 100000) (c : Fin 128) :
    broadcastInDim S100000x128 ![0, 1] bcast_S1x128_S100000x128_0_1 (broadcastInDim S1x128 ![1] bcast_S128_S1x128_1 b) (ix2 r c)
      = b (ix1 c) :=
  (bias_host_apply (n := 100000) (k := 128) b bcast_S128_S1x128_1 bcast_S1x128_S100000x128_0_1 shapeCasts_S128_S1x128 r c).trans
    (shapeCast_a_1a_apply (a := 128) b shapeCasts_S128_S1x128 (0 : Fin 1) c)

/-- A rank-0 value broadcast to the whole array reads the value. -/
theorem bcast0_big_apply {α : Type} (x : S_.Idx → α) (r : Fin 100000) (c : Fin 128) :
    broadcastInDim S100000x128 ![] bcast_S_S100000x128 x (ix2 r c) = x ix0 :=
  broadcastInDim_apply _ bcast_S_S100000x128 x (ix2 r c) ix0 (fun a => a.elim0)

theorem bcast0_vec_apply {α : Type} (x : S_.Idx → α) (c : Fin 128) :
    broadcastInDim S128 ![] bcast_S_S128 x (ix1 c) = x ix0 :=
  broadcastInDim_apply _ bcast_S_S128 x (ix1 c) ix0 (fun a => a.elim0)

theorem bcast0_row_apply {α : Type} (x : S_.Idx → α) (u : Fin 1) (c : Fin 128) :
    broadcastInDim S1x128 ![] bcast_S_S1x128 x (ix2 u c) = x ix0 :=
  broadcastInDim_apply _ bcast_S_S1x128 x (ix2 u c) ix0 (fun a => a.elim0)

/-- ONE ENTRY OF THE LAYER. -/
theorem nfOf_apply (feats agg : FVec Ideal S100000x128 .f32) (wrel : FVec Ideal S128x128 .f32) (brel : FVec Ideal S128 .f32)
    (wroot wres : FVec Ideal S128x128 .f32) (bres : FVec Ideal S128 .f32) (r : Fin 100000) (c : Fin 128) :
    nfOf (F := Ideal) feats agg wrel brel wroot wres bres (ix2 r c)
      = Cert.KernelIdeal.KBody.nfEntry (row feats r) (row agg r)
          (transpose S128x128 [1, 0] wrel transposes_S128x128_S128x128_1_0)
          (transpose S128x128 [1, 0] wroot transposes_S128x128_S128x128_1_0)
          (transpose S128x128 [1, 0] wres transposes_S128x128_S128x128_1_0) (brel (ix1 c)) (bres (ix1 c)) c := by
  unfold nfOf Cert.KernelIdeal.KBody.nfEntry
  show max (Host.dotGeneral dot_S100000x128_S128x128_S100000x128_1_0_0_1_n_n none agg
            (transpose S128x128 [1, 0] wrel transposes_S128x128_S128x128_1_0) (ix2 r c)
          + broadcastInDim S100000x128 ![0, 1] bcast_S1x128_S100000x128_0_1 (broadcastInDim S1x128 ![1] bcast_S128_S1x128_1 brel) (ix2 r c)
          + Host.dotGeneral dot_S100000x128_S128x128_S100000x128_1_0_0_1_n_n none feats
            (transpose S128x128 [1, 0] wroot transposes_S128x128_S128x128_1_0) (ix2 r c))
        (broadcastInDim S100000x128 ![] bcast_S_S100000x128 (constant (F := Ideal) S_ .f32 0x00000000#32) (ix2 r c))
      + max (Host.dotGeneral dot_S100000x128_S128x128_S100000x128_1_0_0_1_n_n none feats
            (transpose S128x128 [1, 0] wres transposes_S128x128_S128x128_1_0) (ix2 r c)
          + broadcastInDim S100000x128 ![0, 1] bcast_S1x128_S100000x128_0_1 (broadcastInDim S1x128 ![1] bcast_S128_S1x128_1 bres) (ix2 r c))
        (broadcastInDim S100000x128 ![] bcast_S_S100000x128 (constant (F := Ideal) S_ .f32 0x00000000#32) (ix2 r c)) = _
  rw [dg_apply, dg_apply, dg_apply, bias2_apply, bias2_apply, bcast0_big_apply]
  rfl

/-! ## The normalisation -/

theorem reduces_S100000x128_S128 : (S100000x128 : Shape).Reduces [0] S128 := by decide

/-- The host's sum down column c of a full-height array, from zero. -/
theorem colSum_apply (y : FVec Ideal S100000x128 .f32) (c : Fin 128) :
    Host.reduceAdd y (constant (F := Ideal) S_ .f32 0x00000000#32) reducesTo_S100000x128_S128_d0 h_S_ (ix1 c)
      = ∑ r : Fin 100000, y (ix2 r c) :=
  colSum_host (n := 100000) (k := 128) y reducesTo_S100000x128_S128_d0 reduces_S100000x128_S128 h_S_ c

/-- The count the variance divides by: 100000 - 0, the real 100000. -/
theorem count_eq : Ideal.ofBits .f32 0x47C35000#32 - FloatOps.sitofp (F := Ideal) .f32 (0#32 : BitVec 32) = (((100000 : ℕ) : ℝ) : EReal) := by
  rw [BnConsts.ofBits_n]
  show ((100000 : ℝ) : EReal) - ((((0#32 : BitVec 32).toInt : ℤ) : ℝ) : EReal) = _
  simp

/-- The guard of the variance holds: 100000 is positive. -/
theorem guard_eq : Ideal.cmp .ogt (((100000 : ℕ) : ℝ) : EReal) (0 : EReal) = 1#1 := by
  unfold Ideal.cmp
  have h : (0 : EReal) < (((100000 : ℕ) : ℝ) : EReal) := by exact_mod_cast (by norm_num : (0 : ℝ) < ((100000 : ℕ) : ℝ))
  simp [h]

/-- ONE ENTRY OF THE NORMALISATION, in the law's centred form. -/
theorem bnOf_apply (nf : FVec Ideal S100000x128 .f32) (g b : FVec Ideal S128 .f32) (r : Fin 100000) (c : Fin 128) :
    bnOf (F := Ideal) nf g b (ix2 r c)
      = BnLaw.centredOut (((100000 : ℕ) : ℝ) : EReal) (BnConsts.epsR : EReal)
          (Ideal.div (∑ r' : Fin 100000,
              (nf (ix2 r' c) - Ideal.div (∑ r'' : Fin 100000, nf (ix2 r'' c)) (((100000 : ℕ) : ℝ) : EReal))
              * (nf (ix2 r' c) - Ideal.div (∑ r'' : Fin 100000, nf (ix2 r'' c)) (((100000 : ℕ) : ℝ) : EReal)))
            (((100000 : ℕ) : ℝ) : EReal))
          (∑ r' : Fin 100000, nf (ix2 r' c)) (g (ix1 c)) (b (ix1 c)) (nf (ix2 r c)) := by
  -- the mean as the variance computes it, at any row of column c
  have hmean : ∀ r' : Fin 100000,
      broadcastInDim S100000x128 ![0, 1] bcast_S1x128_S100000x128_0_1
        (Host.divf (broadcastInDim S1x128 ![1] bcast_S128_S1x128_1
            (Host.reduceAdd nf (constant (F := Ideal) S_ .f32 0x00000000#32) reducesTo_S100000x128_S128_d0 h_S_))
          (broadcastInDim S1x128 ![] bcast_S_S1x128 (constant (F := Ideal) S_ .f32 0x47C35000#32))) (ix2 r' c)
        = Ideal.div (∑ r'' : Fin 100000, nf (ix2 r'' c)) (((100000 : ℕ) : ℝ) : EReal) := by
    intro r'
    rw [broadcastInDim_apply _ bcast_S1x128_S100000x128_0_1 _ (ix2 r' c) (ix2 (0 : Fin 1) c) (fun a => match a with
      | ⟨0, _⟩ => by show (0 : ℕ) = if (1 : ℕ) = 1 then 0 else r'.val; rw [if_pos rfl]
      | ⟨1, _⟩ => by show c.val = if (128 : ℕ) = 1 then 0 else c.val; rw [if_neg (by norm_num)])]
    show Ideal.div (broadcastInDim S1x128 ![1] bcast_S128_S1x128_1
          (Host.reduceAdd nf (constant (F := Ideal) S_ .f32 0x00000000#32) reducesTo_S100000x128_S128_d0 h_S_) (ix2 (0 : Fin 1) c))
        (broadcastInDim S1x128 ![] bcast_S_S1x128 (constant (F := Ideal) S_ .f32 0x47C35000#32) (ix2 (0 : Fin 1) c)) = _
    rw [broadcastInDim_apply _ bcast_S128_S1x128_1 _ (ix2 (0 : Fin 1) c) (ix1 c) (fun a => match a with
      | ⟨0, _⟩ => by show c.val = if (128 : ℕ) = 1 then 0 else c.val; rw [if_neg (by norm_num)]),
      bcast0_row_apply, colSum_apply, constant_apply, BnConsts.ofBits_n]
    norm_num
  unfold bnOf BnLaw.centredOut
  show ((nf (ix2 r c)
          - broadcastInDim S100000x128 ![0, 1] bcast_S1x128_S100000x128_0_1 (broadcastInDim S1x128 ![1] bcast_S128_S1x128_1
              (Host.divf (Host.reduceAdd nf (constant (F := Ideal) S_ .f32 0x00000000#32) reducesTo_S100000x128_S128_d0 h_S_)
                (broadcastInDim S128 ![] bcast_S_S128 (constant (F := Ideal) S_ .f32 0x47C35000#32)))) (ix2 r c))
        * broadcastInDim S100000x128 ![0, 1] bcast_S1x128_S100000x128_0_1 (broadcastInDim S1x128 ![1] bcast_S128_S1x128_1
            (Host.rsqrt (addf
              (select (broadcastInDim S128 ![] bcast_S_S128
                  (cmpf .ogt (subf (constant (F := Ideal) S_ .f32 0x47C35000#32) (sitofp .f32 (constantI S_ 32 0#32)))
                    (constant (F := Ideal) S_ .f32 0x00000000#32)))
                (Host.divf
                  (Host.reduceAdd
                    (mulf
                      (subf nf (broadcastInDim S100000x128 ![0, 1] bcast_S1x128_S100000x128_0_1
                        (Host.divf (broadcastInDim S1x128 ![1] bcast_S128_S1x128_1
                            (Host.reduceAdd nf (constant (F := Ideal) S_ .f32 0x00000000#32) reducesTo_S100000x128_S128_d0 h_S_))
                          (broadcastInDim S1x128 ![] bcast_S_S1x128 (constant (F := Ideal) S_ .f32 0x47C35000#32)))))
                      (subf nf (broadcastInDim S100000x128 ![0, 1] bcast_S1x128_S100000x128_0_1
                        (Host.divf (broadcastInDim S1x128 ![1] bcast_S128_S1x128_1
                            (Host.reduceAdd nf (constant (F := Ideal) S_ .f32 0x00000000#32) reducesTo_S100000x128_S128_d0 h_S_))
                          (broadcastInDim S1x128 ![] bcast_S_S1x128 (constant (F := Ideal) S_ .f32 0x47C35000#32))))))
                    (constant (F := Ideal) S_ .f32 0x00000000#32) reducesTo_S100000x128_S128_d0 h_S_)
                  (broadcastInDim S128 ![] bcast_S_S128
                    (subf (constant (F := Ideal) S_ .f32 0x47C35000#32) (sitofp .f32 (constantI S_ 32 0#32)))))
                (broadcastInDim S128 ![] bcast_S_S128 (id (constant (F := Ideal) S_ .f32 0x7FC00000#32))))
              (broadcastInDim S128 ![] bcast_S_S128 (constant (F := Ideal) S_ .f32 0x3727C5AC#32))))) (ix2 r c))
      * broadcastInDim S100000x128 ![0, 1] bcast_S1x128_S100000x128_0_1 (broadcastInDim S1x128 ![1] bcast_S128_S1x128_1 g) (ix2 r c)
      + broadcastInDim S100000x128 ![0, 1] bcast_S1x128_S100000x128_0_1 (broadcastInDim S1x128 ![1] bcast_S128_S1x128_1 b) (ix2 r c) = _
  rw [bias2_apply, bias2_apply, bias2_apply, bias2_apply]
  -- the mean at column c
  have hm : Host.divf (Host.reduceAdd nf (constant (F := Ideal) S_ .f32 0x00000000#32) reducesTo_S100000x128_S128_d0 h_S_)
        (broadcastInDim S128 ![] bcast_S_S128 (constant (F := Ideal) S_ .f32 0x47C35000#32)) (ix1 c)
      = Ideal.div (∑ r' : Fin 100000, nf (ix2 r' c)) (((100000 : ℕ) : ℝ) : EReal) := by
    show Ideal.div (Host.reduceAdd nf (constant (F := Ideal) S_ .f32 0x00000000#32) reducesTo_S100000x128_S128_d0 h_S_ (ix1 c))
        (broadcastInDim S128 ![] bcast_S_S128 (constant (F := Ideal) S_ .f32 0x47C35000#32) (ix1 c)) = _
    rw [colSum_apply, bcast0_vec_apply, constant_apply, BnConsts.ofBits_n]
    norm_num
  rw [hm]
  -- the variance at column c
  show (nf (ix2 r c) - _)
      * Ideal.rsqrt (Scalar.select
          (broadcastInDim S128 ![] bcast_S_S128
            (cmpf .ogt (subf (constant (F := Ideal) S_ .f32 0x47C35000#32) (sitofp .f32 (constantI S_ 32 0#32)))
              (constant (F := Ideal) S_ .f32 0x00000000#32)) (ix1 c))
          (Ideal.div
            (Host.reduceAdd _ (constant (F := Ideal) S_ .f32 0x00000000#32) reducesTo_S100000x128_S128_d0 h_S_ (ix1 c))
            (broadcastInDim S128 ![] bcast_S_S128
              (subf (constant (F := Ideal) S_ .f32 0x47C35000#32) (sitofp .f32 (constantI S_ 32 0#32))) (ix1 c)))
          (broadcastInDim S128 ![] bcast_S_S128 (id (constant (F := Ideal) S_ .f32 0x7FC00000#32)) (ix1 c))
        + broadcastInDim S128 ![] bcast_S_S128 (constant (F := Ideal) S_ .f32 0x3727C5AC#32) (ix1 c))
      * g (ix1 c) + b (ix1 c) = _
  rw [bcast0_vec_apply, bcast0_vec_apply, bcast0_vec_apply, bcast0_vec_apply, colSum_apply]
  have hcnt : subf (constant (F := Ideal) S_ .f32 0x47C35000#32) (sitofp .f32 (constantI S_ 32 0#32)) ix0
      = (((100000 : ℕ) : ℝ) : EReal) := count_eq
  have hguard : cmpf .ogt (subf (constant (F := Ideal) S_ .f32 0x47C35000#32) (sitofp .f32 (constantI S_ 32 0#32)))
      (constant (F := Ideal) S_ .f32 0x00000000#32) ix0 = 1#1 := by
    show Ideal.cmp .ogt (subf (constant (F := Ideal) S_ .f32 0x47C35000#32) (sitofp .f32 (constantI S_ 32 0#32)) ix0)
      (Ideal.ofBits .f32 0x00000000#32) = 1#1
    rw [hcnt, BnConsts.ofBits_zero]
    exact guard_eq
  rw [hguard, hcnt, select_one, constant_apply, BnConsts.ofBits_eps]
  have hsq : ∀ r' : Fin 100000,
      mulf
        (subf nf (broadcastInDim S100000x128 ![0, 1] bcast_S1x128_S100000x128_0_1
          (Host.divf (broadcastInDim S1x128 ![1] bcast_S128_S1x128_1
              (Host.reduceAdd nf (constant (F := Ideal) S_ .f32 0x00000000#32) reducesTo_S100000x128_S128_d0 h_S_))
            (broadcastInDim S1x128 ![] bcast_S_S1x128 (constant (F := Ideal) S_ .f32 0x47C35000#32)))))
        (subf nf (broadcastInDim S100000x128 ![0, 1] bcast_S1x128_S100000x128_0_1
          (Host.divf (broadcastInDim S1x128 ![1] bcast_S128_S1x128_1
              (Host.reduceAdd nf (constant (F := Ideal) S_ .f32 0x00000000#32) reducesTo_S100000x128_S128_d0 h_S_))
            (broadcastInDim S1x128 ![] bcast_S_S1x128 (constant (F := Ideal) S_ .f32 0x47C35000#32))))) (ix2 r' c)
        = (nf (ix2 r' c) - Ideal.div (∑ r'' : Fin 100000, nf (ix2 r'' c)) (((100000 : ℕ) : ℝ) : EReal))
          * (nf (ix2 r' c) - Ideal.div (∑ r'' : Fin 100000, nf (ix2 r'' c)) (((100000 : ℕ) : ℝ) : EReal)) := by
    intro r'
    rw [mulf_apply, subf_apply, hmean r']
  rw [Finset.sum_congr rfl fun r' _ => hsq r']

end Cert.ReferenceIdeal.RefEntry

end
-- ==== Proof.Bridge.lean ====
/-
  The two programs compute one function of finite inputs.

  THE AGGREGATE is the same term on both sides: one program narrows the features before the gather and widens the
  gathered rows again, and both changes of float format are the identity on the extended reals.  Each of its entries
  is zero plus a finite sum of entries of the features, so it is real when the features are.
  THE LAYER agrees entry by entry without any finiteness: both sides contract the same rows with the same transposed
  weights, add the same bias entries and take the same maxima with zero.  Its entries are sums of products, sums and
  maxima of real numbers, hence real.
  THE NORMALISATION then agrees entry by entry by the law of the column: the folded form over the column sums on one
  side, the centred form on the other.
-/
import proofs.«113694_j2010044694725_2_alg».proof.Proof.KValue
import proofs.«113694_j2010044694725_2_alg».proof.Proof.KEntry
import proofs.«113694_j2010044694725_2_alg».proof.Proof.RefEntry
import proofs.«113694_j2010044694725_2_alg».proof.Proof.Finite

noncomputable section

open scoped BigOperators

namespace BnBridge

open Idealize.ShloMosaic Idealize.ShloMosaic.ValueIdx GcnSpec BnFinite

/-! ## Real numbers through the operations -/

/-- Reading a real number on the extended reals commutes with the maximum (the reading is monotone). -/
theorem coe_max_real (a b : ℝ) : ((max a b : ℝ) : EReal) = max (a : EReal) (b : EReal) :=
  EReal.coe_strictMono.monotone.map_max

/-- A real number plus a finite sum of real numbers is a real number. -/
theorem real_add_sum {ι : Type*} (a : EReal) (S : Finset ι) (u : ι → EReal) (ha : ∃ r : ℝ, a = (r : EReal))
    (hu : ∀ j, ∃ r : ℝ, u j = (r : EReal)) : ∃ r : ℝ, a + ∑ j ∈ S, u j = (r : EReal) := by
  obtain ⟨ra, rfl⟩ := ha
  choose fu hfu using hu
  refine ⟨ra + ∑ j ∈ S, fu j, ?_⟩
  rw [EReal.coe_add, RealSums.coe_sum_real]
  exact congrArg _ (Finset.sum_congr rfl fun j _ => hfu j)

/-- A scatter-add of real updates into a real array is real: each entry is its own value plus a finite sum of updates. -/
theorem scatterAdd_real {s si su : Shape} (d : ScatterDims s si su) {w : ℕ} (x : s.Idx → EReal) (idx : IVec si w)
    (upd : su.Idx → EReal) (hx : AllReal x) (hu : AllReal upd) : AllReal (Ideal.hostScatterAdd d x idx upd) := by
  intro i
  unfold Ideal.hostScatterAdd
  exact real_add_sum _ _ _ (hx i) hu

/-- One entry of the layer is real when everything it reads is. -/
theorem nfEntry_real (xrow arow : Fin 128 → EReal) (wrel wroot wres : (⟨2, ![128, 128]⟩ : Shape).Idx → EReal) (brel bres : EReal)
    (c : Fin 128) (hx : ∀ l, ∃ r : ℝ, xrow l = (r : EReal)) (ha : ∀ l, ∃ r : ℝ, arow l = (r : EReal))
    (h1 : AllReal wrel) (h2 : AllReal wroot) (h3 : AllReal wres) (hb1 : ∃ r : ℝ, brel = (r : EReal)) (hb2 : ∃ r : ℝ, bres = (r : EReal)) :
    ∃ r : ℝ, Cert.KernelIdeal.KBody.nfEntry xrow arow wrel wroot wres brel bres c = (r : EReal) := by
  choose fx hfx using hx
  choose fa hfa using ha
  choose f1 hf1 using h1
  choose f2 hf2 using h2
  choose f3 hf3 using h3
  obtain ⟨b1, rfl⟩ := hb1
  obtain ⟨b2, rfl⟩ := hb2
  unfold Cert.KernelIdeal.KBody.nfEntry linRow zeroF
  rw [RealSums.sum_mul_of_real (fun l => arow l) (fun l => wrel (ix2 l c)) fa (fun l => f1 (ix2 l c)) hfa (fun l => hf1 _),
    RealSums.sum_mul_of_real (fun l => xrow l) (fun l => wroot (ix2 l c)) fx (fun l => f2 (ix2 l c)) hfx (fun l => hf2 _),
    RealSums.sum_mul_of_real (fun l => xrow l) (fun l => wres (ix2 l c)) fx (fun l => f3 (ix2 l c)) hfx (fun l => hf3 _),
    BnConsts.ofBits_zero]
  refine ⟨max ((∑ l, fa l * f1 (ix2 l c)) + b1 + (∑ l, fx l * f2 (ix2 l c))) 0 + max ((∑ l, fx l * f3 (ix2 l c)) + b2) 0, ?_⟩
  simp only [EReal.coe_add, coe_max_real, EReal.coe_zero]

/-! ## The aggregate -/

/-- The two programs' aggregates are one term: the changes of float format around the gather are the identity. -/
theorem agg_eq (a0 : Cert.KernelIdeal.S100000x128.Idx → EReal) (a1 : IVec Cert.KernelIdeal.S2x1600000 32) :
    Cert.KernelIdeal.KHost.aggOf (F := Ideal) a0 a1 = Cert.ReferenceIdeal.RefRun.aggOf (F := Ideal) a0 a1 := rfl

/-- The aggregate of real features is real. -/
theorem agg_real (a0 : Cert.ReferenceIdeal.S100000x128.Idx → EReal) (a1 : IVec Cert.ReferenceIdeal.S2x1600000 32) (h0 : AllReal a0) :
    AllReal (Cert.ReferenceIdeal.RefRun.aggOf (F := Ideal) a0 a1) := by
  unfold Cert.ReferenceIdeal.RefRun.aggOf
  refine scatterAdd_real _ _ _ _ (fun i => ⟨0, ?_⟩) (fun j => h0 _)
  show Ideal.ofBits .f32 0x00000000#32 = _
  rw [BnConsts.ofBits_zero, EReal.coe_zero]

/-! ## The layer -/

/-- The weight a kernel window holds (transposed, narrowed) is the transposed weight. -/
theorem wOf_eq (w : Cert.KernelIdeal.S128x128.Idx → EReal) :
    Cert.KernelIdeal.KHost.wOf (F := Ideal) w
      = transpose Cert.ReferenceIdeal.S128x128 [1, 0] w Cert.ReferenceIdeal.Facts₀.transposes_S128x128_S128x128_1_0 := rfl

/-- THE LAYER: the two programs' new features are one array. -/
theorem nf_eq (a0 : Cert.KernelIdeal.S100000x128.Idx → EReal) (a1 : IVec Cert.KernelIdeal.S2x1600000 32)
    (a2 : Cert.KernelIdeal.S128x128.Idx → EReal) (a3 : Cert.KernelIdeal.S128.Idx → EReal)
    (a4 a5 : Cert.KernelIdeal.S128x128.Idx → EReal) (a6 : Cert.KernelIdeal.S128.Idx → EReal) :
    Cert.KernelIdeal.KValue.kerNF a0 a1 a2 a3 a4 a5 a6
      = Cert.ReferenceIdeal.RefRun.nfOf (F := Ideal) a0 (Cert.ReferenceIdeal.RefRun.aggOf (F := Ideal) a0 a1) a2 a3 a4 a5 a6 := by
  funext i
  obtain ⟨r, c, rfl⟩ : ∃ (r : Fin 100000) (c : Fin 128), i = ix2 r c := ⟨i 0, i 1, eq_ix2 i⟩
  rw [Cert.ReferenceIdeal.RefEntry.nfOf_apply]
  unfold Cert.KernelIdeal.KValue.kerNF
  rw [Cert.KernelIdeal.KReg0.nfArr_ix2, Cert.KernelIdeal.KEntry.rowOfVec_apply, Cert.KernelIdeal.KEntry.rowOfVec_apply,
    agg_eq, wOf_eq, wOf_eq, wOf_eq]

/-- The transposed weight of a real weight is real. -/
theorem transpose_real (w : Cert.ReferenceIdeal.S128x128.Idx → EReal) (h : AllReal w) :
    AllReal (transpose Cert.ReferenceIdeal.S128x128 [1, 0] w Cert.ReferenceIdeal.Facts₀.transposes_S128x128_S128x128_1_0) :=
  fun i => h _

/-- The layer of real inputs, over ANY real aggregate, is real. -/
theorem nf_real (a0 agg : Cert.ReferenceIdeal.S100000x128.Idx → EReal)
    (a2 : Cert.ReferenceIdeal.S128x128.Idx → EReal) (a3 : Cert.ReferenceIdeal.S128.Idx → EReal)
    (a4 a5 : Cert.ReferenceIdeal.S128x128.Idx → EReal) (a6 : Cert.ReferenceIdeal.S128.Idx → EReal)
    (h0 : AllReal a0) (hagg : AllReal agg) (h2 : AllReal a2) (h3 : AllReal a3) (h4 : AllReal a4) (h5 : AllReal a5) (h6 : AllReal a6) :
    AllReal (Cert.ReferenceIdeal.RefRun.nfOf (F := Ideal) a0 agg a2 a3 a4 a5 a6) := by
  intro i
  obtain ⟨r, c, rfl⟩ : ∃ (r : Fin 100000) (c : Fin 128), i = ix2 r c := ⟨i 0, i 1, eq_ix2 i⟩
  rw [Cert.ReferenceIdeal.RefEntry.nfOf_apply]
  have hx : ∀ l : Fin 128, ∃ r' : ℝ, row (n := 100000) (k := 128) a0 r l = (r' : EReal) := fun l => h0 (ix2 r l)
  have ha : ∀ l : Fin 128, ∃ r' : ℝ, row (n := 100000) (k := 128) agg r l = (r' : EReal) := fun l => hagg (ix2 r l)
  exact nfEntry_real (row (n := 100000) (k := 128) a0 r) (row (n := 100000) (k := 128) agg r)
    (transpose Cert.ReferenceIdeal.S128x128 [1, 0] a2 Cert.ReferenceIdeal.Facts₀.transposes_S128x128_S128x128_1_0)
    (transpose Cert.ReferenceIdeal.S128x128 [1, 0] a4 Cert.ReferenceIdeal.Facts₀.transposes_S128x128_S128x128_1_0)
    (transpose Cert.ReferenceIdeal.S128x128 [1, 0] a5 Cert.ReferenceIdeal.Facts₀.transposes_S128x128_S128x128_1_0)
    (a3 (ix1 c)) (a6 (ix1 c)) c hx ha (transpose_real a2 h2) (transpose_real a4 h4) (transpose_real a5 h5) (h3 (ix1 c)) (h6 (ix1 c))

/-! ## The result -/

/-- THE TWO RESULTS ARE EQUAL when every float input holds real numbers. -/
theorem out_eq (a0 : Cert.KernelIdeal.S100000x128.Idx → EReal) (a1 : IVec Cert.KernelIdeal.S2x1600000 32)
    (a2 : Cert.KernelIdeal.S128x128.Idx → EReal) (a3 : Cert.KernelIdeal.S128.Idx → EReal)
    (a4 a5 : Cert.KernelIdeal.S128x128.Idx → EReal) (a6 a7 a8 : Cert.KernelIdeal.S128.Idx → EReal)
    (h0 : AllReal a0) (h2 : AllReal a2) (h3 : AllReal a3) (h4 : AllReal a4) (h5 : AllReal a5) (h6 : AllReal a6)
    (h7 : AllReal a7) (h8 : AllReal a8) :
    Cert.KernelIdeal.KValue.kerOut a0 a1 a2 a3 a4 a5 a6 a7 a8
      = Cert.ReferenceIdeal.RefRun.bnOf (F := Ideal)
          (Cert.ReferenceIdeal.RefRun.nfOf (F := Ideal) a0 (Cert.ReferenceIdeal.RefRun.aggOf (F := Ideal) a0 a1) a2 a3 a4 a5 a6) a7 a8 := by
  unfold Cert.KernelIdeal.KValue.kerOut
  rw [nf_eq]
  obtain ⟨f, hf⟩ : ∃ f : Cert.ReferenceIdeal.S100000x128.Idx → ℝ,
      Cert.ReferenceIdeal.RefRun.nfOf (F := Ideal) a0 (Cert.ReferenceIdeal.RefRun.aggOf (F := Ideal) a0 a1) a2 a3 a4 a5 a6
        = fun i => (f i : EReal) := by
    choose f hf using nf_real a0 (Cert.ReferenceIdeal.RefRun.aggOf (F := Ideal) a0 a1) a2 a3 a4 a5 a6 h0 (agg_real a0 a1 h0) h2 h3 h4 h5 h6
    exact ⟨f, funext hf⟩
  rw [hf]
  funext i
  obtain ⟨r, c, rfl⟩ : ∃ (r : Fin 100000) (c : Fin 128), i = ix2 r c := ⟨i 0, i 1, eq_ix2 i⟩
  obtain ⟨g, hg⟩ := h7 (ix1 c)
  obtain ⟨b, hb⟩ := h8 (ix1 c)
  unfold Cert.KernelIdeal.KValue.normOf
  rw [Cert.KernelIdeal.KEntry.norm_entry, Cert.ReferenceIdeal.RefEntry.bnOf_apply, hg, hb]
  exact BnLaw.folded_eq_centred (N := 100000) (by norm_num) (fun r' => f (ix2 r' c)) BnConsts.epsR BnConsts.epsR_pos g b (f (ix2 r c))

end BnBridge

end
-- ==== Proof.lean ====
/-
  A graph-convolution layer with batch normalization: a kernel program against its reference, on the extended reals.

  Both programs compute, from features x (100000 × 128), an index array (2 × 1600000) and parameters,
      agg  = for each row i, the sum of the rows x[src e] over the edges e with dst e = i,
      nf   = max (agg · Wrelᵀ + brel + x · Wrootᵀ) 0 + max (x · Wresᵀ + bres) 0,
      out  = the columns of nf normalized by their mean and variance, times gamma, plus beta.
  The kernel program computes nf in a first region, twenty blocks of 5000 rows, together with each block's column
  sums of nf and of nf²; a host stretch adds the twenty partial sums, forms the mean, the variance as
  max (E[nf²] − mean²) 0 and folds gamma, beta, the mean and the inverse square root into one scale and one shift per
  column; a second region applies nf · scale + shift block by block.  The reference computes the variance as the mean
  of the squared differences from the mean and applies (nf − mean) · rsqrt (var + eps) · gamma + beta.

  On the extended reals the changes of float format are the identity, a matrix unit's product onto a zero
  accumulator is the host's contraction, and a sum may be regrouped; so the two layers nf are one array.  The two
  normalizations are equal by the identity E[c²] − μ² = E[(c − μ)²] ≥ 0 of a real column and by distributivity, both
  of which need every quantity finite: that is where the precondition (every float input finite) is used.

  The frames of the two kernel programs are the generated ones; the reference's frame is its run with the result
  dropped; the idealization rewrote no operation, so it preserves the kernel trivially.
-/
import proofs.«113694_j2010044694725_2_alg».proof.Defs
import proofs.«113694_j2010044694725_2_alg».proof.Proof.Gen.Kernel
import proofs.«113694_j2010044694725_2_alg».proof.Proof.Gen.Kernel.Frame
import proofs.«113694_j2010044694725_2_alg».proof.Proof.Gen.KernelIdeal
import proofs.«113694_j2010044694725_2_alg».proof.Proof.Gen.KernelIdeal.Frame
import proofs.«113694_j2010044694725_2_alg».proof.Proof.Gen.ReferenceIdeal
import proofs.«113694_j2010044694725_2_alg».proof.Proof.Gen.Pre_finite_inputs
import proofs.«113694_j2010044694725_2_alg».proof.Proof.KValue
import proofs.«113694_j2010044694725_2_alg».proof.Proof.RefRun
import proofs.«113694_j2010044694725_2_alg».proof.Proof.Finite
import proofs.«113694_j2010044694725_2_alg».proof.Proof.Bridge
import Idealize.ShloMosaic.Adequacy
import Idealize.ShloMosaic.Init

noncomputable section

namespace Cert.Proof

open Idealize.ShloMosaic Idealize.SL.Sem

/-- The kernel program as printed runs and leaves its arguments unchanged. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and leaves its arguments unchanged: its run, the result dropped. -/
theorem frame_ri : Cert.frame_ReferenceIdeal := fun m ρ _ =>
  (θ_run Cert.ReferenceIdeal.defs _ _).mono (fun _ h c => (h c).2) (Cert.ReferenceIdeal.RefRun.run (F := Ideal) m ρ)

/-- No operation was rewritten. -/
theorem preserves : Cert.preserves_Kernel_KernelIdeal := trivial

/-- From memories that agree on the arguments, both idealized programs run and end with the same result array:
    the kernel program's result as a function of its arguments, the reference's as the composition of its three
    stages, equal because the precondition makes every float input finite. -/
theorem algebraic : Cert.algebraic_KernelIdeal_ReferenceIdeal := by
  intro m ρ m' ρ' hpre hagree
  refine ⟨fun c => Cert.KernelIdeal.KValue.kerOut
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8)),
    Cert.KernelIdeal.KValue.run m ρ, ?_⟩
  refine (θ_run Cert.ReferenceIdeal.defs _ _).mono (fun _ h c => ⟨(h c).1.trans ?_, (h c).2⟩)
    (Cert.ReferenceIdeal.RefRun.run (F := Ideal) m' ρ')
  obtain ⟨e0, e1, e2, e3, e4, e5, e6, e7, e8⟩ := hagree c
  rw [e0, e1, e2, e3, e4, e5, e6, e7, e8]
  obtain ⟨h0, h2, h3, h4, h5, h6, h7, h8⟩ := BnFinite.reals_of_pre _ _ _ _ _ _ _ _ _ (hpre c)
  exact (BnBridge.out_eq _ _ _ _ _ _ _ _ _ h0 h2 h3 h4 h5 h6 h7 h8).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
